-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x1 : Shape := ⟨3, ![16, 8192, 1]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1x1024x1 : Shape := ⟨3, ![1, 1024, 1]⟩
abbrev S1024 : Shape := ⟨1, ![1024]⟩

abbrev nBuf : Space → Nat
  | .hbm => 17
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x512, .bf16⟩
  | .hbm, ⟨12, _⟩ => ⟨S8192x512, .bf16⟩
  | .hbm, ⟨13, _⟩ => ⟨S8192x8192, .f32⟩
  | .hbm, ⟨14, _⟩ => ⟨S16x8192x1, .f32⟩
  | .hbm, ⟨15, _⟩ => ⟨S8192x1, .f32⟩
  | .hbm, ⟨16, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1x1024x1, .f32⟩
  | .local _ .vmem, ⟨11, _⟩ => ⟨S1x1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1x1024x1, .f32⟩
  | .local _ .vmem, ⟨17, _⟩ => ⟨S1x1024x1, .f32⟩
  | .local _ .vmem, ⟨18, _⟩ => ⟨S1024x1, .f32⟩
  | .local _ .vmem, ⟨19, _⟩ => ⟨S1024x1, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v57 : BitVec 1 := Scalar.cmpi .eq arg1 c15_i32
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x8192.size a
  hwx0_4 : ∀ i : grid0.Coords, EltTy.bits .f32 = 32 ∨ (Rect.block (s := S8192x8192) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S16x8192x1.size a
  hwx0_5 : ∀ i : grid0.Coords, EltTy.bits .f32 = 32 ∨ (Rect.block (s := S16x8192x1) S1x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1.size a ≤ S16x8192x1.size a
  hwx1_0 : ∀ i : grid1.Coords, EltTy.bits .f32 = 32 ∨ (Rect.block (s := S16x8192x1) S1x1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x8192.size a
  hwx1_2 : ∀ i : grid1.Coords, EltTy.bits .f32 = 32 ∨ (Rect.block (s := S8192x8192) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x8192.size a
  hwx1_3 : ∀ i : grid1.Coords, EltTy.bits .f32 = 32 ∨ (Rect.block (s := S8192x8192) S1024x512.size (cc1_transform_3 i) (hinb1_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v9_1) S1x1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_2) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  halias1_3 : Pipeline.Aliased win1 2 3

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x8192, .f32⟩
  | .hbm, ⟨56, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.WordComputeBase.lean ====
/-
  (The program as printed, read at the word-level instance: the same argument as for its idealization, which is the
  same text read at the extended reals.)
  The distance-softmax kernel's first region walks an 8 × 16 grid: point t = 16·i + j handles row block i (1024 query
  rows) against key block j (512 keys). Two conditions on j shape the body: at j = 0 it resets the running row maximum
  and running row sum it keeps in two scratch columns, and at j = 15 it writes the row's log-sum-exp. This module states
  the two conditions as propositions of the grid point, decides them over the 128 points in closed form, records where
  the log-sum-exp window is left untouched, and opens the region's standing invariant at the two scratch columns.
-/
import proofs.«137461_j77884936945679_2_alg».proof.Proof.Gen.Kernel.Launch
import proofs.«137461_j77884936945679_2_alg».proof.Proof.Gen.Kernel.Skeleton
import proofs.«137461_j77884936945679_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions on the key-block coordinate -/

/-- The body is at the first key block of its row block (j = 0): it resets the running maximum and sum. -/
abbrev atFirst (i : grid0.Coords) : Prop :=
  (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body is at the last key block of its row block (j = 15): it writes the log-sum-exp column. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The log-sum-exp window is stored into only at the last key block; elsewhere it is idle and not written back. -/
theorem idle6 : ∀ t : Fin cfg0.N, ¬ atLast (grid0.coords t) → cfg0.idle 6 (grid0.coords t) = true := by decide +kernel
theorem noFlush6 : ∀ t : Fin cfg0.N, ¬ atLast (grid0.coords t) → (cfg0.win 6).flush t = false := by decide +kernel
theorem live6 : ∀ t : Fin cfg0.N, atLast (grid0.coords t) → cfg0.idle 6 (grid0.coords t) = false := by decide +kernel

/-! ## The memrefs the body is called on -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The running row maximum's scratch column and the running row sum's. -/
abbrev scMax : Memref sig .tc .vmem S1024x1 .f32 := Memref.whole cc0_scratch0
abbrev scSum : Memref sig .tc .vmem S1024x1 .f32 := Memref.whole cc0_scratch1

/-- The region's standing invariant with the two scratch columns split off as memrefs owned at some contents; the
    remaining scoped buffers (the second region's staging buffers) stay at some contents each. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA_eq (c : Dev nD) :
    (Pipeline.ΦA spec0 c : sProp 𝕄)
      = iprop(iprop((∃ d, owns (c : Thread nD τ) scMax fullShare d) ∗ (∃ d, owns (c : Thread nD τ) scSum fullShare d) ∗ restOther (F := F) c) ∗ (∃ r, prngReg c r)) := by
  unfold Pipeline.ΦA restOther; rw [scopedRest0_eq]; simp only [scMax, scSum, owns_whole]; try rfl

end Cert.Kernel.Compute

end
-- ==== Proof.WordComputeRunMid.lean ====
/-
  (The program as printed, read at the word-level instance: the same argument as for its idealization, which is the
  same text read at the extended reals.)
  One key block in the middle of a row block (neither the first nor the last of its sixteen): the body reads the query
  and key tiles and the two norm vectors, the running maximum and running sum, and leaves the exponentials of the
  shifted scores in the dense output tile, the new running maximum in the history slab and in its scratch column, and
  the rescaled-and-extended running sum in its scratch column; the log-sum-exp column is not touched. What each buffer
  ends with is found by running the body's memory operations symbolically.
-/
import proofs.«137461_j77884936945679_2_alg».proof.Proof.WordComputeBase
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle key block, on whole staging memrefs: inputs at their contents, the dense tile and the history
    slab at anything, the log-sum-exp column handed back as found, the two scratch columns at what the key block before
    left; it runs to the continuation with each written buffer at its stores' pieces. -/
noncomputable def runMid (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) :
    Σ' (L4 : List (View.Piece (Elt F) S1024x512 .f32)), Σ' (L5 : List (View.Piece (Elt F) S1x1024x1 .f32)), Σ' (LM : List (View.Piece (Elt F) S1024x1 .f32)), { LS : List (View.Piece (Elt F) S1024x1 .f32) //
      ∀ (xi6 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare xi6 ∗ owns (c : Thread nD τ) a9 fullShare xm ∗ owns (c : Thread nD τ) a10 fullShare xl
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ owns (c : Thread nD τ) a8 fullShare xi6 ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, fun xi6 E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fm, %hfm, HM⟩, ⟨%fl, %hfl, HL⟩, Hk⟩
    obtain rfl := h2.eq_unread hf0; obtain rfl := h3.eq_unread hf1; obtain rfl := h4.eq_unread hf2; obtain rfl := h5.eq_unread hf3; obtain rfl := h8.eq_unread hf6; obtain rfl := h9.eq_unread hfm; obtain rfl := h10.eq_unread hfl
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]
    · iexists _; isplitr; · ipureintro; exact h8.read_unread _
      iexact H6
    isplitl [HM]; · iexists _; iexact HM
    iexists _; iexact HL

end Cert.Kernel.Compute

end
-- ==== Proof.WordComputeRunFirst.lean ====
/-
  (The program as printed, read at the word-level instance: the same argument as for its idealization, which is the
  same text read at the extended reals.)
  The first key block of a row block: the body first resets the running maximum to −∞ and the running sum to 0 in the
  two scratch columns (whatever they held), then proceeds as at any key block; the log-sum-exp column is not touched.
-/
import proofs.«137461_j77884936945679_2_alg».proof.Proof.WordComputeBase
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first key block, on whole staging memrefs: inputs at their contents, the dense tile, the history
    slab and both scratch columns at anything, the log-sum-exp column handed back as found. -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) :
    Σ' (L4 : List (View.Piece (Elt F) S1024x512 .f32)), Σ' (L5 : List (View.Piece (Elt F) S1x1024x1 .f32)), Σ' (LM : List (View.Piece (Elt F) S1024x1 .f32)), { LS : List (View.Piece (Elt F) S1024x1 .f32) //
      ∀ (xi6 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare xi6 ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ owns (c : Thread nD τ) a8 fullShare xi6 ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, fun xi6 E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%dm, %fm, -, HM⟩, ⟨%dl, %fl, -, HL⟩, Hk⟩
    obtain rfl := h2.eq_unread hf0; obtain rfl := h3.eq_unread hf1; obtain rfl := h4.eq_unread hf2; obtain rfl := h5.eq_unread hf3; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]
    · iexists _; isplitr; · ipureintro; exact h8.read_unread _
      iexact H6
    isplitl [HM]; · iexists _; iexact HM
    iexists _; iexact HL

end Cert.Kernel.Compute

end
-- ==== Proof.WordComputeRunLast.lean ====
/-
  (The program as printed, read at the word-level instance: the same argument as for its idealization, which is the
  same text read at the extended reals.)
  The last key block of a row block: the body proceeds as at any key block and then writes the row's log-sum-exp, the
  final running maximum plus the logarithm of the final running sum, into its column.
-/
import proofs.«137461_j77884936945679_2_alg».proof.Proof.WordComputeBase
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last key block, on whole staging memrefs: inputs at their contents, the three output buffers at
    anything, the two scratch columns at what the key block before left. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) :
    Σ' (L4 : List (View.Piece (Elt F) S1024x512 .f32)), Σ' (L5 : List (View.Piece (Elt F) S1x1024x1 .f32)), Σ' (L6 : List (View.Piece (Elt F) S1024x1 .f32)), Σ' (LM : List (View.Piece (Elt F) S1024x1 .f32)), { LS : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d) ∗ owns (c : Thread nD τ) a9 fullShare xm ∗ owns (c : Thread nD τ) a10 fullShare xl
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, ?_, fun E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fm, %hfm, HM⟩, ⟨%fl, %hfl, HL⟩, Hk⟩
    obtain rfl := h2.eq_unread hf0; obtain rfl := h3.eq_unread hf1; obtain rfl := h4.eq_unread hf2; obtain rfl := h5.eq_unread hf3; obtain rfl := h9.eq_unread hfm; obtain rfl := h10.eq_unread hfl
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HM]; · iexists _; iexact HM
    iexists _; iexact HL

end Cert.Kernel.Compute

end
-- ==== Proof.WordComputeContents.lean ====
/-
  (The program as printed, read at the word-level instance: the same argument as for its idealization, which is the
  same text read at the extended reals.)
  What the first region's body leaves, in the body's own arithmetic. Write, for the four input blocks of a grid point and
  the running maximum `xm` the point starts from, `k0_pay9 … xm` for the new running maximum (the old one against the
  row maxima of this tile's scores) and `k0_pay10 … xm` for the tile's scores shifted by it. Then the dense tile ends at
  the exponentials of the shifted scores, the history slab and the maximum's scratch column at the new running maximum,
  the sum's scratch column at  old sum · exp(old max − new max) + the row sums of those exponentials,  and, at the last
  key block, the log-sum-exp column at  new max + log(new sum).  At the first key block the point starts from the reset
  pair (−∞, 0). Every store covers its whole buffer, so each buffer reads back its last store's payload.
-/
import proofs.«137461_j77884936945679_2_alg».proof.Proof.WordComputeRunMid
import proofs.«137461_j77884936945679_2_alg».proof.Proof.WordComputeRunFirst
import proofs.«137461_j77884936945679_2_alg».proof.Proof.WordComputeRunLast
import Idealize.ShloMosaic.Lib.Pipeline.Value
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem z2 : (![0, 0] : Fin 2 → Nat) = fun _ => 0 := by funext a; fin_cases a <;> rfl
theorem z3 : (![0, 0, 0] : Fin 3 → Nat) = fun _ => 0 := by funext a; fin_cases a <;> rfl

/-- A store through the whole buffer, made last, leaves its payload whatever was stored before and whatever the
    buffer held. -/
theorem read_writes_head {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon v f _ (fun y => ⟨_, List.mem_cons_self, by show y ∈ (Rect.whole S).set; rw [Rect.set_whole]; exact Finset.mem_univ y⟩), View.canon_cons_unit_zero rfl]

/-! ## A middle key block -/

theorem mid_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a6.view.ty.Contents (Elt F)) :
    a6.view.read (Elt F) (a6.view.writes (Elt F) f (runMid (F := F) c i a2 h2 a3 h3 a4 h4 a5 h5 a6 h6 a7 h7 a8 h8 a9 h9 a10 h10 hF hL x0 x1 x2 x3 xm xl).1) = k0_pay1 (k0_pay10 x0 x1 x2 x3 xm) := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a7.view.ty.Contents (Elt F)) :
    a7.view.read (Elt F) (a7.view.writes (Elt F) f (runMid (F := F) c i a2 h2 a3 h3 a4 h4 a5 h5 a6 h6 a7 h7 a8 h8 a9 h9 a10 h10 hF hL x0 x1 x2 x3 xm xl).2.1) = k0_pay4 (k0_pay9 x0 x1 x2 x3 xm) := by
  unfold runMid
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a9.view.ty.Contents (Elt F)) :
    a9.view.read (Elt F) (a9.view.writes (Elt F) f (runMid (F := F) c i a2 h2 a3 h3 a4 h4 a5 h5 a6 h6 a7 h7 a8 h8 a9 h9 a10 h10 hF hL x0 x1 x2 x3 xm xl).2.2.1) = k0_pay3 (k0_pay9 x0 x1 x2 x3 xm) := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a10.view.ty.Contents (Elt F)) :
    a10.view.read (Elt F) (a10.view.writes (Elt F) f (runMid (F := F) c i a2 h2 a3 h3 a4 h4 a5 h5 a6 h6 a7 h7 a8 h8 a9 h9 a10 h10 hF hL x0 x1 x2 x3 xm xl).2.2.2.1) = k0_pay2 xm (k0_pay9 x0 x1 x2 x3 xm) (k0_pay10 x0 x1 x2 x3 xm) xl := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

/-! ## The first key block of a row block: from the reset pair -/

theorem first_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a6.view.ty.Contents (Elt F)) :
    a6.view.read (Elt F) (a6.view.writes (Elt F) f (runFirst (F := F) c i a2 h2 a3 h3 a4 h4 a5 h5 a6 h6 a7 h7 a8 h8 a9 h9 a10 h10 hF hL x0 x1 x2 x3).1) = k0_pay1 (k0_pay10 x0 x1 x2 x3 (k0_pay6 (F := F))) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a7.view.ty.Contents (Elt F)) :
    a7.view.read (Elt F) (a7.view.writes (Elt F) f (runFirst (F := F) c i a2 h2 a3 h3 a4 h4 a5 h5 a6 h6 a7 h7 a8 h8 a9 h9 a10 h10 hF hL x0 x1 x2 x3).2.1) = k0_pay4 (k0_pay9 x0 x1 x2 x3 (k0_pay6 (F := F))) := by
  unfold runFirst
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a9.view.ty.Contents (Elt F)) :
    a9.view.read (Elt F) (a9.view.writes (Elt F) f (runFirst (F := F) c i a2 h2 a3 h3 a4 h4 a5 h5 a6 h6 a7 h7 a8 h8 a9 h9 a10 h10 hF hL x0 x1 x2 x3).2.2.1) = k0_pay3 (k0_pay9 x0 x1 x2 x3 (k0_pay6 (F := F))) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a10.view.ty.Contents (Elt F)) :
    a10.view.read (Elt F) (a10.view.writes (Elt F) f (runFirst (F := F) c i a2 h2 a3 h3 a4 h4 a5 h5 a6 h6 a7 h7 a8 h8 a9 h9 a10 h10 hF hL x0 x1 x2 x3).2.2.2.1) = k0_pay2 (k0_pay6 (F := F)) (k0_pay9 x0 x1 x2 x3 (k0_pay6 (F := F))) (k0_pay10 x0 x1 x2 x3 (k0_pay6 (F := F))) (k0_pay7 (F := F)) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

/-! ## The last key block of a row block -/

theorem last_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a6.view.ty.Contents (Elt F)) :
    a6.view.read (Elt F) (a6.view.writes (Elt F) f (runLast (F := F) c i a2 h2 a3 h3 a4 h4 a5 h5 a6 h6 a7 h7 a8 h8 a9 h9 a10 h10 hF hL x0 x1 x2 x3 xm xl).1) = k0_pay1 (k0_pay10 x0 x1 x2 x3 xm) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a7.view.ty.Contents (Elt F)) :
    a7.view.read (Elt F) (a7.view.writes (Elt F) f (runLast (F := F) c i a2 h2 a3 h3 a4 h4 a5 h5 a6 h6 a7 h7 a8 h8 a9 h9 a10 h10 hF hL x0 x1 x2 x3 xm xl).2.1) = k0_pay4 (k0_pay9 x0 x1 x2 x3 xm) := by
  unfold runLast
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_lse (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a8.view.ty.Contents (Elt F)) :
    a8.view.read (Elt F) (a8.view.writes (Elt F) f (runLast (F := F) c i a2 h2 a3 h3 a4 h4 a5 h5 a6 h6 a7 h7 a8 h8 a9 h9 a10 h10 hF hL x0 x1 x2 x3 xm xl).2.2.1) = k0_pay5 (k0_pay3 (k0_pay9 x0 x1 x2 x3 xm)) (k0_pay2 xm (k0_pay9 x0 x1 x2 x3 xm) (k0_pay10 x0 x1 x2 x3 xm) xl) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a9.view.ty.Contents (Elt F)) :
    a9.view.read (Elt F) (a9.view.writes (Elt F) f (runLast (F := F) c i a2 h2 a3 h3 a4 h4 a5 h5 a6 h6 a7 h7 a8 h8 a9 h9 a10 h10 hF hL x0 x1 x2 x3 xm xl).2.2.2.1) = k0_pay3 (k0_pay9 x0 x1 x2 x3 xm) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a10.view.ty.Contents (Elt F)) :
    a10.view.read (Elt F) (a10.view.writes (Elt F) f (runLast (F := F) c i a2 h2 a3 h3 a4 h4 a5 h5 a6 h6 a7 h7 a8 h8 a9 h9 a10 h10 hF hL x0 x1 x2 x3 xm xl).2.2.2.2.1) = k0_pay2 xm (k0_pay9 x0 x1 x2 x3 xm) (k0_pay10 x0 x1 x2 x3 xm) xl := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

end Cert.Kernel.Compute

end
-- ==== Proof.WordComputeData.lean ====
/-
  (The program as printed, read at the word-level instance: the same argument as for its idealization, which is the
  same text read at the extended reals.)
  The first region's proof data. At grid point t = 16·i + j the body sees the blocks of its four input windows (query
  tile i, key tile j, the query norms of row block i, the key norms of key block j) and the pair (running maximum,
  running sum) that row block i has accumulated over key blocks 0 … j−1 — the reset pair (−∞, 0) when j = 0. One step
  function takes the blocks and that pair to the pair after the point; the pair is carried from point to point in two
  scratch columns, which the region's invariant names after every point. The dense tile and the history slab are
  functions of the blocks and the incoming maximum; the log-sum-exp column is a function of the outgoing pair and is
  stored (and written back) only at j = 15.
-/
import proofs.«137461_j77884936945679_2_alg».proof.Proof.WordComputeContents
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    point has the block index of the point before). -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The carried pair -/

/-- One key block's effect on the pair (running maximum, running sum). -/
def stepPair (x0 : Vec F S1024x512 .bf16) (x1 : Vec F S512x512 .bf16) (x2 : Vec F S1024x1 .f32) (x3 : Vec F S1x512 .f32)
    (p : Vec F S1024x1 .f32 × Vec F S1024x1 .f32) : Vec F S1024x1 .f32 × Vec F S1024x1 .f32 :=
  (k0_pay3 (k0_pay9 x0 x1 x2 x3 p.1), k0_pay2 p.1 (k0_pay9 x0 x1 x2 x3 p.1) (k0_pay10 x0 x1 x2 x3 p.1) p.2)

/-- The pair a row block starts from: −∞ and 0 in every row. -/
def resetPair : Vec F S1024x1 .f32 × Vec F S1024x1 .f32 := (k0_pay6, k0_pay7)

/-- The pair after point `n`: a step from the reset pair at the first key block of a row block, from the pair after
    the point before otherwise. -/
def pairAt (c : Dev nD) : (n : ℕ) → n < cfg0.N → Vec F S1024x1 .f32 × Vec F S1024x1 .f32
  | 0, hn => stepPair (blk V c 0 ⟨0, hn⟩) (blk V c 1 ⟨0, hn⟩) (blk V c 2 ⟨0, hn⟩) (blk V c 3 ⟨0, hn⟩) resetPair
  | n + 1, hn => stepPair (blk V c 0 ⟨n + 1, hn⟩) (blk V c 1 ⟨n + 1, hn⟩) (blk V c 2 ⟨n + 1, hn⟩) (blk V c 3 ⟨n + 1, hn⟩)
      (if (n + 1) % 16 = 0 then resetPair else pairAt c n (Nat.lt_of_succ_lt hn))

/-- The pair point `t` starts from. -/
def pairIn (c : Dev nD) (t : Fin cfg0.N) : Vec F S1024x1 .f32 × Vec F S1024x1 .f32 :=
  if t.val % 16 = 0 then resetPair else pairAt V c (t.val - 1) (Nat.lt_of_le_of_lt (Nat.sub_le _ _) t.isLt)

theorem pairAt_eq (c : Dev nD) (t : Fin cfg0.N) :
    pairAt V c t.val t.isLt = stepPair (blk V c 0 t) (blk V c 1 t) (blk V c 2 t) (blk V c 3 t) (pairIn V c t) := by
  obtain ⟨n, hn⟩ := t
  cases n with
  | zero => rfl
  | succ n => rfl

theorem pairIn_first (c : Dev nD) (t : Fin cfg0.N) (h : t.val % 16 = 0) : pairIn V c t = resetPair := by
  unfold pairIn; rw [if_pos h]
theorem pairIn_later (c : Dev nD) (t : Fin cfg0.N) (h : ¬ t.val % 16 = 0) :
    pairIn V c t = pairAt V c (t.val - 1) (Nat.lt_of_le_of_lt (Nat.sub_le _ _) t.isLt) := by
  unfold pairIn; rw [if_neg h]

/-! ## The invariant -/

/-- Before point `n`: at the region's entry the class's invariant (every scoped buffer at anything); afterwards the two
    scratch columns at the pair the point before left, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scMax fullShare (pairAt V c n hn).1 ∗ owns (c : Thread nD τ) scSum fullShare (pairAt V c n hn).2 ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (pairAt V c n hn).1 ∗ owns (c : Thread nD τ) scSum fullShare (pairAt V c n hn).2 ∗ restOther (F := F) c) ∗ (∃ r, prngReg c r)) := rfl
theorem PhiS_pos (c : Dev nD) (n : ℕ) (h : n ≤ cfg0.N) (hz : n ≠ 0) :
    PhiS V c n h = iprop(iprop(owns (c : Thread nD τ) scMax fullShare (pairAt V c (n - 1) (by omega)).1 ∗ owns (c : Thread nD τ) scSum fullShare (pairAt V c (n - 1) (by omega)).2 ∗ restOther (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay1 (k0_pay10 (blk V c 0 t) (blk V c 1 t) (blk V c 2 t) (blk V c 3 t) (pairIn V c t).1)
    | ⟨5, _⟩ => k0_pay4 (k0_pay9 (blk V c 0 t) (blk V c 1 t) (blk V c 2 t) (blk V c 3 t) (pairIn V c t).1)
    | ⟨6, _⟩ => k0_pay5 (pairAt V c t.val t.isLt).1 (pairAt V c t.val t.isLt).2
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = blk V c 0 t := by dsimp only [dat0]
theorem after_1 (c : Dev nD) (t : Fin cfg0.N) : (dat0 V c).after 1 t = blk V c 1 t := by dsimp only [dat0]
theorem after_2 (c : Dev nD) (t : Fin cfg0.N) : (dat0 V c).after 2 t = blk V c 2 t := by dsimp only [dat0]
theorem after_3 (c : Dev nD) (t : Fin cfg0.N) : (dat0 V c).after 3 t = blk V c 3 t := by dsimp only [dat0]
theorem after_4 (c : Dev nD) (t : Fin cfg0.N) : (dat0 V c).after 4 t = k0_pay1 (k0_pay10 (blk V c 0 t) (blk V c 1 t) (blk V c 2 t) (blk V c 3 t) (pairIn V c t).1) := by dsimp only [dat0]
theorem after_5 (c : Dev nD) (t : Fin cfg0.N) : (dat0 V c).after 5 t = k0_pay4 (k0_pay9 (blk V c 0 t) (blk V c 1 t) (blk V c 2 t) (blk V c 3 t) (pairIn V c t).1) := by dsimp only [dat0]
theorem after_6 (c : Dev nD) (t : Fin cfg0.N) : (dat0 V c).after 6 t = k0_pay5 (pairAt V c t.val t.isLt).1 (pairAt V c t.val t.isLt).2 := by dsimp only [dat0]

theorem before_0 (c : Dev nD) (t : Fin cfg0.N) (d) : (dat0 V c).before 0 t d = blk V c 0 t := before_in0 V (dat0 V c) (A_eq V c 0) (after_0 V c) t d
theorem before_1 (c : Dev nD) (t : Fin cfg0.N) (d) : (dat0 V c).before 1 t d = blk V c 1 t := before_in1 V (dat0 V c) (A_eq V c 1) (after_1 V c) t d
theorem before_2 (c : Dev nD) (t : Fin cfg0.N) (d) : (dat0 V c).before 2 t d = blk V c 2 t := before_in2 V (dat0 V c) (A_eq V c 2) (after_2 V c) t d
theorem before_3 (c : Dev nD) (t : Fin cfg0.N) (d) : (dat0 V c).before 3 t d = blk V c 3 t := before_in3 V (dat0 V c) (A_eq V c 3) (after_3 V c) t d

end Cert.Kernel.Compute

end
-- ==== Proof.WordComputeBody.lean ====
/-
  (The program as printed, read at the word-level instance: the same argument as for its idealization, which is the
  same text read at the extended reals.)
  The first region's body obligation: at every grid point the body, handed the invariant and each window's current
  staging buffer, runs to the invariant at the next point with each buffer at what the proof data says. Three cases by
  the key-block coordinate j = t mod 16: the first key block (the pair is reset; the scratch columns may hold anything —
  at the region's very first point they do), the last (the log-sum-exp column is stored), and the fourteen between. The
  log-sum-exp window is handed back untouched wherever it is not stored.
-/
import proofs.«137461_j77884936945679_2_alg».proof.Proof.WordComputeData
set_option maxRecDepth 16384

noncomputable section

namespace Cert.Kernel.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t]]
  rw [show (dat0 V c).leavesExact 1 t = owns (c : Thread nD τ) (ms1 t) fullShare ((dat0 V c).after 1 t) from by
    unfold Dat.leavesExact; rw [live1 t]]
  rw [show (dat0 V c).leavesExact 2 t = owns (c : Thread nD τ) (ms2 t) fullShare ((dat0 V c).after 2 t) from by
    unfold Dat.leavesExact; rw [live2 t]]
  rw [show (dat0 V c).leavesExact 3 t = owns (c : Thread nD τ) (ms3 t) fullShare ((dat0 V c).after 3 t) from by
    unfold Dat.leavesExact; rw [live3 t]]
  rw [show (dat0 V c).leavesExact 4 t = owns (c : Thread nD τ) (ms4 t) fullShare ((dat0 V c).after 4 t) from by
    unfold Dat.leavesExact; rw [live4 t]]
  rw [show (dat0 V c).leavesExact 5 t = owns (c : Thread nD τ) (ms5 t) fullShare ((dat0 V c).after 5 t) from by
    unfold Dat.leavesExact; rw [live5 t]]
  rw [after_0, after_1, after_2, after_3, after_4, after_5]
  have hN : t.val < 128 := lt_of_lt_of_eq t.isLt (show cfg0.N = 128 from N_0)
  by_cases h0 : t.val % 16 = 0
  · have hF : atFirst (grid0.coords t) := (atFirst_iff t).mpr h0
    have hL : ¬ atLast (grid0.coords t) := fun h => by have := (atLast_iff t).mp h; omega
    rw [Dat.leavesExact_idle (dat0 V c) 6 t (idle6 t hL) (noFlush6 t hL)]
    rw [pairAt_eq V c t, pairIn_first V c t h0]
    unfold stepPair resetPair; dsimp only
    by_cases hz : t.val = 0
    ·
        rw [Phi_castSucc V c t, PhiS_zero V c _ _ hz, PhiA_eq]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexact HM
        isplitl [HL]; · iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact first_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            isplitl [HL]
            · unfold owns; iexists _; isplitr
              swap; · iexact HL
              ipureintro; exact first_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact first_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        isplitl [H5]
        · unfold owns; iexists _; isplitr
          swap; · iexact H5
          ipureintro; exact first_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        iexists _; iexact H6
    ·
        rw [Phi_castSucc V c t, PhiS_pos V c _ _ hz]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexists _; iexact HM
        isplitl [HL]; · iexists _; iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact first_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            isplitl [HL]
            · unfold owns; iexists _; isplitr
              swap; · iexact HL
              ipureintro; exact first_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact first_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        isplitl [H5]
        · unfold owns; iexists _; isplitr
          swap; · iexact H5
          ipureintro; exact first_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        iexists _; iexact H6
  · have hF : ¬ atFirst (grid0.coords t) := fun h => h0 ((atFirst_iff t).mp h)
    have hz : t.val ≠ 0 := fun h => h0 (by rw [h])
    by_cases h15 : t.val % 16 = 15
    · have hL : atLast (grid0.coords t) := (atLast_iff t).mpr h15
      rw [show (dat0 V c).leavesExact 6 t = owns (c : Thread nD τ) (ms6 t) fullShare ((dat0 V c).after 6 t) from by
        unfold Dat.leavesExact; rw [live6 t hL], after_6]
      rw [pairAt_eq V c t]
      unfold stepPair; dsimp only
      ·
        rw [Phi_castSucc V c t, PhiS_pos V c _ _ hz, ← pairIn_later V c t h0]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HM]; · iexact HM
        isplitl [HL]; · iexact HL
        iintro ⟨H0, H1, H2, H3, ⟨%e4, H4⟩, ⟨%e5, H5⟩, ⟨%e6, H6⟩, ⟨%em, HM⟩, ⟨%el, HL⟩⟩
        isplitl [HM HL HR Hg]
        · isplitl [HM HL HR]
          · isplitl [HM]
            · unfold owns; iexists _; isplitr
              swap; · iexact HM
              ipureintro; exact last_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            isplitl [HL]
            · unfold owns; iexists _; isplitr
              swap; · iexact HL
              ipureintro; exact last_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact last_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        isplitl [H5]
        · unfold owns; iexists _; isplitr
          swap; · iexact H5
          ipureintro; exact last_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        unfold owns; iexists _; isplitr
        swap; · iexact H6
        ipureintro; exact last_lse c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
    · have hL : ¬ atLast (grid0.coords t) := fun h => h15 ((atLast_iff t).mp h)
      rw [Dat.leavesExact_idle (dat0 V c) 6 t (idle6 t hL) (noFlush6 t hL)]
      rw [pairAt_eq V c t]
      unfold stepPair; dsimp only
      ·
        rw [Phi_castSucc V c t, PhiS_pos V c _ _ hz, ← pairIn_later V c t h0]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexact HM
        isplitl [HL]; · iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact mid_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            isplitl [HL]
            · unfold owns; iexists _; isplitr
              swap; · iexact HL
              ipureintro; exact mid_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact mid_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        isplitl [H5]
        · unfold owns; iexists _; isplitr
          swap; · iexact H5
          ipureintro; exact mid_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        iexists _; iexact H6

/-- The library's body obligation, at every point. -/
theorem body_obligation (c : Dev nD) : BodyObligation (dat0 (F := F) V c) (defs₀ (F := F)) Variants.none () Set.univ := fun t => by
  rw [bigSep_W0, bigSep_W0]
  exact sound_body V c t

/-- After the last point the invariant gives the class's back: what the two scratch columns hold is forgotten. -/
theorem Phi_last (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HM, HL, HR⟩, Hg⟩
  isplitl [HM HL HR]
  · isplitl [HM]; · iexists _; iexact HM
    isplitl [HL]; · iexists _; iexact HL
    iexact HR
  iexact Hg

end Cert.Kernel.Compute

end
-- ==== Proof.WordRescaleRun.lean ====
/-
  (The program as printed, read at the word-level instance: the same argument as for its idealization, which is the
  same text read at the extended reals.)
  The second region rescales the dense tile: at every grid point the body reads the tile's history slab (the running
  maximum the first region used for this tile), the row block's log-sum-exp column and the unnormalised tile, and stores
  tile · exp(history − log-sum-exp), the column broadcast along the rows' 512 entries. One case; nothing is kept between
  points.
-/
import proofs.«137461_j77884936945679_2_alg».proof.Proof.Gen.Kernel.Launch
import proofs.«137461_j77884936945679_2_alg».proof.Proof.Gen.Kernel.Skeleton
import proofs.«137461_j77884936945679_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rescale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The rescale body on whole staging memrefs: the three inputs at their contents, the output tile at anything; it runs
    to the continuation with the output tile at its one store's piece. -/
noncomputable def run (c : Dev nD) (i : grid1.Coords) (b2 : Memref sig .tc .vmem S1x1024x1 .f32) (g2 : b2.IsWhole) (b3 : Memref sig .tc .vmem S1024x1 .f32) (g3 : b3.IsWhole) (b4 : Memref sig .tc .vmem S1024x512 .f32) (g4 : b4.IsWhole) (b5 : Memref sig .tc .vmem S1024x512 .f32) (g5 : b5.IsWhole)
    (y0 : Vec F S1x1024x1 .f32) (y1 : Vec F S1024x1 .f32) (y2 : Vec F S1024x512 .f32) :
    { L3 : List (View.Piece (Elt F) S1024x512 .f32) //
      ∀ (E : Set ℕ) (K : PUnit → sProp 𝕄),
        iprop(owns (c : Thread nD τ) b2 fullShare y0 ∗ owns (c : Thread nD τ) b3 fullShare y1 ∗ owns (c : Thread nD τ) b4 fullShare y2 ∗ (∃ d, owns (c : Thread nD τ) b5 fullShare d)
            ∗ (iprop(owns (c : Thread nD τ) b2 fullShare y0 ∗ owns (c : Thread nD τ) b3 fullShare y1 ∗ owns (c : Thread nD τ) b4 fullShare y2 ∗ (∃ f, b5.view.loc (c : Thread nD τ) ↦[b5.view.set]{fullShare} b5.view.writes (Elt F) f L3)) -∗ K ⟨⟩))
          ⊢ wp frame (wpE (defs₀ (F := F)) Variants.none c none) E (cc1__rescale_kernel i b2 g2 b3 g3 b4 g4 b5 g5) K } := by
  refine ⟨?_, fun E K => ?run⟩
  case run =>
    simp only [cc1__rescale_kernel_eq_skeleton]; unfold cc1__rescale_kernel_skel
    unfold owns
    iintro ⟨⟨%f0, %hf0, H0⟩, ⟨%f1, %hf1, H1⟩, ⟨%f2, %hf2, H2⟩, ⟨%d3, %f3, -, H3⟩, Hk⟩
    obtain rfl := g2.eq_unread hf0; obtain rfl := g3.eq_unread hf1; obtain rfl := g4.eq_unread hf2
    sl_exec
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    iexists _; iexact H3

end Cert.Kernel.Rescale

end
-- ==== Proof.WordRescaleData.lean ====
/-
  (The program as printed, read at the word-level instance: the same argument as for its idealization, which is the
  same text read at the extended reals.)
  The second region's proof data and body obligation. At every point the body sees its three input blocks — the history
  slab of tile (i, j), the log-sum-exp column of row block i, the unnormalised tile (i, j) — and leaves the output tile
  at  tile · exp(history − log-sum-exp)  broadcast along each row. Nothing is carried between points, so the invariant
  is the class's (every scoped buffer of the core that is no staging buffer of this region at anything).
-/
import proofs.«137461_j77884936945679_2_alg».proof.Proof.WordRescaleRun
import proofs.«137461_j77884936945679_2_alg».proof.Proof.WordComputeContents
set_option maxRecDepth 16384

noncomputable section

namespace Cert.Kernel.Rescale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Compute (read_writes_head z2 z3)

variable (V : (c : Dev nD) → (b : Ref sig .tc) → Buf (Elt F) ((c : Thread nD τ).loc b))

/-- The output tile reads back its one store's payload. -/
theorem run_tile (c : Dev nD) (i : grid1.Coords) (b2 : Memref sig .tc .vmem S1x1024x1 .f32) (g2 : b2.IsWhole) (b3 : Memref sig .tc .vmem S1024x1 .f32) (g3 : b3.IsWhole) (b4 : Memref sig .tc .vmem S1024x512 .f32) (g4 : b4.IsWhole) (b5 : Memref sig .tc .vmem S1024x512 .f32) (g5 : b5.IsWhole)
    (y0 : Vec F S1x1024x1 .f32) (y1 : Vec F S1024x1 .f32) (y2 : Vec F S1024x512 .f32) (f : b5.view.ty.Contents (Elt F)) :
    b5.view.read (Elt F) (b5.view.writes (Elt F) f (run (F := F) c i b2 g2 b3 g3 b4 g4 b5 g5 y0 y1 y2).1) = k1_pay1 y0 y1 y2 := by
  unfold run
  dsimp only
  sl_unfold_words
  rw [read_writes_head _ _ z2]
  simp only [View.readAt_eq_ld, Memref.IsWhole.read_unread, View.ld_unit_zero (S := S1x1024x1) z3, View.ld_unit_zero (S := S1024x1) z2, View.ld_unit_zero (S := S1024x512) z2]

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

abbrev ns0 (t : Fin cfg1.N) : Memref sig .tc .vmem S1x1024x1 .f32 := win1_0.stage (cfg1.slots t 0)
abbrev gs0 (t : Fin cfg1.N) : (ns0 t).IsWhole := hstage1_0 ((cfg1.slots t 0).cast nbuf1_0)
abbrev ns1 (t : Fin cfg1.N) : Memref sig .tc .vmem S1024x1 .f32 := win1_1.stage (cfg1.slots t 1)
abbrev gs1 (t : Fin cfg1.N) : (ns1 t).IsWhole := hstage1_1 ((cfg1.slots t 1).cast nbuf1_1)
abbrev ns2 (t : Fin cfg1.N) : Memref sig .tc .vmem S1024x512 .f32 := win1_2.stage (cfg1.slots t 2)
abbrev gs2 (t : Fin cfg1.N) : (ns2 t).IsWhole := hstage1_2 ((cfg1.slots t 2).cast nbuf1_2)
abbrev ns3 (t : Fin cfg1.N) : Memref sig .tc .vmem S1024x512 .f32 := win1_3.stage (cfg1.slots t 3)
abbrev gs3 (t : Fin cfg1.N) : (ns3 t).IsWhole := hstage1_3 ((cfg1.slots t 3).cast nbuf1_3)

def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay1 (blk V c 0 t) (blk V c 1 t) (blk V c 2 t)
  Φ _ := Pipeline.ΦA spec1 c
  q _ := fullShare
  owed _ := 0

theorem A_eq (c : Dev nD) (w : Fin cfg1.W) : (dat1 V c).A w = V c (Pipeline.arrRef spec1 w) := by
  dsimp only [dat1]
theorem after_0 (c : Dev nD) (t : Fin cfg1.N) : (dat1 V c).after 0 t = blk V c 0 t := by dsimp only [dat1]
theorem after_1 (c : Dev nD) (t : Fin cfg1.N) : (dat1 V c).after 1 t = blk V c 1 t := by dsimp only [dat1]
theorem after_2 (c : Dev nD) (t : Fin cfg1.N) : (dat1 V c).after 2 t = blk V c 2 t := by dsimp only [dat1]
theorem after_3 (c : Dev nD) (t : Fin cfg1.N) : (dat1 V c).after 3 t = k1_pay1 (blk V c 0 t) (blk V c 1 t) (blk V c 2 t) := by dsimp only [dat1]
theorem before_0 (c : Dev nD) (t : Fin cfg1.N) (d) : (dat1 V c).before 0 t d = blk V c 0 t := before_in0 V (dat1 V c) (A_eq V c 0) (after_0 V c) t d
theorem before_1 (c : Dev nD) (t : Fin cfg1.N) (d) : (dat1 V c).before 1 t d = blk V c 1 t := before_in1 V (dat1 V c) (A_eq V c 1) (after_1 V c) t d
theorem before_2 (c : Dev nD) (t : Fin cfg1.N) (d) : (dat1 V c).before 2 t d = blk V c 2 t := before_in2 V (dat1 V c) (A_eq V c 2) (after_2 V c) t d

def bodyPre (c : Dev nD) (t : Fin cfg1.N) : sProp 𝕄 :=
  iprop((dat1 V c).Φ t.castSucc ∗ (dat1 V c).owesAt () t.castSucc
    ∗ (∃ d, owns (c : Thread nD τ) (ns0 t) fullShare ((dat1 V c).before 0 t d))
    ∗ (∃ d, owns (c : Thread nD τ) (ns1 t) fullShare ((dat1 V c).before 1 t d))
    ∗ (∃ d, owns (c : Thread nD τ) (ns2 t) fullShare ((dat1 V c).before 2 t d))
    ∗ (∃ d, owns (c : Thread nD τ) (ns3 t) fullShare ((dat1 V c).before 3 t d)))

def bodyPost (c : Dev nD) (t : Fin cfg1.N) : sProp 𝕄 :=
  iprop((dat1 V c).Φ t.succ ∗ (dat1 V c).owesAt () t.succ
    ∗ owns (c : Thread nD τ) (ns0 t) fullShare ((dat1 V c).after 0 t)
    ∗ owns (c : Thread nD τ) (ns1 t) fullShare ((dat1 V c).after 1 t)
    ∗ owns (c : Thread nD τ) (ns2 t) fullShare ((dat1 V c).after 2 t)
    ∗ owns (c : Thread nD τ) (ns3 t) fullShare ((dat1 V c).after 3 t))

set_option maxHeartbeats 2000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).Φ t.succ = (dat1 V c).Φ t.castSucc from rfl,
    show (dat1 V c).owesAt () t.succ = (dat1 V c).owesAt () t.castSucc from rfl,
    after_0, after_1, after_2, after_3]
  iintro ⟨HΦ, Ho, ⟨%d0, H0⟩, ⟨%d1, H1⟩, ⟨%d2, H2⟩, ⟨%d3, H3⟩⟩
  iapply ((run c (grid1.coords t) (ns0 t) (gs0 t) (ns1 t) (gs1 t) (ns2 t) (gs2 t) (ns3 t) (gs3 t) (blk V c 0 t) (blk V c 1 t) (blk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact run_tile c (grid1.coords t) (ns0 t) (gs0 t) (ns1 t) (gs1 t) (ns2 t) (gs2 t) (ns3 t) (gs3 t) (blk V c 0 t) (blk V c 1 t) (blk V c 2 t) _

theorem body_obligation (c : Dev nD) : BodyObligation (dat1 (F := F) V c) (defs₀ (F := F)) Variants.none () Set.univ := fun t => by
  rw [bigSep_W1, bigSep_W1]
  exact sound_body V c t

end Cert.Kernel.Rescale

end
-- ==== Proof.WordWholeRun.lean ====
/-
  (The program as printed, read at the word-level instance: the same argument as for its idealization, which is the
  same text read at the extended reals.)
  The whole program as four segments: the host operations before the first region (the two squared-norm vectors, the key
  norms laid out as a row, the two bf16 copies), the first region, the one host operation between (the unnormalised
  output copied into the result's buffer), the second region. The contents of every unscoped buffer are followed from
  the launch memory through the four segments; each region takes its windows' arrays out of the thread state, runs its
  pipeline on its proof data, and puts the arrays back at what the write-backs leave. One theorem reads the last
  contents against the final memory: the result buffer holds what the second region's write-backs leave, and the two
  argument arrays are as launched (no host operation writes them and no window stages them).
-/
import proofs.«137461_j77884936945679_2_alg».proof.Proof.WordComputeBody
import proofs.«137461_j77884936945679_2_alg».proof.Proof.WordRescaleData
import proofs.«137461_j77884936945679_2_alg».proof.Proof.Gen.Kernel.Regions
import Idealize.ShloMosaic.Lib.Pipeline.RegionsLoop
import Idealize.ShloMosaic.Lib.Pipeline.FrameSuffix
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev C1 : (c : Dev nD) → (b : Ref sig .tc) → Buf (Elt F) ((c : Thread nD τ).loc b) := fun c b => W1 m ρ c b
/-- After the first region: its windows' arrays at what the pipeline leaves, every other buffer as entered. -/
def W2 (c : Dev nD) : Valuation τ sig (Elt F) :=
  Pipeline.withArrays spec0 c (W1 m ρ c) fun w => (Compute.dat0 (C1 m ρ) c).arrAt w cfg0.N
theorem W2_arr (c : Dev nD) (w : Fin cfg0.W) :
    W2 m ρ c (Proc.devRef .tc (Pipeline.arrRef spec0 w)) = (Compute.dat0 (C1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev C2 : (c : Dev nD) → (b : Ref sig .tc) → Buf (Elt F) ((c : Thread nD τ).loc b) := fun c b => W2 m ρ c b
theorem hF0 (c : Dev nD) (w : Fin cfg0.W) : (Compute.dat0 (C1 m ρ) c).arrAt w cfg0.N = C2 m ρ c (Pipeline.arrRef spec0 w) :=
  (W2_arr m ρ c w).symm
theorem hrest0 (c : Dev nD) : ∀ b, b ∉ Finset.univ.image (Pipeline.arrRef spec0) → C2 m ρ c b = C1 m ρ c b :=
  fun b hb => W2_of_ne m ρ c b fun w e => hb (Finset.mem_image.mpr ⟨w, Finset.mem_univ _, e⟩)
/-- After the host operation between the regions. -/
abbrev W3 : Dev nD → Valuation τ sig (Elt F) := fun c => StableHlo.after hostOps1 (W2 m ρ c)
abbrev C3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (Rescale.dat1 (C3 m ρ) c).arrAt w cfg1.N
theorem W4_arr (c : Dev nD) (w : Fin cfg1.W) :
    W4 m ρ c (Proc.devRef .tc (Pipeline.arrRef spec1 w)) = (Rescale.dat1 (C3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev C4 : (c : Dev nD) → (b : Ref sig .tc) → Buf (Elt F) ((c : Thread nD τ).loc b) := fun c b => W4 m ρ c b
theorem hF1 (c : Dev nD) (w : Fin cfg1.W) : (Rescale.dat1 (C3 m ρ) c).arrAt w cfg1.N = C4 m ρ c (Pipeline.arrRef spec1 w) :=
  (W4_arr m ρ c w).symm
theorem hrest1 (c : Dev nD) : ∀ b, b ∉ Finset.univ.image (Pipeline.arrRef spec1) → C4 m ρ c b = C3 m ρ c b :=
  fun b hb => W4_of_ne m ρ c b fun w e => hb (Finset.mem_image.mpr ⟨w, Finset.mem_univ _, e⟩)

/-! ### The arguments end as launched -/

theorem W4_keeps (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b hw1
    _ = W2 m ρ c (Proc.devRef .tc b) := StableHlo.after_of_writes_sub hostOps1 _ hostOps1_writes h1
    _ = W1 m ρ c (Proc.devRef .tc b) := W2_of_ne m ρ c b hw0
    _ = W0 m ρ c (Proc.devRef .tc b) := StableHlo.after_of_writes_sub hostOps0 _ hostOps0_writes h0
    _ = m ((c : Thread nD τ).loc b) := rfl

/-! ## The proof data family and the thread state -/

abbrev admN : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (UR sig nD τ) ℕ (Pipeline.pin (pcfgs (F := F)) admN p) c
  | ⟨0, _⟩ => fun c => Compute.dat0 (C1 m ρ) c
  | ⟨1, _⟩ => fun c => Rescale.dat1 (C3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) admN (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Compute.body_obligation (C1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) admN (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Compute.Phi_last (C1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admN (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admN (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rescale.body_obligation (C3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit := Pipeline.arrays_of_unscopedBufs (p := 1) (pcfgs (F := F)) admN (pdats m ρ) launch1.win launch1.arr_whole c
      ((pdats m ρ 1 c).share_full fun _ => rfl) (C3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [show (pdats m ρ 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admN (Ix := Unit) (Name := ℕ) (U := UR sig nD τ) (Lvl := ℕ)
      launch1.win launch1.arr_whole c (pdats m ρ) ((pdats m ρ 1 c).share_full fun _ => rfl)
      (C3 m ρ c) (C4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segL : List (Pipeline.Seg (pcfgs (F := F)) admN (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segL m ρ) := (main_chain c).trans (by chain_rfl)

set_option backward.isDefEq.respectTransparency.types false in
/-- Every weakly fair execution of the program from memory `m` with zero counters terminates, nothing faulting, and
    every final memory holds the result buffer at what the second region's write-backs leave and each argument array
    as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admN (pdats m ρ) () cellOf_inj emb₁ defs₀ 𝒱₀ L lv m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_keeps m ρ c main_arg0 (by decide) (by decide) (by decide) (by decide)),
       (h c _ (mem_uc main_arg1 (by decide))).trans (W4_keeps m ρ c main_arg1 (by decide) (by decide) (by decide) (by decide))⟩)

end Cert.Kernel.Whole

end
-- ==== Proof.DistanceSpec.lean ====
/-
  Attention weights under the metric I + c p pᵀ: what the two programs compute, index by index, on the extended reals.

  For 8192 query points q r and 8192 key points k s in dimension 512 write
      qq r = ∑ d, q r d * q r d ,   kk s = ∑ d, k s d * k s d ,   qk r s = ∑ d, q r d * k s d .
  The squared distance of q r and k s is clamped at zero and corrected by the rank-one part of the metric along each
  of the two points:
      score r s = w * ( √(n2 + (c * qd) * qd) + √(n2 + (c * kd) * kd) ) ,   qd = qq r - qk r s ,  kd = qk r s - kk s ,
  with w the pattern of -1/2 and c the pattern nearest 1/100 (never evaluated: the same word on both sides). The two
  programs differ in how they write n2: one as max ((qq r + kk s) - 2 * qk r s) 0, the other as max (qd - kd) 0.

  The result is the softmax of each row of scores. One program takes the row's maximum M, the weights
  exp (score - M) and divides each by their sum. The other walks the row in 16 blocks of 512 keys, keeping a running
  maximum m j and a running weight sum l j rescaled to the current maximum, leaves exp (score - m j) in block j, and
  afterwards multiplies block j by exp (m j - (m 15 + log (l 15))).

  Nothing is proved equal here; the definitions only fix the order of the operations. The float words are kept as
  patterns: 0x00000000 is +0, 0x40000000 is 2, 0xBF000000 is -1/2, 0xFF800000 is -∞.
-/
import Idealize.ShloMosaic.PureOps.Ideal
import Idealize.ShloMosaic.PureOps.Ideal.Laws
import Idealize.ShloMosaic.Lib.ValueIdx

noncomputable section

open scoped BigOperators

namespace Cert.Proof.Softmax

open Idealize.ShloMosaic Idealize.ShloMosaic.ValueIdx

/-- 8192 points with 512 coordinates each, as extended reals. -/
abbrev Pts : Type := (⟨2, ![8192, 512]⟩ : Shape).Idx → EReal

/-! ## The three inner products -/

/-- The squared length of query point r. -/
def qq (q : Pts) (r : Fin 8192) : EReal := ∑ d : Fin 512, q (ix2 r d) * q (ix2 r d)

/-- The squared length of key point s. -/
def kk (k : Pts) (s : Fin 8192) : EReal := ∑ d : Fin 512, k (ix2 s d) * k (ix2 s d)

/-- The inner product of query point r and key point s. -/
def qk (q k : Pts) (r s : Fin 8192) : EReal := ∑ d : Fin 512, q (ix2 r d) * k (ix2 s d)

/-! ## The score, in its two arrangements -/

/-- The clamped squared distance written as (qq + kk) - 2 * qk. -/
def dist2Ref (q k : Pts) (r s : Fin 8192) : EReal :=
  max ((qq q r + kk k s) - Ideal.ofBits .f32 0x40000000#32 * qk q k r s) (Ideal.ofBits .f32 0x00000000#32)

/-- The clamped squared distance written as (qq - qk) - (qk - kk). -/
def dist2Ker (q k : Pts) (r s : Fin 8192) : EReal :=
  max ((qq q r - qk q k r s) - (qk q k r s - kk k s)) (Ideal.ofBits .f32 0x00000000#32)

/-- The score from a clamped squared distance n2 and the two projections qd, kd:
    w * (√(n2 + (c * qd) * qd) + √(n2 + (c * kd) * kd)). -/
def scoreOf (n2 qd kd : EReal) : EReal :=
  Ideal.ofBits .f32 0xBF000000#32 *
    (Ideal.sqrt (n2 + Ideal.ofBits .f32 0x3C23D70A#32 * qd * qd)
      + Ideal.sqrt (n2 + Ideal.ofBits .f32 0x3C23D70A#32 * kd * kd))

/-- The score of query r against key s with the squared distance as (qq + kk) - 2 * qk. -/
def scoreRef (q k : Pts) (r s : Fin 8192) : EReal :=
  scoreOf (dist2Ref q k r s) (qq q r - qk q k r s) (qk q k r s - kk k s)

/-- The score of query r against key s with the squared distance as (qq - qk) - (qk - kk). -/
def scoreKer (q k : Pts) (r s : Fin 8192) : EReal :=
  scoreOf (dist2Ker q k r s) (qq q r - qk q k r s) (qk q k r s - kk k s)

/-! ## The softmax of a row, all at once -/

/-- The row's maximum: the maximum of -∞ and the fold of max from -∞ over the 8192 scores. -/
def rowMaxRef (sc : Fin 8192 → EReal) : EReal :=
  max (Ideal.ofBits .f32 0xFF800000#32)
    ((Finset.univ : Finset (Fin 8192)).fold max (Ideal.ofBits .f32 0xFF800000#32) sc)

/-- The weight exp (score - maximum) of entry s over zero plus the sum of the row's weights. -/
def softmaxOf (sc : Fin 8192 → EReal) (s : Fin 8192) : EReal :=
  Ideal.div (Ideal.exp (sc s - rowMaxRef sc))
    (Ideal.ofBits .f32 0x00000000#32 + ∑ s' : Fin 8192, Ideal.exp (sc s' - rowMaxRef sc))

/-- The attention weight of key s for query r, by the one-pass softmax of the row of scores. -/
def softmaxRef (q k : Pts) (r s : Fin 8192) : EReal := softmaxOf (scoreRef q k r) s

/-! ## The softmax of a row, block by block -/

/-- Key b of block j: the key j * 512 + b (wrapped below 8192, which changes nothing for j < 16). -/
def keyAt (j : ℕ) (b : Fin 512) : Fin 8192 := ⟨(j * 512 + b.val) % 8192, Nat.mod_lt _ (by decide)⟩

theorem keyAt_val (j : ℕ) (hj : j < 16) (b : Fin 512) : (keyAt j b).val = j * 512 + b.val := by
  have := b.isLt
  exact Nat.mod_eq_of_lt (by omega)

theorem keyAt_div (j : ℕ) (hj : j < 16) (b : Fin 512) : (keyAt j b).val / 512 = j := by
  have := b.isLt
  rw [keyAt_val j hj b]; omega

theorem keyAt_eq (j : ℕ) (hj : j < 16) (b : Fin 512) (h : j * 512 + b.val < 8192) :
    keyAt j b = ⟨j * 512 + b.val, h⟩ := Fin.ext (keyAt_val j hj b)

/-- Every key is key (s mod 512) of block (s div 512). -/
theorem keyAt_div_mod (s : Fin 8192) : keyAt (s.val / 512) ⟨s.val % 512, Nat.mod_lt _ (by decide)⟩ = s := by
  have := s.isLt
  refine Fin.ext ?_
  show (s.val / 512 * 512 + s.val % 512) % 8192 = s.val
  rw [Nat.div_add_mod']
  exact Nat.mod_eq_of_lt s.isLt

/-- The maximum of block j: the fold of max from ⊥ over its 512 scores. -/
def blockMax (sc : Fin 8192 → EReal) (j : ℕ) : EReal :=
  (Finset.univ : Finset (Fin 512)).fold max ⊥ (fun b => sc (keyAt j b))

/-- The running maximum after blocks 0 … j, started from -∞. -/
def runMax (sc : Fin 8192 → EReal) : ℕ → EReal
  | 0 => max (Ideal.ofBits .f32 0xFF800000#32) (blockMax sc 0)
  | j + 1 => max (runMax sc j) (blockMax sc (j + 1))

/-- The weights of block j against the running maximum after it, summed. -/
def blockSum (sc : Fin 8192 → EReal) (j : ℕ) : EReal :=
  ∑ b : Fin 512, Ideal.exp (sc (keyAt j b) - runMax sc j)

/-- The running weight sum after blocks 0 … j, started from +0: the previous sum rescaled from the previous
    maximum to the new one, plus the block's sum. -/
def runSum (sc : Fin 8192 → EReal) : ℕ → EReal
  | 0 => Ideal.ofBits .f32 0x00000000#32 * Ideal.exp (Ideal.ofBits .f32 0xFF800000#32 - runMax sc 0) + blockSum sc 0
  | j + 1 => runSum sc j * Ideal.exp (runMax sc j - runMax sc (j + 1)) + blockSum sc (j + 1)

theorem runMax_zero (sc : Fin 8192 → EReal) :
    runMax sc 0 = max (Ideal.ofBits .f32 0xFF800000#32) (blockMax sc 0) := rfl
theorem runMax_succ (sc : Fin 8192 → EReal) (j : ℕ) :
    runMax sc (j + 1) = max (runMax sc j) (blockMax sc (j + 1)) := rfl
theorem runSum_zero (sc : Fin 8192 → EReal) :
    runSum sc 0 = Ideal.ofBits .f32 0x00000000#32 * Ideal.exp (Ideal.ofBits .f32 0xFF800000#32 - runMax sc 0)
      + blockSum sc 0 := rfl
theorem runSum_succ (sc : Fin 8192 → EReal) (j : ℕ) :
    runSum sc (j + 1) = runSum sc j * Ideal.exp (runMax sc j - runMax sc (j + 1)) + blockSum sc (j + 1) := rfl

/-- The logarithm of the row's weight sum at shift 0: the last running maximum plus the log of the last running sum. -/
def lse (sc : Fin 8192 → EReal) : EReal := runMax sc 15 + Ideal.log (runSum sc 15)

/-- Entry s as the block-by-block program leaves it: the weight against its block's running maximum, times the
    factor that moves that maximum to the log of the weight sum. -/
def kernelFormOf (sc : Fin 8192 → EReal) (s : Fin 8192) : EReal :=
  Ideal.exp (sc s - runMax sc (s.val / 512)) * Ideal.exp (runMax sc (s.val / 512) - lse sc)

/-- At key b of block j < 16 the block number is j itself. -/
theorem kernelFormOf_keyAt (sc : Fin 8192 → EReal) (j : ℕ) (hj : j < 16) (b : Fin 512) :
    kernelFormOf sc (keyAt j b)
      = Ideal.exp (sc (keyAt j b) - runMax sc j) * Ideal.exp (runMax sc j - lse sc) := by
  unfold kernelFormOf
  rw [keyAt_div j hj b]

/-- The attention weight of key s for query r, by the block-by-block softmax of the row of scores. -/
def kernelForm (q k : Pts) (r s : Fin 8192) : EReal := kernelFormOf (scoreKer q k r) s

end Cert.Proof.Softmax

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«137461_j77884936945679_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.TileEntry.lean ====
/-
  The two kernel bodies' arithmetic read at one entry, on the extended reals.

  The first body works on a tile of 1024 query rows against 512 keys. Its score at (p, b) is formed from the inner
  product of query row p with key row b (the key tile enters the product transposed), the query's squared length in a
  column and the key's squared length in a row; the running row maximum is the maximum of the stored one with the
  fold of max over the 512 scores; the weights are the exponentials of score minus running maximum; the running sum is
  the stored one rescaled plus the row's weight sum. The second body multiplies a tile by the exponential of a
  difference of two columns. Every vector operation is read at an index: the pointwise ones are the extended reals'
  operations, a cast between equal shapes is the identity, a column broadcast reads its row's entry, a row broadcast its
  column's entry, a reduction along the keys is a fold or a sum over Fin 512.
-/
import proofs.«137461_j77884936945679_2_alg».proof.Proof.Gen.KernelIdeal.Skeleton
import proofs.«137461_j77884936945679_2_alg».proof.Proof.DistanceSpec
import proofs.«137461_j77884936945679_2_alg».proof.Proof.LibRowOps
import proofs.«137461_j77884936945679_2_alg».proof.Proof.LibDotRecord
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.Entry

open Cert.KernelIdeal Cert.KernelIdeal.Gen Cert.Proof.Softmax Idealize.ShloMosaic Idealize.ShloMosaic.ValueIdx

/-! ## The immediate payloads -/

/-- The weights: the exponential of each entry. -/
theorem pay1_apply (v : FVec Ideal S1024x512 .f32) (i : S1024x512.Idx) :
    k0_pay1 (F := Ideal) v i = Ideal.exp (v i) := rfl

/-- The stored running maximum is the new running maximum: a cast between equal shapes is the identity. -/
theorem pay3_eq (m' : FVec Ideal S1024x1 .f32) : k0_pay3 (F := Ideal) m' = m' := by
  unfold k0_pay3
  exact shapeCast_self m' _

/-- The reset value of the running maximum is the pattern of -∞ everywhere. -/
theorem pay6_apply (i : S1024x1.Idx) : k0_pay6 (F := Ideal) i = Ideal.ofBits .f32 0xFF800000#32 := by
  unfold k0_pay6
  rw [shapeCast_self]
  rfl

/-- The reset value of the running sum is the pattern of +0 everywhere. -/
theorem pay7_apply (i : S1024x1.Idx) : k0_pay7 (F := Ideal) i = Ideal.ofBits .f32 0x00000000#32 := by
  unfold k0_pay7
  rw [shapeCast_self]
  rfl

/-- The shifted scores: each score minus its row's new running maximum. -/
theorem pay10_apply (x0 : Vec Ideal S1024x512 .bf16) (x1 : Vec Ideal S512x512 .bf16) (x2 : Vec Ideal S1024x1 .f32)
    (x3 : Vec Ideal S1x512 .f32) (xm : Vec Ideal S1024x1 .f32) (p : Fin 1024) (b : Fin 512) :
    k0_pay10 (F := Ideal) x0 x1 x2 x3 xm (ix2 p b)
      = k0_pay8 (F := Ideal) x0 x1 x2 x3 (ix2 p b) - k0_pay9 (F := Ideal) x0 x1 x2 x3 xm (ix2 p 0) := by
  unfold k0_pay10
  rw [subf_apply]
  exact congrArg (fun t => k0_pay8 (F := Ideal) x0 x1 x2 x3 (ix2 p b) - t)
    (Gcn.Lib.broadcastTo_a1_ab_apply (k0_pay9 (F := Ideal) x0 x1 x2 x3 xm) broadcasts_S1024x1_S1024x512 p b)

/-- The running maximum as the third window takes it: the column viewed as a one-slab stack. -/
theorem pay4_apply (m' : FVec Ideal S1024x1 .f32) (p : Fin 1024) :
    k0_pay4 (F := Ideal) m' (ix3 0 p 0) = m' (ix2 p 0) := by
  unfold k0_pay4
  exact shapeCast_ab_1ab_apply m' shapeCasts_S1024x1_S1x1024x1 (0 : Fin 1) p (0 : Fin 1)

/-- The row's log-sum-exp: the running maximum plus the logarithm of the running sum. -/
theorem pay5_apply (a l : Vec Ideal S1024x1 .f32) (p : Fin 1024) :
    k0_pay5 (F := Ideal) a l (ix2 p 0) = a (ix2 p 0) + Ideal.log (l (ix2 p 0)) := rfl

/-- The second body: an entry times the exponential of its row's difference of the two columns. -/
theorem rescale_apply (y0 : Vec Ideal S1x1024x1 .f32) (y1 : Vec Ideal S1024x1 .f32) (y2 : Vec Ideal S1024x512 .f32)
    (p : Fin 1024) (b : Fin 512) :
    k1_pay1 (F := Ideal) y0 y1 y2 (ix2 p b)
      = y2 (ix2 p b) * Ideal.exp (y0 (ix3 0 p 0) - y1 (ix2 p 0)) := by
  unfold k1_pay1
  rw [mulf_apply, shapeCast_self y2, Gcn.Lib.broadcastTo_a1_ab_apply _ broadcasts_S1024x1_S1024x512 p b]
  show y2 (ix2 p b) * Ideal.exp (shapeCast S1024x1 y0 shapeCasts_S1x1024x1_S1024x1 (ix2 p 0)
      - shapeCast S1024x1 y1 shapeCasts_S1024x1_S1024x1 (ix2 p 0)) = _
  rw [shapeCast_self y1, shapeCast_1ab_ab_apply y0 shapeCasts_S1x1024x1_S1024x1 p (0 : Fin 1)]

/-! ## The running maximum and the running sum -/

/-- The new running maximum of row p: the stored one against the fold of max from ⊥ over the row's 512 scores. -/
theorem pay9_apply (x0 : Vec Ideal S1024x512 .bf16) (x1 : Vec Ideal S512x512 .bf16) (x2 : Vec Ideal S1024x1 .f32)
    (x3 : Vec Ideal S1x512 .f32) (xm : Vec Ideal S1024x1 .f32) (p : Fin 1024) :
    k0_pay9 (F := Ideal) x0 x1 x2 x3 xm (ix2 p 0)
      = max (xm (ix2 p 0)) ((Finset.univ : Finset (Fin 512)).fold max ⊥
          (fun b => k0_pay8 (F := Ideal) x0 x1 x2 x3 (ix2 p b))) := by
  unfold k0_pay9
  rw [maximumf_apply]
  refine congrArg (max (xm (ix2 p 0))) ?_
  refine (Gcn.Lib.shapeCast_a_a1_apply _ shapeCasts_S1024_S1024x1 p (0 : Fin 1)).trans ?_
  exact Gcn.Lib.rowMax_apply (k0_pay8 (F := Ideal) x0 x1 x2 x3) reduces_S1024x512_S1024 (.inl rfl) rfl p

/-- The new running sum of row p: the stored one rescaled from the stored maximum to the new one, plus the row's
    sum of weights. -/
theorem pay2_apply (xm : Vec Ideal S1024x1 .f32) (m' : FVec Ideal S1024x1 .f32) (v : FVec Ideal S1024x512 .f32)
    (xl : Vec Ideal S1024x1 .f32) (p : Fin 1024) :
    k0_pay2 (F := Ideal) xm m' v xl (ix2 p 0)
      = xl (ix2 p 0) * Ideal.exp (xm (ix2 p 0) - m' (ix2 p 0)) + ∑ b : Fin 512, Ideal.exp (v (ix2 p b)) := by
  unfold k0_pay2
  rw [shapeCast_self, addf_apply]
  refine congrArg (xl (ix2 p 0) * Ideal.exp (xm (ix2 p 0) - m' (ix2 p 0)) + ·) ?_
  refine (Gcn.Lib.shapeCast_a_a1_apply _ shapeCasts_S1024_S1024x1 p (0 : Fin 1)).trans ?_
  exact Gcn.Lib.rowSum_apply (k0_pay1 (F := Ideal) v) reduces_S1024x512_S1024 (.inl rfl) rfl p

/-! ## The score -/

/-- The inner product of query row p with key row b of the two tiles. -/
def tileDot (x0 : Vec Ideal S1024x512 .bf16) (x1 : Vec Ideal S512x512 .bf16) (p : Fin 1024) (b : Fin 512) : EReal :=
  ∑ d : Fin 512, x0 (ix2 p d) * x1 (ix2 b d)

/-- The matrix unit's product of the query tile with the transposed key tile, accumulated into zero, at (p, b): the
    plain product's sum over d, whose right factor at (d, b) is the key tile at (b, d). -/
theorem dot_apply (x0 : Vec Ideal S1024x512 .bf16) (x1 : Vec Ideal S512x512 .bf16) (p : Fin 1024) (b : Fin 512) :
    matmul (F := Ideal) (φ₁ := .bf16) (φ₂ := .bf16) dot_S1024x512_S512x512_S1024x512_1_0_0_1_n_n none
        (shapeCast S1024x512 x0 shapeCasts_S1024x512_S1024x512)
        (transpose S512x512 [1, 0] (shapeCast S512x512 x1 shapeCasts_S512x512_S512x512)
          transposes_S512x512_p1_0_S512x512)
        (constant (F := Ideal) S1024x512 .f32 0x00000000#32) (ix2 p b)
      = tileDot x0 x1 p b := by
  rw [shapeCast_self x0, shapeCast_self x1]
  refine (DotRecord.matmul_zero_apply dot_S1024x512_S512x512_S1024x512_1_0_0_1_n_n rfl rfl rfl rfl rfl rfl
    x0 (transpose S512x512 [1, 0] x1 transposes_S512x512_p1_0_S512x512) none p b).trans ?_
  unfold tileDot
  exact Finset.sum_congr rfl fun d _ =>
    congrArg (x0 (ix2 p d) * ·) (transpose_ix2_apply x1 transposes_S512x512_p1_0_S512x512 d b)

/-- A square root of a vector reads the square root of the entry. -/
theorem sqrt_apply {s : Shape} {φ : FTy} (a : FVec Ideal s φ) (i : s.Idx) : sqrt a i = Ideal.sqrt (a i) := rfl

/-- The query's squared-length column spread over the tile reads its row's entry. -/
theorem qcol_apply (x2 : Vec Ideal S1024x1 .f32) (p : Fin 1024) (b : Fin 512) :
    broadcastTo S1024x512 (shapeCast S1024x1 x2 shapeCasts_S1024x1_S1024x1) broadcasts_S1024x1_S1024x512 (ix2 p b)
      = x2 (ix2 p 0) := by
  rw [shapeCast_self x2]
  exact Gcn.Lib.broadcastTo_a1_ab_apply x2 broadcasts_S1024x1_S1024x512 p b

/-- The key's squared-length row spread over the tile reads its column's entry. -/
theorem krow_apply (x3 : Vec Ideal S1x512 .f32) (p : Fin 1024) (b : Fin 512) :
    broadcastTo S1024x512 (shapeCast S1x512 x3 shapeCasts_S1x512_S1x512) broadcasts_S1x512_S1024x512 (ix2 p b)
      = x3 (ix2 0 b) := by
  rw [shapeCast_self x3]
  exact broadcastTo_1b_ab_apply x3 broadcasts_S1x512_S1024x512 p b

/-- The score at (p, b): with qd the query's squared length minus the inner product and kd the inner product minus
    the key's squared length, the clamped squared distance is max (qd - kd) 0 and the score is scoreOf of the three. -/
theorem pay8_apply (x0 : Vec Ideal S1024x512 .bf16) (x1 : Vec Ideal S512x512 .bf16) (x2 : Vec Ideal S1024x1 .f32)
    (x3 : Vec Ideal S1x512 .f32) (p : Fin 1024) (b : Fin 512) :
    k0_pay8 (F := Ideal) x0 x1 x2 x3 (ix2 p b)
      = scoreOf (max ((x2 (ix2 p 0) - tileDot x0 x1 p b) - (tileDot x0 x1 p b - x3 (ix2 0 b)))
            (Ideal.ofBits .f32 0x00000000#32))
          (x2 (ix2 p 0) - tileDot x0 x1 p b) (tileDot x0 x1 p b - x3 (ix2 0 b)) := by
  unfold k0_pay8
  simp only [mulf_apply, addf_apply, subf_apply, maximumf_apply, broadcast_apply, sqrt_apply]
  rw [dot_apply x0 x1 p b, qcol_apply x2 p b, krow_apply x3 p b]
  rfl

end Cert.KernelIdeal.Entry

end
-- ==== Proof.ComputeBase.lean ====
/-
  The distance-softmax kernel's first region walks an 8 × 16 grid: point t = 16·i + j handles row block i (1024 query
  rows) against key block j (512 keys). Two conditions on j shape the body: at j = 0 it resets the running row maximum
  and running row sum it keeps in two scratch columns, and at j = 15 it writes the row's log-sum-exp. This module states
  the two conditions as propositions of the grid point, decides them over the 128 points in closed form, records where
  the log-sum-exp window is left untouched, and opens the region's standing invariant at the two scratch columns.
-/
import proofs.«137461_j77884936945679_2_alg».proof.Proof.Gen.KernelIdeal.Launch
import proofs.«137461_j77884936945679_2_alg».proof.Proof.Gen.KernelIdeal.Skeleton
import proofs.«137461_j77884936945679_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions on the key-block coordinate -/

/-- The body is at the first key block of its row block (j = 0): it resets the running maximum and sum. -/
abbrev atFirst (i : grid0.Coords) : Prop :=
  (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The body is at the last key block of its row block (j = 15): it writes the log-sum-exp column. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The log-sum-exp window is stored into only at the last key block; elsewhere it is idle and not written back. -/
theorem idle6 : ∀ t : Fin cfg0.N, ¬ atLast (grid0.coords t) → cfg0.idle 6 (grid0.coords t) = true := by decide +kernel
theorem noFlush6 : ∀ t : Fin cfg0.N, ¬ atLast (grid0.coords t) → (cfg0.win 6).flush t = false := by decide +kernel
theorem live6 : ∀ t : Fin cfg0.N, atLast (grid0.coords t) → cfg0.idle 6 (grid0.coords t) = false := by decide +kernel

/-! ## The memrefs the body is called on -/

abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The running row maximum's scratch column and the running row sum's. -/
abbrev scMax : Memref sig .tc .vmem S1024x1 .f32 := Memref.whole cc0_scratch0
abbrev scSum : Memref sig .tc .vmem S1024x1 .f32 := Memref.whole cc0_scratch1

/-- The region's standing invariant with the two scratch columns split off as memrefs owned at some contents; the
    remaining scoped buffers (the second region's staging buffers) stay at some contents each. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA_eq (c : Dev nD) :
    (Pipeline.ΦA spec0 c : sProp 𝕄)
      = iprop(iprop((∃ d, owns (c : Thread nD τ) scMax fullShare d) ∗ (∃ d, owns (c : Thread nD τ) scSum fullShare d) ∗ restOther (F := F) c) ∗ (∃ r, prngReg c r)) := by
  unfold Pipeline.ΦA restOther; rw [scopedRest0_eq]; simp only [scMax, scSum, owns_whole]; try rfl

end Cert.KernelIdeal.Compute

end
-- ==== Proof.ComputeRunMid.lean ====
/-
  One key block in the middle of a row block (neither the first nor the last of its sixteen): the body reads the query
  and key tiles and the two norm vectors, the running maximum and running sum, and leaves the exponentials of the
  shifted scores in the dense output tile, the new running maximum in the history slab and in its scratch column, and
  the rescaled-and-extended running sum in its scratch column; the log-sum-exp column is not touched. What each buffer
  ends with is found by running the body's memory operations symbolically.
-/
import proofs.«137461_j77884936945679_2_alg».proof.Proof.ComputeBase
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle key block, on whole staging memrefs: inputs at their contents, the dense tile and the history
    slab at anything, the log-sum-exp column handed back as found, the two scratch columns at what the key block before
    left; it runs to the continuation with each written buffer at its stores' pieces. -/
noncomputable def runMid (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) :
    Σ' (L4 : List (View.Piece (Elt F) S1024x512 .f32)), Σ' (L5 : List (View.Piece (Elt F) S1x1024x1 .f32)), Σ' (LM : List (View.Piece (Elt F) S1024x1 .f32)), { LS : List (View.Piece (Elt F) S1024x1 .f32) //
      ∀ (xi6 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare xi6 ∗ owns (c : Thread nD τ) a9 fullShare xm ∗ owns (c : Thread nD τ) a10 fullShare xl
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ owns (c : Thread nD τ) a8 fullShare xi6 ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, fun xi6 E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%fm, %hfm, HM⟩, ⟨%fl, %hfl, HL⟩, Hk⟩
    obtain rfl := h2.eq_unread hf0; obtain rfl := h3.eq_unread hf1; obtain rfl := h4.eq_unread hf2; obtain rfl := h5.eq_unread hf3; obtain rfl := h8.eq_unread hf6; obtain rfl := h9.eq_unread hfm; obtain rfl := h10.eq_unread hfl
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]
    · iexists _; isplitr; · ipureintro; exact h8.read_unread _
      iexact H6
    isplitl [HM]; · iexists _; iexact HM
    iexists _; iexact HL

end Cert.KernelIdeal.Compute

end
-- ==== Proof.ComputeRunFirst.lean ====
/-
  The first key block of a row block: the body first resets the running maximum to −∞ and the running sum to 0 in the
  two scratch columns (whatever they held), then proceeds as at any key block; the log-sum-exp column is not touched.
-/
import proofs.«137461_j77884936945679_2_alg».proof.Proof.ComputeBase
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first key block, on whole staging memrefs: inputs at their contents, the dense tile, the history
    slab and both scratch columns at anything, the log-sum-exp column handed back as found. -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) :
    Σ' (L4 : List (View.Piece (Elt F) S1024x512 .f32)), Σ' (L5 : List (View.Piece (Elt F) S1x1024x1 .f32)), Σ' (LM : List (View.Piece (Elt F) S1024x1 .f32)), { LS : List (View.Piece (Elt F) S1024x1 .f32) //
      ∀ (xi6 : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ owns (c : Thread nD τ) a8 fullShare xi6 ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ owns (c : Thread nD τ) a8 fullShare xi6 ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, fun xi6 E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%dm, %fm, -, HM⟩, ⟨%dl, %fl, -, HL⟩, Hk⟩
    obtain rfl := h2.eq_unread hf0; obtain rfl := h3.eq_unread hf1; obtain rfl := h4.eq_unread hf2; obtain rfl := h5.eq_unread hf3; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]
    · iexists _; isplitr; · ipureintro; exact h8.read_unread _
      iexact H6
    isplitl [HM]; · iexists _; iexact HM
    iexists _; iexact HL

end Cert.KernelIdeal.Compute

end
-- ==== Proof.ComputeRunLast.lean ====
/-
  The last key block of a row block: the body proceeds as at any key block and then writes the row's log-sum-exp, the
  final running maximum plus the logarithm of the final running sum, into its column.
-/
import proofs.«137461_j77884936945679_2_alg».proof.Proof.ComputeBase
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last key block, on whole staging memrefs: inputs at their contents, the three output buffers at
    anything, the two scratch columns at what the key block before left. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) :
    Σ' (L4 : List (View.Piece (Elt F) S1024x512 .f32)), Σ' (L5 : List (View.Piece (Elt F) S1x1024x1 .f32)), Σ' (L6 : List (View.Piece (Elt F) S1024x1 .f32)), Σ' (LM : List (View.Piece (Elt F) S1024x1 .f32)), { LS : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d) ∗ owns (c : Thread nD τ) a9 fullShare xm ∗ owns (c : Thread nD τ) a10 fullShare xl
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f L4) ∗ (∃ f, a7.view.loc (c : Thread nD τ) ↦[a7.view.set]{fullShare} a7.view.writes (Elt F) f L5) ∗ (∃ f, a8.view.loc (c : Thread nD τ) ↦[a8.view.set]{fullShare} a8.view.writes (Elt F) f L6) ∗ (∃ f, a9.view.loc (c : Thread nD τ) ↦[a9.view.set]{fullShare} a9.view.writes (Elt F) f LM) ∗ (∃ f, a10.view.loc (c : Thread nD τ) ↦[a10.view.set]{fullShare} a10.view.writes (Elt F) f LS)) -∗ K ⟨⟩))
          ⊢ wp frame (wpE (defs₀ (F := F)) Variants.none c none) E (cc0__compute_kernel i a2 h2 a3 h3 a4 h4 a5 h5 a6 h6 a7 h7 a8 h8 a9 h9 a10 h10) K } := by
  refine ⟨?_, ?_, ?_, ?_, ?_, fun E K => ?run⟩
  case run =>
    simp only [cc0__compute_kernel_eq_skeleton]; unfold cc0__compute_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fm, %hfm, HM⟩, ⟨%fl, %hfl, HL⟩, Hk⟩
    obtain rfl := h2.eq_unread hf0; obtain rfl := h3.eq_unread hf1; obtain rfl := h4.eq_unread hf2; obtain rfl := h5.eq_unread hf3; obtain rfl := h9.eq_unread hfm; obtain rfl := h10.eq_unread hfl
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HM]; · iexists _; iexact HM
    iexists _; iexact HL

end Cert.KernelIdeal.Compute

end
-- ==== Proof.ComputeContents.lean ====
/-
  What the first region's body leaves, in the body's own arithmetic. Write, for the four input blocks of a grid point and
  the running maximum `xm` the point starts from, `k0_pay9 … xm` for the new running maximum (the old one against the
  row maxima of this tile's scores) and `k0_pay10 … xm` for the tile's scores shifted by it. Then the dense tile ends at
  the exponentials of the shifted scores, the history slab and the maximum's scratch column at the new running maximum,
  the sum's scratch column at  old sum · exp(old max − new max) + the row sums of those exponentials,  and, at the last
  key block, the log-sum-exp column at  new max + log(new sum).  At the first key block the point starts from the reset
  pair (−∞, 0). Every store covers its whole buffer, so each buffer reads back its last store's payload.
-/
import proofs.«137461_j77884936945679_2_alg».proof.Proof.ComputeRunMid
import proofs.«137461_j77884936945679_2_alg».proof.Proof.ComputeRunFirst
import proofs.«137461_j77884936945679_2_alg».proof.Proof.ComputeRunLast
import Idealize.ShloMosaic.Lib.Pipeline.Value
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem z2 : (![0, 0] : Fin 2 → Nat) = fun _ => 0 := by funext a; fin_cases a <;> rfl
theorem z3 : (![0, 0, 0] : Fin 3 → Nat) = fun _ => 0 := by funext a; fin_cases a <;> rfl

/-- A store through the whole buffer, made last, leaves its payload whatever was stored before and whatever the
    buffer held. -/
theorem read_writes_head {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h
  rw [View.read_writes_eq_canon v f _ (fun y => ⟨_, List.mem_cons_self, by show y ∈ (Rect.whole S).set; rw [Rect.set_whole]; exact Finset.mem_univ y⟩), View.canon_cons_unit_zero rfl]

/-! ## A middle key block -/

theorem mid_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a6.view.ty.Contents (Elt F)) :
    a6.view.read (Elt F) (a6.view.writes (Elt F) f (runMid (F := F) c i a2 h2 a3 h3 a4 h4 a5 h5 a6 h6 a7 h7 a8 h8 a9 h9 a10 h10 hF hL x0 x1 x2 x3 xm xl).1) = k0_pay1 (k0_pay10 x0 x1 x2 x3 xm) := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a7.view.ty.Contents (Elt F)) :
    a7.view.read (Elt F) (a7.view.writes (Elt F) f (runMid (F := F) c i a2 h2 a3 h3 a4 h4 a5 h5 a6 h6 a7 h7 a8 h8 a9 h9 a10 h10 hF hL x0 x1 x2 x3 xm xl).2.1) = k0_pay4 (k0_pay9 x0 x1 x2 x3 xm) := by
  unfold runMid
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a9.view.ty.Contents (Elt F)) :
    a9.view.read (Elt F) (a9.view.writes (Elt F) f (runMid (F := F) c i a2 h2 a3 h3 a4 h4 a5 h5 a6 h6 a7 h7 a8 h8 a9 h9 a10 h10 hF hL x0 x1 x2 x3 xm xl).2.2.1) = k0_pay3 (k0_pay9 x0 x1 x2 x3 xm) := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem mid_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : ¬ atLast i)
    (x0 : Vec F S1024x512 .bf16) (x1 : Vec F S512x512 .bf16) (x2 : Vec F S1024x1 .f32) (x3 : Vec F S1x512 .f32) (xm : Vec F S1024x1 .f32) (xl : Vec F S1024x1 .f32) (f : a10.view.ty.Contents (Elt F)) :
    a10.view.read (Elt F) (a10.view.writes (Elt F) f (runMid (F := F) c i a2 h2 a3 h3 a4 h4 a5 h5 a6 h6 a7 h7 a8 h8 a9 h9 a10 h10 hF hL x0 x1 x2 x3 xm xl).2.2.2.1) = k0_pay2 xm (k0_pay9 x0 x1 x2 x3 xm) (k0_pay10 x0 x1 x2 x3 xm) xl := by
  unfold runMid
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

/-! ## The first key block of a row block: from the reset pair -/

theorem first_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a6.view.ty.Contents (Elt F)) :
    a6.view.read (Elt F) (a6.view.writes (Elt F) f (runFirst (F := F) c i a2 h2 a3 h3 a4 h4 a5 h5 a6 h6 a7 h7 a8 h8 a9 h9 a10 h10 hF hL x0 x1 x2 x3).1) = k0_pay1 (k0_pay10 x0 x1 x2 x3 (k0_pay6 (F := F))) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a7.view.ty.Contents (Elt F)) :
    a7.view.read (Elt F) (a7.view.writes (Elt F) f (runFirst (F := F) c i a2 h2 a3 h3 a4 h4 a5 h5 a6 h6 a7 h7 a8 h8 a9 h9 a10 h10 hF hL x0 x1 x2 x3).2.1) = k0_pay4 (k0_pay9 x0 x1 x2 x3 (k0_pay6 (F := F))) := by
  unfold runFirst
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a9.view.ty.Contents (Elt F)) :
    a9.view.read (Elt F) (a9.view.writes (Elt F) f (runFirst (F := F) c i a2 h2 a3 h3 a4 h4 a5 h5 a6 h6 a7 h7 a8 h8 a9 h9 a10 h10 hF hL x0 x1 x2 x3).2.2.1) = k0_pay3 (k0_pay9 x0 x1 x2 x3 (k0_pay6 (F := F))) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem first_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : atFirst i) (hL : ¬ atLast i)
    (x0 : Vec F S1024x512 .bf16) (x1 : Vec F S512x512 .bf16) (x2 : Vec F S1024x1 .f32) (x3 : Vec F S1x512 .f32) (f : a10.view.ty.Contents (Elt F)) :
    a10.view.read (Elt F) (a10.view.writes (Elt F) f (runFirst (F := F) c i a2 h2 a3 h3 a4 h4 a5 h5 a6 h6 a7 h7 a8 h8 a9 h9 a10 h10 hF hL x0 x1 x2 x3).2.2.2.1) = k0_pay2 (k0_pay6 (F := F)) (k0_pay9 x0 x1 x2 x3 (k0_pay6 (F := F))) (k0_pay10 x0 x1 x2 x3 (k0_pay6 (F := F))) (k0_pay7 (F := F)) := by
  unfold runFirst
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

/-! ## The last key block of a row block -/

theorem last_tile (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a6.view.ty.Contents (Elt F)) :
    a6.view.read (Elt F) (a6.view.writes (Elt F) f (runLast (F := F) c i a2 h2 a3 h3 a4 h4 a5 h5 a6 h6 a7 h7 a8 h8 a9 h9 a10 h10 hF hL x0 x1 x2 x3 xm xl).1) = k0_pay1 (k0_pay10 x0 x1 x2 x3 xm) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_hist (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a7.view.ty.Contents (Elt F)) :
    a7.view.read (Elt F) (a7.view.writes (Elt F) f (runLast (F := F) c i a2 h2 a3 h3 a4 h4 a5 h5 a6 h6 a7 h7 a8 h8 a9 h9 a10 h10 hF hL x0 x1 x2 x3 xm xl).2.1) = k0_pay4 (k0_pay9 x0 x1 x2 x3 xm) := by
  unfold runLast
  dsimp only
  sl_unfold_words
  rw [read_writes_head _ _ z3]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_lse (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a8.view.ty.Contents (Elt F)) :
    a8.view.read (Elt F) (a8.view.writes (Elt F) f (runLast (F := F) c i a2 h2 a3 h3 a4 h4 a5 h5 a6 h6 a7 h7 a8 h8 a9 h9 a10 h10 hF hL x0 x1 x2 x3 xm xl).2.2.1) = k0_pay5 (k0_pay3 (k0_pay9 x0 x1 x2 x3 xm)) (k0_pay2 xm (k0_pay9 x0 x1 x2 x3 xm) (k0_pay10 x0 x1 x2 x3 xm) xl) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_max (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a9.view.ty.Contents (Elt F)) :
    a9.view.read (Elt F) (a9.view.writes (Elt F) f (runLast (F := F) c i a2 h2 a3 h3 a4 h4 a5 h5 a6 h6 a7 h7 a8 h8 a9 h9 a10 h10 hF hL x0 x1 x2 x3 xm xl).2.2.2.1) = k0_pay3 (k0_pay9 x0 x1 x2 x3 xm) := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

theorem last_sum (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x512 .f32) (h6 : a6.IsWhole) (a7 : Memref sig .tc .vmem S1x1024x1 .f32) (h7 : a7.IsWhole) (a8 : Memref sig .tc .vmem S1024x1 .f32) (h8 : a8.IsWhole) (a9 : Memref sig .tc .vmem S1024x1 .f32) (h9 : a9.IsWhole) (a10 : Memref sig .tc .vmem S1024x1 .f32) (h10 : a10.IsWhole) (hF : ¬ atFirst i) (hL : atLast i)
    (x0 : Vec F S1024x512 .bf16) (x1 : Vec F S512x512 .bf16) (x2 : Vec F S1024x1 .f32) (x3 : Vec F S1x512 .f32) (xm : Vec F S1024x1 .f32) (xl : Vec F S1024x1 .f32) (f : a10.view.ty.Contents (Elt F)) :
    a10.view.read (Elt F) (a10.view.writes (Elt F) f (runLast (F := F) c i a2 h2 a3 h3 a4 h4 a5 h5 a6 h6 a7 h7 a8 h8 a9 h9 a10 h10 hF hL x0 x1 x2 x3 xm xl).2.2.2.2.1) = k0_pay2 xm (k0_pay9 x0 x1 x2 x3 xm) (k0_pay10 x0 x1 x2 x3 xm) xl := by
  unfold runLast
  dsimp only
  sl_unfold_words
  rw [read_writes_head _ _ z2]
  simp only [View.readAt_eq_ld, Memref.IsWhole.read_unread, View.ld_unit_zero (S := S1024x512) z2, View.ld_unit_zero (S := S512x512) z2, View.ld_unit_zero (S := S1024x1) z2, View.ld_unit_zero (S := S1x512) z2, View.readCov_unit_zero (S := S1024x1) _ z2]

end Cert.KernelIdeal.Compute

end
-- ==== Proof.ComputeData.lean ====
/-
  The first region's proof data. At grid point t = 16·i + j the body sees the blocks of its four input windows (query
  tile i, key tile j, the query norms of row block i, the key norms of key block j) and the pair (running maximum,
  running sum) that row block i has accumulated over key blocks 0 … j−1 — the reset pair (−∞, 0) when j = 0. One step
  function takes the blocks and that pair to the pair after the point; the pair is carried from point to point in two
  scratch columns, which the region's invariant names after every point. The dense tile and the history slab are
  functions of the blocks and the incoming maximum; the log-sum-exp column is a function of the outgoing pair and is
  stored (and written back) only at j = 15.
-/
import proofs.«137461_j77884936945679_2_alg».proof.Proof.ComputeContents
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (an unfetched
    point has the block index of the point before). -/
theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The carried pair -/

/-- One key block's effect on the pair (running maximum, running sum). -/
def stepPair (x0 : Vec F S1024x512 .bf16) (x1 : Vec F S512x512 .bf16) (x2 : Vec F S1024x1 .f32) (x3 : Vec F S1x512 .f32)
    (p : Vec F S1024x1 .f32 × Vec F S1024x1 .f32) : Vec F S1024x1 .f32 × Vec F S1024x1 .f32 :=
  (k0_pay3 (k0_pay9 x0 x1 x2 x3 p.1), k0_pay2 p.1 (k0_pay9 x0 x1 x2 x3 p.1) (k0_pay10 x0 x1 x2 x3 p.1) p.2)

/-- The pair a row block starts from: −∞ and 0 in every row. -/
def resetPair : Vec F S1024x1 .f32 × Vec F S1024x1 .f32 := (k0_pay6, k0_pay7)

/-- The pair after point `n`: a step from the reset pair at the first key block of a row block, from the pair after
    the point before otherwise. -/
def pairAt (c : Dev nD) : (n : ℕ) → n < cfg0.N → Vec F S1024x1 .f32 × Vec F S1024x1 .f32
  | 0, hn => stepPair (blk V c 0 ⟨0, hn⟩) (blk V c 1 ⟨0, hn⟩) (blk V c 2 ⟨0, hn⟩) (blk V c 3 ⟨0, hn⟩) resetPair
  | n + 1, hn => stepPair (blk V c 0 ⟨n + 1, hn⟩) (blk V c 1 ⟨n + 1, hn⟩) (blk V c 2 ⟨n + 1, hn⟩) (blk V c 3 ⟨n + 1, hn⟩)
      (if (n + 1) % 16 = 0 then resetPair else pairAt c n (Nat.lt_of_succ_lt hn))

/-- The pair point `t` starts from. -/
def pairIn (c : Dev nD) (t : Fin cfg0.N) : Vec F S1024x1 .f32 × Vec F S1024x1 .f32 :=
  if t.val % 16 = 0 then resetPair else pairAt V c (t.val - 1) (Nat.lt_of_le_of_lt (Nat.sub_le _ _) t.isLt)

theorem pairAt_eq (c : Dev nD) (t : Fin cfg0.N) :
    pairAt V c t.val t.isLt = stepPair (blk V c 0 t) (blk V c 1 t) (blk V c 2 t) (blk V c 3 t) (pairIn V c t) := by
  obtain ⟨n, hn⟩ := t
  cases n with
  | zero => rfl
  | succ n => rfl

theorem pairIn_first (c : Dev nD) (t : Fin cfg0.N) (h : t.val % 16 = 0) : pairIn V c t = resetPair := by
  unfold pairIn; rw [if_pos h]
theorem pairIn_later (c : Dev nD) (t : Fin cfg0.N) (h : ¬ t.val % 16 = 0) :
    pairIn V c t = pairAt V c (t.val - 1) (Nat.lt_of_le_of_lt (Nat.sub_le _ _) t.isLt) := by
  unfold pairIn; rw [if_neg h]

/-! ## The invariant -/

/-- Before point `n`: at the region's entry the class's invariant (every scoped buffer at anything); afterwards the two
    scratch columns at the pair the point before left, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scMax fullShare (pairAt V c n hn).1 ∗ owns (c : Thread nD τ) scSum fullShare (pairAt V c n hn).2 ∗ restOther (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scMax fullShare (pairAt V c n hn).1 ∗ owns (c : Thread nD τ) scSum fullShare (pairAt V c n hn).2 ∗ restOther (F := F) c) ∗ (∃ r, prngReg c r)) := rfl
theorem PhiS_pos (c : Dev nD) (n : ℕ) (h : n ≤ cfg0.N) (hz : n ≠ 0) :
    PhiS V c n h = iprop(iprop(owns (c : Thread nD τ) scMax fullShare (pairAt V c (n - 1) (by omega)).1 ∗ owns (c : Thread nD τ) scSum fullShare (pairAt V c (n - 1) (by omega)).2 ∗ restOther (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => k0_pay1 (k0_pay10 (blk V c 0 t) (blk V c 1 t) (blk V c 2 t) (blk V c 3 t) (pairIn V c t).1)
    | ⟨5, _⟩ => k0_pay4 (k0_pay9 (blk V c 0 t) (blk V c 1 t) (blk V c 2 t) (blk V c 3 t) (pairIn V c t).1)
    | ⟨6, _⟩ => k0_pay5 (pairAt V c t.val t.isLt).1 (pairAt V c t.val t.isLt).2
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem Phi_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = blk V c 0 t := by dsimp only [dat0]
theorem after_1 (c : Dev nD) (t : Fin cfg0.N) : (dat0 V c).after 1 t = blk V c 1 t := by dsimp only [dat0]
theorem after_2 (c : Dev nD) (t : Fin cfg0.N) : (dat0 V c).after 2 t = blk V c 2 t := by dsimp only [dat0]
theorem after_3 (c : Dev nD) (t : Fin cfg0.N) : (dat0 V c).after 3 t = blk V c 3 t := by dsimp only [dat0]
theorem after_4 (c : Dev nD) (t : Fin cfg0.N) : (dat0 V c).after 4 t = k0_pay1 (k0_pay10 (blk V c 0 t) (blk V c 1 t) (blk V c 2 t) (blk V c 3 t) (pairIn V c t).1) := by dsimp only [dat0]
theorem after_5 (c : Dev nD) (t : Fin cfg0.N) : (dat0 V c).after 5 t = k0_pay4 (k0_pay9 (blk V c 0 t) (blk V c 1 t) (blk V c 2 t) (blk V c 3 t) (pairIn V c t).1) := by dsimp only [dat0]
theorem after_6 (c : Dev nD) (t : Fin cfg0.N) : (dat0 V c).after 6 t = k0_pay5 (pairAt V c t.val t.isLt).1 (pairAt V c t.val t.isLt).2 := by dsimp only [dat0]

theorem before_0 (c : Dev nD) (t : Fin cfg0.N) (d) : (dat0 V c).before 0 t d = blk V c 0 t := before_in0 V (dat0 V c) (A_eq V c 0) (after_0 V c) t d
theorem before_1 (c : Dev nD) (t : Fin cfg0.N) (d) : (dat0 V c).before 1 t d = blk V c 1 t := before_in1 V (dat0 V c) (A_eq V c 1) (after_1 V c) t d
theorem before_2 (c : Dev nD) (t : Fin cfg0.N) (d) : (dat0 V c).before 2 t d = blk V c 2 t := before_in2 V (dat0 V c) (A_eq V c 2) (after_2 V c) t d
theorem before_3 (c : Dev nD) (t : Fin cfg0.N) (d) : (dat0 V c).before 3 t d = blk V c 3 t := before_in3 V (dat0 V c) (A_eq V c 3) (after_3 V c) t d

end Cert.KernelIdeal.Compute

end
-- ==== Proof.RescaleRun.lean ====
/-
  The second region rescales the dense tile: at every grid point the body reads the tile's history slab (the running
  maximum the first region used for this tile), the row block's log-sum-exp column and the unnormalised tile, and stores
  tile · exp(history − log-sum-exp), the column broadcast along the rows' 512 entries. One case; nothing is kept between
  points.
-/
import proofs.«137461_j77884936945679_2_alg».proof.Proof.Gen.KernelIdeal.Launch
import proofs.«137461_j77884936945679_2_alg».proof.Proof.Gen.KernelIdeal.Skeleton
import proofs.«137461_j77884936945679_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rescale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The rescale body on whole staging memrefs: the three inputs at their contents, the output tile at anything; it runs
    to the continuation with the output tile at its one store's piece. -/
noncomputable def run (c : Dev nD) (i : grid1.Coords) (b2 : Memref sig .tc .vmem S1x1024x1 .f32) (g2 : b2.IsWhole) (b3 : Memref sig .tc .vmem S1024x1 .f32) (g3 : b3.IsWhole) (b4 : Memref sig .tc .vmem S1024x512 .f32) (g4 : b4.IsWhole) (b5 : Memref sig .tc .vmem S1024x512 .f32) (g5 : b5.IsWhole)
    (y0 : Vec F S1x1024x1 .f32) (y1 : Vec F S1024x1 .f32) (y2 : Vec F S1024x512 .f32) :
    { L3 : List (View.Piece (Elt F) S1024x512 .f32) //
      ∀ (E : Set ℕ) (K : PUnit → sProp 𝕄),
        iprop(owns (c : Thread nD τ) b2 fullShare y0 ∗ owns (c : Thread nD τ) b3 fullShare y1 ∗ owns (c : Thread nD τ) b4 fullShare y2 ∗ (∃ d, owns (c : Thread nD τ) b5 fullShare d)
            ∗ (iprop(owns (c : Thread nD τ) b2 fullShare y0 ∗ owns (c : Thread nD τ) b3 fullShare y1 ∗ owns (c : Thread nD τ) b4 fullShare y2 ∗ (∃ f, b5.view.loc (c : Thread nD τ) ↦[b5.view.set]{fullShare} b5.view.writes (Elt F) f L3)) -∗ K ⟨⟩))
          ⊢ wp frame (wpE (defs₀ (F := F)) Variants.none c none) E (cc1__rescale_kernel i b2 g2 b3 g3 b4 g4 b5 g5) K } := by
  refine ⟨?_, fun E K => ?run⟩
  case run =>
    simp only [cc1__rescale_kernel_eq_skeleton]; unfold cc1__rescale_kernel_skel
    unfold owns
    iintro ⟨⟨%f0, %hf0, H0⟩, ⟨%f1, %hf1, H1⟩, ⟨%f2, %hf2, H2⟩, ⟨%d3, %f3, -, H3⟩, Hk⟩
    obtain rfl := g2.eq_unread hf0; obtain rfl := g3.eq_unread hf1; obtain rfl := g4.eq_unread hf2
    sl_exec
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    iexists _; iexact H3

end Cert.KernelIdeal.Rescale

end
-- ==== Proof.RescaleData.lean ====
/-
  The second region's proof data and body obligation. At every point the body sees its three input blocks — the history
  slab of tile (i, j), the log-sum-exp column of row block i, the unnormalised tile (i, j) — and leaves the output tile
  at  tile · exp(history − log-sum-exp)  broadcast along each row. Nothing is carried between points, so the invariant
  is the class's (every scoped buffer of the core that is no staging buffer of this region at anything).
-/
import proofs.«137461_j77884936945679_2_alg».proof.Proof.RescaleRun
import proofs.«137461_j77884936945679_2_alg».proof.Proof.ComputeContents
set_option maxRecDepth 16384

noncomputable section

namespace Cert.KernelIdeal.Rescale

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Compute (read_writes_head z2 z3)

variable (V : (c : Dev nD) → (b : Ref sig .tc) → Buf (Elt F) ((c : Thread nD τ).loc b))

/-- The output tile reads back its one store's payload. -/
theorem run_tile (c : Dev nD) (i : grid1.Coords) (b2 : Memref sig .tc .vmem S1x1024x1 .f32) (g2 : b2.IsWhole) (b3 : Memref sig .tc .vmem S1024x1 .f32) (g3 : b3.IsWhole) (b4 : Memref sig .tc .vmem S1024x512 .f32) (g4 : b4.IsWhole) (b5 : Memref sig .tc .vmem S1024x512 .f32) (g5 : b5.IsWhole)
    (y0 : Vec F S1x1024x1 .f32) (y1 : Vec F S1024x1 .f32) (y2 : Vec F S1024x512 .f32) (f : b5.view.ty.Contents (Elt F)) :
    b5.view.read (Elt F) (b5.view.writes (Elt F) f (run (F := F) c i b2 g2 b3 g3 b4 g4 b5 g5 y0 y1 y2).1) = k1_pay1 y0 y1 y2 := by
  unfold run
  dsimp only
  sl_unfold_words
  rw [read_writes_head _ _ z2]
  simp only [View.readAt_eq_ld, Memref.IsWhole.read_unread, View.ld_unit_zero (S := S1x1024x1) z3, View.ld_unit_zero (S := S1024x1) z2, View.ld_unit_zero (S := S1024x512) z2]

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

abbrev ns0 (t : Fin cfg1.N) : Memref sig .tc .vmem S1x1024x1 .f32 := win1_0.stage (cfg1.slots t 0)
abbrev gs0 (t : Fin cfg1.N) : (ns0 t).IsWhole := hstage1_0 ((cfg1.slots t 0).cast nbuf1_0)
abbrev ns1 (t : Fin cfg1.N) : Memref sig .tc .vmem S1024x1 .f32 := win1_1.stage (cfg1.slots t 1)
abbrev gs1 (t : Fin cfg1.N) : (ns1 t).IsWhole := hstage1_1 ((cfg1.slots t 1).cast nbuf1_1)
abbrev ns2 (t : Fin cfg1.N) : Memref sig .tc .vmem S1024x512 .f32 := win1_2.stage (cfg1.slots t 2)
abbrev gs2 (t : Fin cfg1.N) : (ns2 t).IsWhole := hstage1_2 ((cfg1.slots t 2).cast nbuf1_2)
abbrev ns3 (t : Fin cfg1.N) : Memref sig .tc .vmem S1024x512 .f32 := win1_3.stage (cfg1.slots t 3)
abbrev gs3 (t : Fin cfg1.N) : (ns3 t).IsWhole := hstage1_3 ((cfg1.slots t 3).cast nbuf1_3)

def dat1 (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => k1_pay1 (blk V c 0 t) (blk V c 1 t) (blk V c 2 t)
  Φ _ := Pipeline.ΦA spec1 c
  q _ := fullShare
  owed _ := 0

theorem A_eq (c : Dev nD) (w : Fin cfg1.W) : (dat1 V c).A w = V c (Pipeline.arrRef spec1 w) := by
  dsimp only [dat1]
theorem after_0 (c : Dev nD) (t : Fin cfg1.N) : (dat1 V c).after 0 t = blk V c 0 t := by dsimp only [dat1]
theorem after_1 (c : Dev nD) (t : Fin cfg1.N) : (dat1 V c).after 1 t = blk V c 1 t := by dsimp only [dat1]
theorem after_2 (c : Dev nD) (t : Fin cfg1.N) : (dat1 V c).after 2 t = blk V c 2 t := by dsimp only [dat1]
theorem after_3 (c : Dev nD) (t : Fin cfg1.N) : (dat1 V c).after 3 t = k1_pay1 (blk V c 0 t) (blk V c 1 t) (blk V c 2 t) := by dsimp only [dat1]
theorem before_0 (c : Dev nD) (t : Fin cfg1.N) (d) : (dat1 V c).before 0 t d = blk V c 0 t := before_in0 V (dat1 V c) (A_eq V c 0) (after_0 V c) t d
theorem before_1 (c : Dev nD) (t : Fin cfg1.N) (d) : (dat1 V c).before 1 t d = blk V c 1 t := before_in1 V (dat1 V c) (A_eq V c 1) (after_1 V c) t d
theorem before_2 (c : Dev nD) (t : Fin cfg1.N) (d) : (dat1 V c).before 2 t d = blk V c 2 t := before_in2 V (dat1 V c) (A_eq V c 2) (after_2 V c) t d

def bodyPre (c : Dev nD) (t : Fin cfg1.N) : sProp 𝕄 :=
  iprop((dat1 V c).Φ t.castSucc ∗ (dat1 V c).owesAt () t.castSucc
    ∗ (∃ d, owns (c : Thread nD τ) (ns0 t) fullShare ((dat1 V c).before 0 t d))
    ∗ (∃ d, owns (c : Thread nD τ) (ns1 t) fullShare ((dat1 V c).before 1 t d))
    ∗ (∃ d, owns (c : Thread nD τ) (ns2 t) fullShare ((dat1 V c).before 2 t d))
    ∗ (∃ d, owns (c : Thread nD τ) (ns3 t) fullShare ((dat1 V c).before 3 t d)))

def bodyPost (c : Dev nD) (t : Fin cfg1.N) : sProp 𝕄 :=
  iprop((dat1 V c).Φ t.succ ∗ (dat1 V c).owesAt () t.succ
    ∗ owns (c : Thread nD τ) (ns0 t) fullShare ((dat1 V c).after 0 t)
    ∗ owns (c : Thread nD τ) (ns1 t) fullShare ((dat1 V c).after 1 t)
    ∗ owns (c : Thread nD τ) (ns2 t) fullShare ((dat1 V c).after 2 t)
    ∗ owns (c : Thread nD τ) (ns3 t) fullShare ((dat1 V c).after 3 t))

set_option maxHeartbeats 2000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).Φ t.succ = (dat1 V c).Φ t.castSucc from rfl,
    show (dat1 V c).owesAt () t.succ = (dat1 V c).owesAt () t.castSucc from rfl,
    after_0, after_1, after_2, after_3]
  iintro ⟨HΦ, Ho, ⟨%d0, H0⟩, ⟨%d1, H1⟩, ⟨%d2, H2⟩, ⟨%d3, H3⟩⟩
  iapply ((run c (grid1.coords t) (ns0 t) (gs0 t) (ns1 t) (gs1 t) (ns2 t) (gs2 t) (ns3 t) (gs3 t) (blk V c 0 t) (blk V c 1 t) (blk V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact run_tile c (grid1.coords t) (ns0 t) (gs0 t) (ns1 t) (gs1 t) (ns2 t) (gs2 t) (ns3 t) (gs3 t) (blk V c 0 t) (blk V c 1 t) (blk V c 2 t) _

theorem body_obligation (c : Dev nD) : BodyObligation (dat1 (F := F) V c) (defs₀ (F := F)) Variants.none () Set.univ := fun t => by
  rw [bigSep_W1, bigSep_W1]
  exact sound_body V c t

end Cert.KernelIdeal.Rescale

end
-- ==== Proof.BlockReads.lean ====
/-
  Which entries of its arrays a grid point sees. Point t of either region's 8 × 16 grid is (i, j) = (t div 16, t mod 16):
  row block i of 1024 query rows against key block j of 512 keys. The query tile and the query norms move with i, the
  key tile and the key norms with j, the dense tile with (i, j), and the history slab is slab j, rows of block i. An
  element of a block sits in its array at  block index × block size + its coordinate inside the block,  axis by axis.
-/
import proofs.«137461_j77884936945679_2_alg».proof.Proof.ComputeData
import proofs.«137461_j77884936945679_2_alg».proof.Proof.RescaleData
import Idealize.ShloMosaic.Lib.Pipeline.Value
set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The printed index maps, decided over the grid -/

theorem idxA0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idxA1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idxA2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idxA3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem idxA4 : ∀ t : Fin cfg0.N, win0_4.index t (0 : Fin 2) = t.val / 16 ∧ win0_4.index t (1 : Fin 2) = t.val % 16 :=
  (by decide +kernel : ∀ t : Fin grid0.N, win0_4.index t (0 : Fin 2) = t.val / 16 ∧ win0_4.index t (1 : Fin 2) = t.val % 16)
theorem idxA5 : ∀ t : Fin cfg0.N, win0_5.index t (0 : Fin 3) = t.val % 16 ∧ win0_5.index t (1 : Fin 3) = t.val / 16 ∧ win0_5.index t (2 : Fin 3) = 0 :=
  (by decide +kernel : ∀ t : Fin grid0.N, win0_5.index t (0 : Fin 3) = t.val % 16 ∧ win0_5.index t (1 : Fin 3) = t.val / 16 ∧ win0_5.index t (2 : Fin 3) = 0)
theorem idxA6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)
theorem idxB0 : ∀ t : Fin cfg1.N, win1_0.index t (0 : Fin 3) = t.val % 16 ∧ win1_0.index t (1 : Fin 3) = t.val / 16 ∧ win1_0.index t (2 : Fin 3) = 0 :=
  (by decide +kernel : ∀ t : Fin grid1.N, win1_0.index t (0 : Fin 3) = t.val % 16 ∧ win1_0.index t (1 : Fin 3) = t.val / 16 ∧ win1_0.index t (2 : Fin 3) = 0)
theorem idxB1 : ∀ t : Fin cfg1.N, win1_1.index t (0 : Fin 2) = t.val / 16 ∧ win1_1.index t (1 : Fin 2) = 0 :=
  (by decide +kernel : ∀ t : Fin grid1.N, win1_1.index t (0 : Fin 2) = t.val / 16 ∧ win1_1.index t (1 : Fin 2) = 0)
theorem idxB2 : ∀ t : Fin cfg1.N, win1_2.index t (0 : Fin 2) = t.val / 16 ∧ win1_2.index t (1 : Fin 2) = t.val % 16 :=
  (by decide +kernel : ∀ t : Fin grid1.N, win1_2.index t (0 : Fin 2) = t.val / 16 ∧ win1_2.index t (1 : Fin 2) = t.val % 16)
theorem idxB3 : ∀ t : Fin cfg1.N, win1_3.index t (0 : Fin 2) = t.val / 16 ∧ win1_3.index t (1 : Fin 2) = t.val % 16 :=
  (by decide +kernel : ∀ t : Fin grid1.N, win1_3.index t (0 : Fin 2) = t.val / 16 ∧ win1_3.index t (1 : Fin 2) = t.val % 16)

/-! ## The first region's input blocks -/

theorem query_tile (c : Dev nD) (t : Fin cfg0.N) (x : S1024x512.Idx) (k : S8192x512.Idx)
    (hk0 : (k 0).val = 1024 * (t.val / 16) + (x 0).val) (hk1 : (k 1).val = (x 1).val) :
    (Compute.blk V c 0 t : Vec F S1024x512 .bf16) x = (V c main_v7 : S8192x512.Idx → Elt F .bf16) k := by
  obtain ⟨i0, i1⟩ := idxA0 t
  unfold Compute.blk
  rw [View.read_apply]
  show V c main_v7 _ = V c main_v7 _
  refine congrArg (V c main_v7) ?_
  funext a
  apply Fin.ext
  match a with
  | ⟨0, _⟩ => show win0_0.index t 0 * 1024 + 1 * (x 0).val = (k 0).val; rw [i0, hk0]; omega
  | ⟨1, _⟩ => show win0_0.index t 1 * 512 + 1 * (x 1).val = (k 1).val; rw [i1, hk1]; omega

theorem key_tile (c : Dev nD) (t : Fin cfg0.N) (x : S512x512.Idx) (k : S8192x512.Idx)
    (hk0 : (k 0).val = 512 * (t.val % 16) + (x 0).val) (hk1 : (k 1).val = (x 1).val) :
    (Compute.blk V c 1 t : Vec F S512x512 .bf16) x = (V c main_v8 : S8192x512.Idx → Elt F .bf16) k := by
  obtain ⟨i0, i1⟩ := idxA1 t
  unfold Compute.blk
  rw [View.read_apply]
  show V c main_v8 _ = V c main_v8 _
  refine congrArg (V c main_v8) ?_
  funext a
  apply Fin.ext
  match a with
  | ⟨0, _⟩ => show win0_1.index t 0 * 512 + 1 * (x 0).val = (k 0).val; rw [i0, hk0]; omega
  | ⟨1, _⟩ => show win0_1.index t 1 * 512 + 1 * (x 1).val = (k 1).val; rw [i1, hk1]; omega

theorem query_norms (c : Dev nD) (t : Fin cfg0.N) (x : S1024x1.Idx) (k : S8192x1.Idx)
    (hk0 : (k 0).val = 1024 * (t.val / 16) + (x 0).val) (hk1 : (k 1).val = (x 1).val) :
    (Compute.blk V c 2 t : Vec F S1024x1 .f32) x = (V c main_v2 : S8192x1.Idx → Elt F .f32) k := by
  obtain ⟨i0, i1⟩ := idxA2 t
  unfold Compute.blk
  rw [View.read_apply]
  show V c main_v2 _ = V c main_v2 _
  refine congrArg (V c main_v2) ?_
  funext a
  apply Fin.ext
  match a with
  | ⟨0, _⟩ => show win0_2.index t 0 * 1024 + 1 * (x 0).val = (k 0).val; rw [i0, hk0]; omega
  | ⟨1, _⟩ => show win0_2.index t 1 * 1 + 1 * (x 1).val = (k 1).val; rw [i1, hk1]; omega

theorem key_norms (c : Dev nD) (t : Fin cfg0.N) (x : S1x512.Idx) (k : S1x8192.Idx)
    (hk0 : (k 0).val = (x 0).val) (hk1 : (k 1).val = 512 * (t.val % 16) + (x 1).val) :
    (Compute.blk V c 3 t : Vec F S1x512 .f32) x = (V c main_v6 : S1x8192.Idx → Elt F .f32) k := by
  obtain ⟨i0, i1⟩ := idxA3 t
  unfold Compute.blk
  rw [View.read_apply]
  show V c main_v6 _ = V c main_v6 _
  refine congrArg (V c main_v6) ?_
  funext a
  apply Fin.ext
  match a with
  | ⟨0, _⟩ => show win0_3.index t 0 * 1 + 1 * (x 0).val = (k 0).val; rw [i0, hk0]; omega
  | ⟨1, _⟩ => show win0_3.index t 1 * 512 + 1 * (x 1).val = (k 1).val; rw [i1, hk1]; omega

/-! ## The second region's input blocks -/

theorem history_slab (c : Dev nD) (t : Fin cfg1.N) (x : S1x1024x1.Idx) (k : S16x8192x1.Idx)
    (hk0 : (k 0).val = t.val % 16 + (x 0).val) (hk1 : (k 1).val = 1024 * (t.val / 16) + (x 1).val) (hk2 : (k 2).val = (x 2).val) :
    (Rescale.blk V c 0 t : Vec F S1x1024x1 .f32) x = (V c main_v9_1 : S16x8192x1.Idx → Elt F .f32) k := by
  obtain ⟨i0, i1, i2⟩ := idxB0 t
  unfold Rescale.blk
  rw [View.read_apply]
  show V c main_v9_1 _ = V c main_v9_1 _
  refine congrArg (V c main_v9_1) ?_
  funext a
  apply Fin.ext
  match a with
  | ⟨0, _⟩ => show win1_0.index t 0 * 1 + 1 * (x 0).val = (k 0).val; rw [i0, hk0]; omega
  | ⟨1, _⟩ => show win1_0.index t 1 * 1024 + 1 * (x 1).val = (k 1).val; rw [i1, hk1]; omega
  | ⟨2, _⟩ => show win1_0.index t 2 * 1 + 1 * (x 2).val = (k 2).val; rw [i2, hk2]; omega

theorem lse_column (c : Dev nD) (t : Fin cfg1.N) (x : S1024x1.Idx) (k : S8192x1.Idx)
    (hk0 : (k 0).val = 1024 * (t.val / 16) + (x 0).val) (hk1 : (k 1).val = (x 1).val) :
    (Rescale.blk V c 1 t : Vec F S1024x1 .f32) x = (V c main_v9_2 : S8192x1.Idx → Elt F .f32) k := by
  obtain ⟨i0, i1⟩ := idxB1 t
  unfold Rescale.blk
  rw [View.read_apply]
  show V c main_v9_2 _ = V c main_v9_2 _
  refine congrArg (V c main_v9_2) ?_
  funext a
  apply Fin.ext
  match a with
  | ⟨0, _⟩ => show win1_1.index t 0 * 1024 + 1 * (x 0).val = (k 0).val; rw [i0, hk0]; omega
  | ⟨1, _⟩ => show win1_1.index t 1 * 1 + 1 * (x 1).val = (k 1).val; rw [i1, hk1]; omega

theorem dense_tile (c : Dev nD) (t : Fin cfg1.N) (x : S1024x512.Idx) (k : S8192x8192.Idx)
    (hk0 : (k 0).val = 1024 * (t.val / 16) + (x 0).val) (hk1 : (k 1).val = 512 * (t.val % 16) + (x 1).val) :
    (Rescale.blk V c 2 t : Vec F S1024x512 .f32) x = (V c main_v9_0 : S8192x8192.Idx → Elt F .f32) k := by
  obtain ⟨i0, i1⟩ := idxB2 t
  unfold Rescale.blk
  rw [View.read_apply]
  show V c main_v9_0 _ = V c main_v9_0 _
  refine congrArg (V c main_v9_0) ?_
  funext a
  apply Fin.ext
  match a with
  | ⟨0, _⟩ => show win1_2.index t 0 * 1024 + 1 * (x 0).val = (k 0).val; rw [i0, hk0]; omega
  | ⟨1, _⟩ => show win1_2.index t 1 * 512 + 1 * (x 1).val = (k 1).val; rw [i1, hk1]; omega

end Cert.KernelIdeal.Blocks

end
-- ==== Proof.RowState.lean ====
/-
  The first region's carried pair in closed form. Fix the four arrays the region stages (the query and key points, the
  query norms' column, the key norms' row) and write sc r s for the score of query row r against key s computed from
  them. At grid point t = 16·i + j, row p of the tile is query row 1024·i + p and column b is key 512·j + b, so the
  tile's scores are sc (1024·i + p) (512·j + b). By induction on the point: after point t the running-maximum column
  holds, at row p, the running maximum of row 1024·i + p over key blocks 0 … j, and the running-sum column the running
  weight sum — the recurrences of the block-by-block softmax, restarted from (−∞, 0) whenever j = 0.
-/
import proofs.«137461_j77884936945679_2_alg».proof.Proof.TileEntry
import proofs.«137461_j77884936945679_2_alg».proof.Proof.BlockReads
import proofs.«137461_j77884936945679_2_alg».proof.Proof.DistanceSpec
set_option maxRecDepth 16384

noncomputable section

namespace Cert.KernelIdeal.Rows

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Compute Cert.KernelIdeal.Blocks Cert.KernelIdeal.Entry
open Cert.Proof.Softmax

variable (V : (c : Dev nD) → (b : Ref sig .tc) → Buf (Elt Ideal) ((c : Thread nD τ).loc b))

/-! ## Rows, keys and scores from the staged arrays -/

/-- Query row p of the tile at point t: row 1024·(t div 16) + p. -/
def rowOf (t : ℕ) (p : Fin 1024) : Fin 8192 := ⟨(1024 * (t / 16) + p.val) % 8192, Nat.mod_lt _ (by decide)⟩

theorem rowOf_val (t : ℕ) (ht : t < 128) (p : Fin 1024) : (rowOf t p).val = 1024 * (t / 16) + p.val := by
  have := p.isLt
  exact Nat.mod_eq_of_lt (by omega)

theorem rowOf_pred (t : ℕ) (h : ¬ t % 16 = 0) (p : Fin 1024) : rowOf (t - 1) p = rowOf t p := by
  have e : (t - 1) / 16 = t / 16 := by omega
  refine Fin.ext ?_
  show (1024 * ((t - 1) / 16) + p.val) % 8192 = (1024 * (t / 16) + p.val) % 8192
  rw [e]

/-- Entries of the four staged arrays, as extended reals. -/
def qAt (c : Dev nD) (r : Fin 8192) (d : Fin 512) : EReal := (V c main_v7 : S8192x512.Idx → Elt Ideal .bf16) (ix2 r d)
def kAt (c : Dev nD) (s : Fin 8192) (d : Fin 512) : EReal := (V c main_v8 : S8192x512.Idx → Elt Ideal .bf16) (ix2 s d)
def nqAt (c : Dev nD) (r : Fin 8192) : EReal := (V c main_v2 : S8192x1.Idx → Elt Ideal .f32) (ix2 r 0)
def nkAt (c : Dev nD) (s : Fin 8192) : EReal := (V c main_v6 : S1x8192.Idx → Elt Ideal .f32) (ix2 0 s)

/-- The inner product of query point r and key point s, from the staged copies. -/
def dotArr (c : Dev nD) (r s : Fin 8192) : EReal := ∑ d : Fin 512, qAt V c r d * kAt V c s d

/-- The score of query row r against key s, from the staged arrays. -/
def scArr (c : Dev nD) (r : Fin 8192) : Fin 8192 → EReal := fun s =>
  scoreOf (max ((nqAt V c r - dotArr V c r s) - (dotArr V c r s - nkAt V c s)) (Ideal.ofBits .f32 0x00000000#32))
    (nqAt V c r - dotArr V c r s) (dotArr V c r s - nkAt V c s)

/-- The tile's score at (p, b) is the score of its query row against its key. -/
theorem score_at (c : Dev nD) (t : Fin cfg0.N) (p : Fin 1024) (b : Fin 512) :
    k0_pay8 (F := Ideal) (blk V c 0 t) (blk V c 1 t) (blk V c 2 t) (blk V c 3 t) (ix2 p b) = scArr V c (rowOf t.val p) (keyAt (t.val % 16) b) := by
  have hN : t.val < 128 := lt_of_lt_of_eq t.isLt (show cfg0.N = 128 from N_0)
  have hj : t.val % 16 < 16 := Nat.mod_lt _ (by decide)
  have hr : (rowOf t.val p).val = 1024 * (t.val / 16) + p.val := rowOf_val t.val hN p
  have hk : (keyAt (t.val % 16) b).val = 512 * (t.val % 16) + b.val := by rw [keyAt_val _ hj b]; omega
  refine (pay8_apply (blk V c 0 t) (blk V c 1 t) (blk V c 2 t) (blk V c 3 t) p b).trans ?_
  have hd : tileDot (blk V c 0 t) (blk V c 1 t) p b = dotArr V c (rowOf t.val p) (keyAt (t.val % 16) b) := by
    unfold tileDot dotArr qAt kAt
    refine Finset.sum_congr rfl fun d _ => ?_
    rw [query_tile V c t (ix2 p d) (ix2 (rowOf t.val p) d) hr rfl, key_tile V c t (ix2 b d) (ix2 (keyAt (t.val % 16) b) d) hk rfl]
  have h2 : (blk V c 2 t : Vec Ideal S1024x1 .f32) (ix2 p 0) = nqAt V c (rowOf t.val p) :=
    query_norms V c t (ix2 p 0) (ix2 (rowOf t.val p) 0) hr rfl
  have h3 : (blk V c 3 t : Vec Ideal S1x512 .f32) (ix2 0 b) = nkAt V c (keyAt (t.val % 16) b) :=
    key_norms V c t (ix2 0 b) (ix2 0 (keyAt (t.val % 16) b)) rfl hk
  unfold scArr
  rw [hd, h2, h3]

/-! ## One step of the pair, at a row -/

/-- The new running maximum at row p: the old one against the block's maximum. -/
theorem newMax_at (c : Dev nD) (t : Fin cfg0.N) (xm : Vec Ideal S1024x1 .f32) (p : Fin 1024) :
    k0_pay9 (F := Ideal) (blk V c 0 t) (blk V c 1 t) (blk V c 2 t) (blk V c 3 t) xm (ix2 p 0)
      = max (xm (ix2 p 0)) (blockMax (scArr V c (rowOf t.val p)) (t.val % 16)) := by
  refine (pay9_apply (blk V c 0 t) (blk V c 1 t) (blk V c 2 t) (blk V c 3 t) xm p).trans ?_
  unfold blockMax
  refine congrArg (max (xm (ix2 p 0))) ?_
  refine Finset.fold_congr fun b _ => ?_
  exact score_at V c t p b

/-- The new running sum at row p, given the new running maximum there. -/
theorem newSum_at (c : Dev nD) (t : Fin cfg0.N) (xm xl : Vec Ideal S1024x1 .f32) (p : Fin 1024) (μ : EReal)
    (hμ : k0_pay9 (F := Ideal) (blk V c 0 t) (blk V c 1 t) (blk V c 2 t) (blk V c 3 t) xm (ix2 p 0) = μ) :
    k0_pay2 (F := Ideal) xm (k0_pay9 (F := Ideal) (blk V c 0 t) (blk V c 1 t) (blk V c 2 t) (blk V c 3 t) xm) (k0_pay10 (F := Ideal) (blk V c 0 t) (blk V c 1 t) (blk V c 2 t) (blk V c 3 t) xm) xl (ix2 p 0)
      = xl (ix2 p 0) * Ideal.exp (xm (ix2 p 0) - μ)
        + ∑ b : Fin 512, Ideal.exp (scArr V c (rowOf t.val p) (keyAt (t.val % 16) b) - μ) := by
  refine (pay2_apply xm (k0_pay9 (F := Ideal) (blk V c 0 t) (blk V c 1 t) (blk V c 2 t) (blk V c 3 t) xm) (k0_pay10 (F := Ideal) (blk V c 0 t) (blk V c 1 t) (blk V c 2 t) (blk V c 3 t) xm) xl p).trans ?_
  rw [hμ]
  refine congrArg (fun z => xl (ix2 p 0) * Ideal.exp (xm (ix2 p 0) - μ) + z) ?_
  refine Finset.sum_congr rfl fun b _ => ?_
  rw [pay10_apply (blk V c 0 t) (blk V c 1 t) (blk V c 2 t) (blk V c 3 t) xm p b, hμ, score_at V c t p b]

/-! ## The pair after every point -/

theorem pair_closed (c : Dev nD) : ∀ (n : ℕ) (hn : n < cfg0.N) (p : Fin 1024),
    (pairAt V c n hn).1 (ix2 p 0) = runMax (scArr V c (rowOf n p)) (n % 16)
    ∧ (pairAt V c n hn).2 (ix2 p 0) = runSum (scArr V c (rowOf n p)) (n % 16) := by
  intro n
  induction n with
  | zero =>
    intro hn p
    have e := pairAt_eq V c ⟨0, hn⟩
    have ein : pairIn V c ⟨0, hn⟩ = resetPair := pairIn_first V c ⟨0, hn⟩ rfl
    rw [ein] at e
    have hmax : k0_pay9 (F := Ideal) (blk V c 0 ⟨0, hn⟩) (blk V c 1 ⟨0, hn⟩) (blk V c 2 ⟨0, hn⟩) (blk V c 3 ⟨0, hn⟩) (resetPair (F := Ideal)).1 (ix2 p 0) = runMax (scArr V c (rowOf 0 p)) 0 := by
      refine (newMax_at V c ⟨0, hn⟩ _ p).trans ?_
      show max (k0_pay6 (F := Ideal) (ix2 p 0)) _ = _
      rw [pay6_apply]; rfl
    constructor
    · show (pairAt V c (⟨0, hn⟩ : Fin cfg0.N).val (⟨0, hn⟩ : Fin cfg0.N).isLt).1 (ix2 p 0) = _
      rw [e]; unfold stepPair; dsimp only
      rw [pay3_eq]; exact hmax
    · show (pairAt V c (⟨0, hn⟩ : Fin cfg0.N).val (⟨0, hn⟩ : Fin cfg0.N).isLt).2 (ix2 p 0) = _
      rw [e]; unfold stepPair; dsimp only
      refine (newSum_at V c ⟨0, hn⟩ _ _ p _ hmax).trans ?_
      show k0_pay7 (F := Ideal) (ix2 p 0) * Ideal.exp (k0_pay6 (F := Ideal) (ix2 p 0) - _) + _ = _
      rw [pay6_apply, pay7_apply]; rfl
  | succ n ih =>
    intro hn p
    have hn' : n < cfg0.N := Nat.lt_of_succ_lt hn
    have e := pairAt_eq V c ⟨n + 1, hn⟩
    by_cases h0 : (n + 1) % 16 = 0
    · have ein : pairIn V c ⟨n + 1, hn⟩ = resetPair := pairIn_first V c ⟨n + 1, hn⟩ h0
      rw [ein] at e
      have hmax : k0_pay9 (F := Ideal) (blk V c 0 ⟨n + 1, hn⟩) (blk V c 1 ⟨n + 1, hn⟩) (blk V c 2 ⟨n + 1, hn⟩) (blk V c 3 ⟨n + 1, hn⟩) (resetPair (F := Ideal)).1 (ix2 p 0) = runMax (scArr V c (rowOf (n + 1) p)) ((n + 1) % 16) := by
        refine (newMax_at V c ⟨n + 1, hn⟩ _ p).trans ?_
        show max (k0_pay6 (F := Ideal) (ix2 p 0)) (blockMax _ ((n + 1) % 16)) = _
        rw [pay6_apply, h0]; rfl
      constructor
      · show (pairAt V c (⟨n + 1, hn⟩ : Fin cfg0.N).val (⟨n + 1, hn⟩ : Fin cfg0.N).isLt).1 (ix2 p 0) = _
        rw [e]; unfold stepPair; dsimp only
        rw [pay3_eq]; exact hmax
      · show (pairAt V c (⟨n + 1, hn⟩ : Fin cfg0.N).val (⟨n + 1, hn⟩ : Fin cfg0.N).isLt).2 (ix2 p 0) = _
        rw [e]; unfold stepPair; dsimp only
        refine (newSum_at V c ⟨n + 1, hn⟩ _ _ p _ hmax).trans ?_
        show k0_pay7 (F := Ideal) (ix2 p 0) * Ideal.exp (k0_pay6 (F := Ideal) (ix2 p 0) - _) + (∑ b : Fin 512, Ideal.exp (scArr V c (rowOf (n + 1) p) (keyAt ((n + 1) % 16) b) - _)) = _
        rw [pay6_apply, pay7_apply, h0]; rfl
    · have ein : pairIn V c ⟨n + 1, hn⟩ = pairAt V c n hn' := pairIn_later V c ⟨n + 1, hn⟩ h0
      rw [ein] at e
      obtain ⟨ihm, ihs⟩ := ih hn' p
      have hrow : rowOf n p = rowOf (n + 1) p := rowOf_pred (n + 1) h0 p
      have hj : (n + 1) % 16 = n % 16 + 1 := by omega
      rw [hrow] at ihm ihs
      have hmax : k0_pay9 (F := Ideal) (blk V c 0 ⟨n + 1, hn⟩) (blk V c 1 ⟨n + 1, hn⟩) (blk V c 2 ⟨n + 1, hn⟩) (blk V c 3 ⟨n + 1, hn⟩) (pairAt V c n hn').1 (ix2 p 0) = runMax (scArr V c (rowOf (n + 1) p)) ((n + 1) % 16) := by
        refine (newMax_at V c ⟨n + 1, hn⟩ _ p).trans ?_
        show max ((pairAt V c n hn').1 (ix2 p 0)) (blockMax _ ((n + 1) % 16)) = _
        rw [ihm, hj]; rfl
      constructor
      · show (pairAt V c (⟨n + 1, hn⟩ : Fin cfg0.N).val (⟨n + 1, hn⟩ : Fin cfg0.N).isLt).1 (ix2 p 0) = _
        rw [e]; unfold stepPair; dsimp only
        rw [pay3_eq]; exact hmax
      · show (pairAt V c (⟨n + 1, hn⟩ : Fin cfg0.N).val (⟨n + 1, hn⟩ : Fin cfg0.N).isLt).2 (ix2 p 0) = _
        rw [e]; unfold stepPair; dsimp only
        refine (newSum_at V c ⟨n + 1, hn⟩ _ _ p _ hmax).trans ?_
        show (pairAt V c n hn').2 (ix2 p 0) * Ideal.exp ((pairAt V c n hn').1 (ix2 p 0) - _) + (∑ b : Fin 512, Ideal.exp (scArr V c (rowOf (n + 1) p) (keyAt ((n + 1) % 16) b) - _)) = _
        rw [ihm, ihs, hj]; rfl

end Cert.KernelIdeal.Rows

end
-- ==== Proof.Covers.lean ====
/-
  Every entry of each output array is written back by some grid point: entry (r, s) of a dense [8192, 8192] array by
  point (r div 1024, s div 512), entry (j, r, 0) of the history [16, 8192, 1] by point (r div 1024, j), entry (r, 0) of
  the log-sum-exp column by the last key block's point (r div 1024, 15) — the only points that write that column back.
-/
import proofs.«137461_j77884936945679_2_alg».proof.Proof.BlockReads
set_option maxRecDepth 16384

noncomputable section

namespace Cert.KernelIdeal.Covers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Blocks

theorem dense_covered (i : S8192x8192.Idx) : ∃ t : Fin cfg0.N, (cfg0.win 4).flush t = true ∧ i ∈ ((cfg0.win 4).blk t).view.set := by
  have h0 : (i 0).val < 8192 := (i 0).isLt
  have h1 : (i 1).val < 8192 := (i 1).isLt
  have hN : cfg0.N = 128 := N_0
  have ht : 16 * ((i 0).val / 1024) + (i 1).val / 512 < cfg0.N := by rw [hN]; omega
  refine ⟨⟨16 * ((i 0).val / 1024) + (i 1).val / 512, ht⟩, flush0_4 _, ?_⟩
  obtain ⟨e0, e1⟩ := idxA4 ⟨16 * ((i 0).val / 1024) + (i 1).val / 512, ht⟩
  show i ∈ ((View.whole main_v9_0).slice (win0_4.rect ⟨16 * ((i 0).val / 1024) + (i 1).val / 512, ht⟩)).set
  rw [View.set_slice_whole, Rect.mem_set_unit]
  intro a
  match a with
  | ⟨0, _⟩ =>
    show win0_4.index ⟨16 * ((i 0).val / 1024) + (i 1).val / 512, ht⟩ 0 * 1024 ≤ (i 0 : Nat) ∧ (i 0 : Nat) < win0_4.index ⟨16 * ((i 0).val / 1024) + (i 1).val / 512, ht⟩ 0 * 1024 + 1024
    rw [e0]; dsimp only; omega
  | ⟨1, _⟩ =>
    show win0_4.index ⟨16 * ((i 0).val / 1024) + (i 1).val / 512, ht⟩ 1 * 512 ≤ (i 1 : Nat) ∧ (i 1 : Nat) < win0_4.index ⟨16 * ((i 0).val / 1024) + (i 1).val / 512, ht⟩ 1 * 512 + 512
    rw [e1]; dsimp only; omega

theorem history_covered (i : S16x8192x1.Idx) : ∃ t : Fin cfg0.N, (cfg0.win 5).flush t = true ∧ i ∈ ((cfg0.win 5).blk t).view.set := by
  have h0 : (i 0).val < 16 := (i 0).isLt
  have h1 : (i 1).val < 8192 := (i 1).isLt
  have h2 : (i 2).val < 1 := (i 2).isLt
  have hN : cfg0.N = 128 := N_0
  have ht : 16 * ((i 1).val / 1024) + (i 0).val < cfg0.N := by rw [hN]; omega
  refine ⟨⟨16 * ((i 1).val / 1024) + (i 0).val, ht⟩, flush0_5 _, ?_⟩
  obtain ⟨e0, e1, e2⟩ := idxA5 ⟨16 * ((i 1).val / 1024) + (i 0).val, ht⟩
  show i ∈ ((View.whole main_v9_1).slice (win0_5.rect ⟨16 * ((i 1).val / 1024) + (i 0).val, ht⟩)).set
  rw [View.set_slice_whole, Rect.mem_set_unit]
  intro a
  match a with
  | ⟨0, _⟩ =>
    show win0_5.index ⟨16 * ((i 1).val / 1024) + (i 0).val, ht⟩ 0 * 1 ≤ (i 0 : Nat) ∧ (i 0 : Nat) < win0_5.index ⟨16 * ((i 1).val / 1024) + (i 0).val, ht⟩ 0 * 1 + 1
    rw [e0]; dsimp only; omega
  | ⟨1, _⟩ =>
    show win0_5.index ⟨16 * ((i 1).val / 1024) + (i 0).val, ht⟩ 1 * 1024 ≤ (i 1 : Nat) ∧ (i 1 : Nat) < win0_5.index ⟨16 * ((i 1).val / 1024) + (i 0).val, ht⟩ 1 * 1024 + 1024
    rw [e1]; dsimp only; omega
  | ⟨2, _⟩ =>
    show win0_5.index ⟨16 * ((i 1).val / 1024) + (i 0).val, ht⟩ 2 * 1 ≤ (i 2 : Nat) ∧ (i 2 : Nat) < win0_5.index ⟨16 * ((i 1).val / 1024) + (i 0).val, ht⟩ 2 * 1 + 1
    rw [e2]; dsimp only; omega

theorem lse_covered (i : S8192x1.Idx) : ∃ t : Fin cfg0.N, (cfg0.win 6).flush t = true ∧ i ∈ ((cfg0.win 6).blk t).view.set := by
  have h0 : (i 0).val < 8192 := (i 0).isLt
  have h1 : (i 1).val < 1 := (i 1).isLt
  have hN : cfg0.N = 128 := N_0
  have ht : 16 * ((i 0).val / 1024) + 15 < cfg0.N := by rw [hN]; omega
  refine ⟨⟨16 * ((i 0).val / 1024) + 15, ht⟩, (flush0_6 _).mpr (by dsimp only; omega), ?_⟩
  obtain ⟨e0, e1⟩ := idxA6 ⟨16 * ((i 0).val / 1024) + 15, ht⟩
  show i ∈ ((View.whole main_v9_2).slice (win0_6.rect ⟨16 * ((i 0).val / 1024) + 15, ht⟩)).set
  rw [View.set_slice_whole, Rect.mem_set_unit]
  intro a
  match a with
  | ⟨0, _⟩ =>
    show win0_6.index ⟨16 * ((i 0).val / 1024) + 15, ht⟩ 0 * 1024 ≤ (i 0 : Nat) ∧ (i 0 : Nat) < win0_6.index ⟨16 * ((i 0).val / 1024) + 15, ht⟩ 0 * 1024 + 1024
    rw [e0]; dsimp only; omega
  | ⟨1, _⟩ =>
    show win0_6.index ⟨16 * ((i 0).val / 1024) + 15, ht⟩ 1 * 1 ≤ (i 1 : Nat) ∧ (i 1 : Nat) < win0_6.index ⟨16 * ((i 0).val / 1024) + 15, ht⟩ 1 * 1 + 1
    rw [e1]; dsimp only; omega

theorem result_covered (i : S8192x8192.Idx) : ∃ t : Fin cfg1.N, (cfg1.win 3).flush t = true ∧ i ∈ ((cfg1.win 3).blk t).view.set := by
  have h0 : (i 0).val < 8192 := (i 0).isLt
  have h1 : (i 1).val < 8192 := (i 1).isLt
  have hN : cfg1.N = 128 := N_1
  have ht : 16 * ((i 0).val / 1024) + (i 1).val / 512 < cfg1.N := by rw [hN]; omega
  refine ⟨⟨16 * ((i 0).val / 1024) + (i 1).val / 512, ht⟩, flush1_3 _, ?_⟩
  obtain ⟨e0, e1⟩ := idxB3 ⟨16 * ((i 0).val / 1024) + (i 1).val / 512, ht⟩
  show i ∈ ((View.whole main_v10).slice (win1_3.rect ⟨16 * ((i 0).val / 1024) + (i 1).val / 512, ht⟩)).set
  rw [View.set_slice_whole, Rect.mem_set_unit]
  intro a
  match a with
  | ⟨0, _⟩ =>
    show win1_3.index ⟨16 * ((i 0).val / 1024) + (i 1).val / 512, ht⟩ 0 * 1024 ≤ (i 0 : Nat) ∧ (i 0 : Nat) < win1_3.index ⟨16 * ((i 0).val / 1024) + (i 1).val / 512, ht⟩ 0 * 1024 + 1024
    rw [e0]; dsimp only; omega
  | ⟨1, _⟩ =>
    show win1_3.index ⟨16 * ((i 0).val / 1024) + (i 1).val / 512, ht⟩ 1 * 512 ≤ (i 1 : Nat) ∧ (i 1 : Nat) < win1_3.index ⟨16 * ((i 0).val / 1024) + (i 1).val / 512, ht⟩ 1 * 512 + 512
    rw [e1]; dsimp only; omega

end Cert.KernelIdeal.Covers

end
-- ==== Proof.RegionValues.lean ====
/-
  The arrays the two regions leave, as functions of the arrays the first region stages. With sc r the row of scores of
  query r: the dense array holds exp(sc r s − M_r(s div 512)), M_r(j) the running maximum of row r after key block j;
  the history array holds M_r(j) at (j, r, 0); the log-sum-exp column holds M_r(15) + log L_r(15) at (r, 0), L_r the
  running weight sum. The second region multiplies the dense entry (r, s) by exp(M_r(s div 512) − log-sum-exp of row r):
  the block-by-block softmax weight of key s for query r. Each array: every write-back writes a block of the one
  function, and the blocks cover the array.
-/
import proofs.«137461_j77884936945679_2_alg».proof.Proof.RowState
import proofs.«137461_j77884936945679_2_alg».proof.Proof.Covers
set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Compute Cert.KernelIdeal.Blocks Cert.KernelIdeal.Entry
open Cert.Proof.Softmax Cert.KernelIdeal.Rows Cert.KernelIdeal.Covers

variable (V : (c : Dev nD) → (b : Ref sig .tc) → Buf (Elt Ideal) ((c : Thread nD τ).loc b))

/-! ## The three arrays of the first region -/

def denseOf (c : Dev nD) : S8192x8192.Idx → EReal := fun i =>
  Ideal.exp (scArr V c (i 0) (i 1) - runMax (scArr V c (i 0)) ((i 1).val / 512))
def historyOf (c : Dev nD) : S16x8192x1.Idx → EReal := fun i => runMax (scArr V c (i 1)) (i 0).val
def lseOf (c : Dev nD) : S8192x1.Idx → EReal := fun i => lse (scArr V c (i 0))

theorem denseOf_at (c : Dev nD) (k : S8192x8192.Idx) (r s : Fin 8192) (h0 : (k 0).val = r.val) (h1 : (k 1).val = s.val) :
    denseOf V c k = Ideal.exp (scArr V c r s - runMax (scArr V c r) (s.val / 512)) := by
  have e0 : (k 0 : Fin 8192) = r := Fin.ext h0
  have e1 : (k 1 : Fin 8192) = s := Fin.ext h1
  unfold denseOf
  rw [e0, e1]
theorem historyOf_at (c : Dev nD) (k : S16x8192x1.Idx) (j : ℕ) (r : Fin 8192) (h0 : (k 0).val = j) (h1 : (k 1).val = r.val) :
    historyOf V c k = runMax (scArr V c r) j := by
  have e1 : (k 1 : Fin 8192) = r := Fin.ext h1
  unfold historyOf
  rw [e1, h0]
theorem lseOf_at (c : Dev nD) (k : S8192x1.Idx) (r : Fin 8192) (h0 : (k 0).val = r.val) :
    lseOf V c k = lse (scArr V c r) := by
  have e0 : (k 0 : Fin 8192) = r := Fin.ext h0
  unfold lseOf
  rw [e0]

/-- The running maximum the body computes at point t, row p, is the row's running maximum after key block t mod 16. -/
theorem newMax_closed (c : Dev nD) (t : Fin cfg0.N) (p : Fin 1024) :
    k0_pay9 (F := Ideal) (blk V c 0 t) (blk V c 1 t) (blk V c 2 t) (blk V c 3 t) (pairIn V c t).1 (ix2 p 0) = runMax (scArr V c (rowOf t.val p)) (t.val % 16) := by
  have h := (pair_closed V c t.val t.isLt p).1
  rw [pairAt_eq V c t] at h
  unfold stepPair at h
  dsimp only at h
  rw [pay3_eq] at h
  exact h

theorem dense_flushed (c : Dev nD) (t : Fin cfg0.N) :
    (dat0 V c).flushed 4 t = ((cfg0.win 4).blk t).view.read (Elt Ideal) (denseOf V c) := by
  have hN : t.val < 128 := lt_of_lt_of_eq t.isLt (show cfg0.N = 128 from N_0)
  have hj : t.val % 16 < 16 := Nat.mod_lt _ (by decide)
  obtain ⟨i0, i1⟩ := idxA4 t
  show (cfg0.win 4).cut (grid0.coords t) ((dat0 V c).after 4 t) = _
  rw [after_4]
  funext y
  obtain ⟨p, b, rfl⟩ : ∃ (p : Fin 1024) (b : Fin 512), y = ix2 p b := ⟨y 0, y 1, eq_ix2 y⟩
  show k0_pay1 (F := Ideal) (k0_pay10 (F := Ideal) (blk V c 0 t) (blk V c 1 t) (blk V c 2 t) (blk V c 3 t) (pairIn V c t).1) (ix2 p b) = denseOf V c (((cfg0.win 4).blk t).view.emb (ix2 p b))
  rw [denseOf_at V c _ (rowOf t.val p) (keyAt (t.val % 16) b)
    (by show win0_4.index t 0 * 1024 + 1 * p.val = _; rw [i0, rowOf_val t.val hN p]; omega)
    (by show win0_4.index t 1 * 512 + 1 * b.val = _; rw [i1, keyAt_val _ hj b]; omega),
    keyAt_div _ hj b]
  refine (pay1_apply _ (ix2 p b)).trans ?_
  rw [pay10_apply (blk V c 0 t) (blk V c 1 t) (blk V c 2 t) (blk V c 3 t) (pairIn V c t).1 p b, score_at V c t p b, newMax_closed V c t p]

theorem history_flushed (c : Dev nD) (t : Fin cfg0.N) :
    (dat0 V c).flushed 5 t = ((cfg0.win 5).blk t).view.read (Elt Ideal) (historyOf V c) := by
  have hN : t.val < 128 := lt_of_lt_of_eq t.isLt (show cfg0.N = 128 from N_0)
  obtain ⟨i0, i1, i2⟩ := idxA5 t
  show (cfg0.win 5).cut (grid0.coords t) ((dat0 V c).after 5 t) = _
  rw [after_5]
  funext y
  obtain ⟨a, p, z, rfl⟩ : ∃ (a : Fin 1) (p : Fin 1024) (z : Fin 1), y = ix3 a p z := ⟨y 0, y 1, y 2, eq_ix3 y⟩
  obtain rfl : a = 0 := Subsingleton.elim _ _
  obtain rfl : z = 0 := Subsingleton.elim _ _
  show k0_pay4 (F := Ideal) (k0_pay9 (F := Ideal) (blk V c 0 t) (blk V c 1 t) (blk V c 2 t) (blk V c 3 t) (pairIn V c t).1) (ix3 0 p 0) = historyOf V c (((cfg0.win 5).blk t).view.emb (ix3 0 p 0))
  rw [historyOf_at V c _ (t.val % 16) (rowOf t.val p)
    (by show win0_5.index t 0 * 1 + 1 * 0 = _; rw [i0]; omega)
    (by show win0_5.index t 1 * 1024 + 1 * p.val = _; rw [i1, rowOf_val t.val hN p]; omega)]
  refine (pay4_apply _ p).trans ?_
  exact newMax_closed V c t p

theorem lse_flushed (c : Dev nD) (t : Fin cfg0.N) (hf : (cfg0.win 6).flush t = true) :
    (dat0 V c).flushed 6 t = ((cfg0.win 6).blk t).view.read (Elt Ideal) (lseOf V c) := by
  have hN : t.val < 128 := lt_of_lt_of_eq t.isLt (show cfg0.N = 128 from N_0)
  have h15 : t.val % 16 = 15 := (flush0_6 t).mp hf
  obtain ⟨i0, i1⟩ := idxA6 t
  show (cfg0.win 6).cut (grid0.coords t) ((dat0 V c).after 6 t) = _
  rw [after_6]
  funext y
  obtain ⟨p, z, rfl⟩ : ∃ (p : Fin 1024) (z : Fin 1), y = ix2 p z := ⟨y 0, y 1, eq_ix2 y⟩
  obtain rfl : z = 0 := Subsingleton.elim _ _
  show k0_pay5 (F := Ideal) (pairAt V c t.val t.isLt).1 (pairAt V c t.val t.isLt).2 (ix2 p 0) = lseOf V c (((cfg0.win 6).blk t).view.emb (ix2 p 0))
  rw [lseOf_at V c _ (rowOf t.val p) (by show win0_6.index t 0 * 1024 + 1 * p.val = _; rw [i0, rowOf_val t.val hN p]; omega)]
  refine (pay5_apply _ _ p).trans ?_
  obtain ⟨hm, hs⟩ := pair_closed V c t.val t.isLt p
  rw [hm, hs, h15]
  rfl

theorem dense_final (c : Dev nD) : (dat0 V c).arrAt 4 cfg0.N = denseOf V c :=
  (dat0 V c).arrAt_eq_of_cover 4 (denseOf V c) (fun t _ => dense_flushed V c t) dense_covered
theorem history_final (c : Dev nD) : (dat0 V c).arrAt 5 cfg0.N = historyOf V c :=
  (dat0 V c).arrAt_eq_of_cover 5 (historyOf V c) (fun t _ => history_flushed V c t) history_covered
theorem lse_final (c : Dev nD) : (dat0 V c).arrAt 6 cfg0.N = lseOf V c :=
  (dat0 V c).arrAt_eq_of_cover 6 (lseOf V c) (fun t hf => lse_flushed V c t hf) lse_covered

/-! ## The second region's array -/

/-- The block-by-block softmax weights, from the staged arrays. -/
def weightsOf (c : Dev nD) : S8192x8192.Idx → EReal := fun i => kernelFormOf (scArr V c (i 0)) (i 1)

theorem weightsOf_at (c : Dev nD) (k : S8192x8192.Idx) (r s : Fin 8192) (h0 : (k 0).val = r.val) (h1 : (k 1).val = s.val) :
    weightsOf V c k = kernelFormOf (scArr V c r) s := by
  have e0 : (k 0 : Fin 8192) = r := Fin.ext h0
  have e1 : (k 1 : Fin 8192) = s := Fin.ext h1
  unfold weightsOf
  rw [e0, e1]

variable (V' : (c : Dev nD) → (b : Ref sig .tc) → Buf (Elt Ideal) ((c : Thread nD τ).loc b))

theorem result_flushed (c : Dev nD)
    (hD : (V' c main_v9_0 : S8192x8192.Idx → Elt Ideal .f32) = denseOf V c)
    (hH : (V' c main_v9_1 : S16x8192x1.Idx → Elt Ideal .f32) = historyOf V c)
    (hL : (V' c main_v9_2 : S8192x1.Idx → Elt Ideal .f32) = lseOf V c) (t : Fin cfg1.N) :
    (Rescale.dat1 V' c).flushed 3 t = ((cfg1.win 3).blk t).view.read (Elt Ideal) (weightsOf V c) := by
  have hN : t.val < 128 := lt_of_lt_of_eq t.isLt (show cfg1.N = 128 from N_1)
  have hj : t.val % 16 < 16 := Nat.mod_lt _ (by decide)
  have hr : ∀ p : Fin 1024, (rowOf t.val p).val = 1024 * (t.val / 16) + p.val := fun p => rowOf_val t.val hN p
  have hk : ∀ b : Fin 512, (keyAt (t.val % 16) b).val = 512 * (t.val % 16) + b.val := fun b => by rw [keyAt_val _ hj b]; omega
  obtain ⟨i0, i1⟩ := idxB3 t
  show (cfg1.win 3).cut (grid1.coords t) ((Rescale.dat1 V' c).after 3 t) = _
  rw [Rescale.after_3]
  funext y
  obtain ⟨p, b, rfl⟩ : ∃ (p : Fin 1024) (b : Fin 512), y = ix2 p b := ⟨y 0, y 1, eq_ix2 y⟩
  show k1_pay1 (F := Ideal) (Rescale.blk V' c 0 t) (Rescale.blk V' c 1 t) (Rescale.blk V' c 2 t) (ix2 p b) = weightsOf V c (((cfg1.win 3).blk t).view.emb (ix2 p b))
  rw [weightsOf_at V c _ (rowOf t.val p) (keyAt (t.val % 16) b)
    (by show win1_3.index t 0 * 1024 + 1 * p.val = _; rw [i0, hr p]; omega)
    (by show win1_3.index t 1 * 512 + 1 * b.val = _; rw [i1, hk b]; omega),
    kernelFormOf_keyAt _ _ hj b]
  refine (rescale_apply _ _ _ p b).trans ?_
  rw [dense_tile V' c t (ix2 p b) (ix2 (rowOf t.val p) (keyAt (t.val % 16) b)) (hr p) (hk b),
    history_slab V' c t (ix3 0 p 0) (ix3 ⟨t.val % 16, hj⟩ (rowOf t.val p) 0) (by show t.val % 16 = t.val % 16 + 0; omega) (hr p) rfl,
    lse_column V' c t (ix2 p 0) (ix2 (rowOf t.val p) 0) (hr p) rfl,
    hD, hH, hL,
    denseOf_at V c _ (rowOf t.val p) (keyAt (t.val % 16) b) rfl rfl, keyAt_div _ hj b,
    historyOf_at V c _ (t.val % 16) (rowOf t.val p) rfl rfl,
    lseOf_at V c _ (rowOf t.val p) rfl]

theorem result_final (c : Dev nD)
    (hD : (V' c main_v9_0 : S8192x8192.Idx → Elt Ideal .f32) = denseOf V c)
    (hH : (V' c main_v9_1 : S16x8192x1.Idx → Elt Ideal .f32) = historyOf V c)
    (hL : (V' c main_v9_2 : S8192x1.Idx → Elt Ideal .f32) = lseOf V c) :
    (Rescale.dat1 V' c).arrAt 3 cfg1.N = weightsOf V c :=
  (Rescale.dat1 V' c).arrAt_eq_of_cover 3 (weightsOf V c) (fun t _ => result_flushed V V' c hD hH hL t) result_covered

end Cert.KernelIdeal.Arrays

end
-- ==== Proof.ComputeBody.lean ====
/-
  The first region's body obligation: at every grid point the body, handed the invariant and each window's current
  staging buffer, runs to the invariant at the next point with each buffer at what the proof data says. Three cases by
  the key-block coordinate j = t mod 16: the first key block (the pair is reset; the scratch columns may hold anything —
  at the region's very first point they do), the last (the log-sum-exp column is stored), and the fourteen between. The
  log-sum-exp window is handed back untouched wherever it is not stored.
-/
import proofs.«137461_j77884936945679_2_alg».proof.Proof.ComputeData
set_option maxRecDepth 16384

noncomputable section

namespace Cert.KernelIdeal.Compute

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0 t) fullShare ((dat0 V c).after 0 t) from by
    unfold Dat.leavesExact; rw [live0 t]]
  rw [show (dat0 V c).leavesExact 1 t = owns (c : Thread nD τ) (ms1 t) fullShare ((dat0 V c).after 1 t) from by
    unfold Dat.leavesExact; rw [live1 t]]
  rw [show (dat0 V c).leavesExact 2 t = owns (c : Thread nD τ) (ms2 t) fullShare ((dat0 V c).after 2 t) from by
    unfold Dat.leavesExact; rw [live2 t]]
  rw [show (dat0 V c).leavesExact 3 t = owns (c : Thread nD τ) (ms3 t) fullShare ((dat0 V c).after 3 t) from by
    unfold Dat.leavesExact; rw [live3 t]]
  rw [show (dat0 V c).leavesExact 4 t = owns (c : Thread nD τ) (ms4 t) fullShare ((dat0 V c).after 4 t) from by
    unfold Dat.leavesExact; rw [live4 t]]
  rw [show (dat0 V c).leavesExact 5 t = owns (c : Thread nD τ) (ms5 t) fullShare ((dat0 V c).after 5 t) from by
    unfold Dat.leavesExact; rw [live5 t]]
  rw [after_0, after_1, after_2, after_3, after_4, after_5]
  have hN : t.val < 128 := lt_of_lt_of_eq t.isLt (show cfg0.N = 128 from N_0)
  by_cases h0 : t.val % 16 = 0
  · have hF : atFirst (grid0.coords t) := (atFirst_iff t).mpr h0
    have hL : ¬ atLast (grid0.coords t) := fun h => by have := (atLast_iff t).mp h; omega
    rw [Dat.leavesExact_idle (dat0 V c) 6 t (idle6 t hL) (noFlush6 t hL)]
    rw [pairAt_eq V c t, pairIn_first V c t h0]
    unfold stepPair resetPair; dsimp only
    by_cases hz : t.val = 0
    ·
        rw [Phi_castSucc V c t, PhiS_zero V c _ _ hz, PhiA_eq]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexact HM
        isplitl [HL]; · iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact first_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            isplitl [HL]
            · unfold owns; iexists _; isplitr
              swap; · iexact HL
              ipureintro; exact first_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact first_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        isplitl [H5]
        · unfold owns; iexists _; isplitr
          swap; · iexact H5
          ipureintro; exact first_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        iexists _; iexact H6
    ·
        rw [Phi_castSucc V c t, PhiS_pos V c _ _ hz]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runFirst c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t)).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexists _; iexact HM
        isplitl [HL]; · iexists _; iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact first_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            isplitl [HL]
            · unfold owns; iexists _; isplitr
              swap; · iexact HL
              ipureintro; exact first_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact first_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        isplitl [H5]
        · unfold owns; iexists _; isplitr
          swap; · iexact H5
          ipureintro; exact first_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) _
        iexists _; iexact H6
  · have hF : ¬ atFirst (grid0.coords t) := fun h => h0 ((atFirst_iff t).mp h)
    have hz : t.val ≠ 0 := fun h => h0 (by rw [h])
    by_cases h15 : t.val % 16 = 15
    · have hL : atLast (grid0.coords t) := (atLast_iff t).mpr h15
      rw [show (dat0 V c).leavesExact 6 t = owns (c : Thread nD τ) (ms6 t) fullShare ((dat0 V c).after 6 t) from by
        unfold Dat.leavesExact; rw [live6 t hL], after_6]
      rw [pairAt_eq V c t]
      unfold stepPair; dsimp only
      ·
        rw [Phi_castSucc V c t, PhiS_pos V c _ _ hz, ← pairIn_later V c t h0]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [HM]; · iexact HM
        isplitl [HL]; · iexact HL
        iintro ⟨H0, H1, H2, H3, ⟨%e4, H4⟩, ⟨%e5, H5⟩, ⟨%e6, H6⟩, ⟨%em, HM⟩, ⟨%el, HL⟩⟩
        isplitl [HM HL HR Hg]
        · isplitl [HM HL HR]
          · isplitl [HM]
            · unfold owns; iexists _; isplitr
              swap; · iexact HM
              ipureintro; exact last_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            isplitl [HL]
            · unfold owns; iexists _; isplitr
              swap; · iexact HL
              ipureintro; exact last_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact last_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        isplitl [H5]
        · unfold owns; iexists _; isplitr
          swap; · iexact H5
          ipureintro; exact last_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        unfold owns; iexists _; isplitr
        swap; · iexact H6
        ipureintro; exact last_lse c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
    · have hL : ¬ atLast (grid0.coords t) := fun h => h15 ((atLast_iff t).mp h)
      rw [Dat.leavesExact_idle (dat0 V c) 6 t (idle6 t hL) (noFlush6 t hL)]
      rw [pairAt_eq V c t]
      unfold stepPair; dsimp only
      ·
        rw [Phi_castSucc V c t, PhiS_pos V c _ _ hz, ← pairIn_later V c t h0]
        iintro ⟨⟨⟨HM, HL, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2).2.2.2.2 _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [HM]; · iexact HM
        isplitl [HL]; · iexact HL
        iintro ⟨H0, H1, H2, H3, ⟨%e4, H4⟩, ⟨%e5, H5⟩, H6, ⟨%em, HM⟩, ⟨%el, HL⟩⟩
        isplitl [HM HL HR Hg]
        · isplitl [HM HL HR]
          · isplitl [HM]
            · unfold owns; iexists _; isplitr
              swap; · iexact HM
              ipureintro; exact mid_max c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            isplitl [HL]
            · unfold owns; iexists _; isplitr
              swap; · iexact HL
              ipureintro; exact mid_sum c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact mid_tile c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        isplitl [H5]
        · unfold owns; iexists _; isplitr
          swap; · iexact H5
          ipureintro; exact mid_hist c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scSum (Memref.isWhole_whole _) hF hL (blk V c 0 t) (blk V c 1 t) (blk V c 2 t) (blk V c 3 t) (pairIn V c t).1 (pairIn V c t).2 _
        iexists _; iexact H6

/-- The library's body obligation, at every point. -/
theorem body_obligation (c : Dev nD) : BodyObligation (dat0 (F := F) V c) (defs₀ (F := F)) Variants.none () Set.univ := fun t => by
  rw [bigSep_W0, bigSep_W0]
  exact sound_body V c t

/-- After the last point the invariant gives the class's back: what the two scratch columns hold is forgotten. -/
theorem Phi_last (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 128 := N_0; omega), PhiA_eq]
  iintro ⟨⟨HM, HL, HR⟩, Hg⟩
  isplitl [HM HL HR]
  · isplitl [HM]; · iexists _; iexact HM
    isplitl [HL]; · iexists _; iexact HL
    iexact HR
  iexact Hg

end Cert.KernelIdeal.Compute

end
-- ==== Proof.WholeRun.lean ====
/-
  The whole program as four segments: the host operations before the first region (the two squared-norm vectors, the key
  norms laid out as a row, the two bf16 copies), the first region, the one host operation between (the unnormalised
  output copied into the result's buffer), the second region. The contents of every unscoped buffer are followed from
  the launch memory through the four segments; each region takes its windows' arrays out of the thread state, runs its
  pipeline on its proof data, and puts the arrays back at what the write-backs leave. One theorem reads the last
  contents against the final memory: the result buffer holds what the second region's write-backs leave, and the two
  argument arrays are as launched (no host operation writes them and no window stages them).
-/
import proofs.«137461_j77884936945679_2_alg».proof.Proof.ComputeBody
import proofs.«137461_j77884936945679_2_alg».proof.Proof.RescaleData
import proofs.«137461_j77884936945679_2_alg».proof.Proof.Gen.KernelIdeal.Regions
import Idealize.ShloMosaic.Lib.Pipeline.RegionsLoop
import Idealize.ShloMosaic.Lib.Pipeline.FrameSuffix
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
abbrev C1 : (c : Dev nD) → (b : Ref sig .tc) → Buf (Elt F) ((c : Thread nD τ).loc b) := fun c b => W1 m ρ c b
/-- After the first region: its windows' arrays at what the pipeline leaves, every other buffer as entered. -/
def W2 (c : Dev nD) : Valuation τ sig (Elt F) :=
  Pipeline.withArrays spec0 c (W1 m ρ c) fun w => (Compute.dat0 (C1 m ρ) c).arrAt w cfg0.N
theorem W2_arr (c : Dev nD) (w : Fin cfg0.W) :
    W2 m ρ c (Proc.devRef .tc (Pipeline.arrRef spec0 w)) = (Compute.dat0 (C1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev C2 : (c : Dev nD) → (b : Ref sig .tc) → Buf (Elt F) ((c : Thread nD τ).loc b) := fun c b => W2 m ρ c b
theorem hF0 (c : Dev nD) (w : Fin cfg0.W) : (Compute.dat0 (C1 m ρ) c).arrAt w cfg0.N = C2 m ρ c (Pipeline.arrRef spec0 w) :=
  (W2_arr m ρ c w).symm
theorem hrest0 (c : Dev nD) : ∀ b, b ∉ Finset.univ.image (Pipeline.arrRef spec0) → C2 m ρ c b = C1 m ρ c b :=
  fun b hb => W2_of_ne m ρ c b fun w e => hb (Finset.mem_image.mpr ⟨w, Finset.mem_univ _, e⟩)
/-- After the host operation between the regions. -/
abbrev W3 : Dev nD → Valuation τ sig (Elt F) := fun c => StableHlo.after hostOps1 (W2 m ρ c)
abbrev C3 : (c : Dev nD) → (b : Ref sig .tc) → Buf (Elt F) ((c : Thread nD τ).loc b) := fun c b => W3 m ρ c b
/-- After the second region. -/
def W4 (c : Dev nD) : Valuation τ sig (Elt F) :=
  Pipeline.withArrays spec1 c (W3 m ρ c) fun w => (Rescale.dat1 (C3 m ρ) c).arrAt w cfg1.N
theorem W4_arr (c : Dev nD) (w : Fin cfg1.W) :
    W4 m ρ c (Proc.devRef .tc (Pipeline.arrRef spec1 w)) = (Rescale.dat1 (C3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev C4 : (c : Dev nD) → (b : Ref sig .tc) → Buf (Elt F) ((c : Thread nD τ).loc b) := fun c b => W4 m ρ c b
theorem hF1 (c : Dev nD) (w : Fin cfg1.W) : (Rescale.dat1 (C3 m ρ) c).arrAt w cfg1.N = C4 m ρ c (Pipeline.arrRef spec1 w) :=
  (W4_arr m ρ c w).symm
theorem hrest1 (c : Dev nD) : ∀ b, b ∉ Finset.univ.image (Pipeline.arrRef spec1) → C4 m ρ c b = C3 m ρ c b :=
  fun b hb => W4_of_ne m ρ c b fun w e => hb (Finset.mem_image.mpr ⟨w, Finset.mem_univ _, e⟩)

/-! ### The arguments end as launched -/

theorem W4_keeps (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    W4 m ρ c (Proc.devRef .tc b) = m ((c : Thread nD τ).loc b) :=
  calc W4 m ρ c (Proc.devRef .tc b)
    _ = W3 m ρ c (Proc.devRef .tc b) := W4_of_ne m ρ c b hw1
    _ = W2 m ρ c (Proc.devRef .tc b) := StableHlo.after_of_writes_sub hostOps1 _ hostOps1_writes h1
    _ = W1 m ρ c (Proc.devRef .tc b) := W2_of_ne m ρ c b hw0
    _ = W0 m ρ c (Proc.devRef .tc b) := StableHlo.after_of_writes_sub hostOps0 _ hostOps0_writes h0
    _ = m ((c : Thread nD τ).loc b) := rfl

/-! ## The proof data family and the thread state -/

abbrev admN : (p : Fin 2) → (pcfgs (F := F) p).Adm := fun p => (cfgs p).toPCfg_adm
/-- Each pipeline's proof data at its region's entry contents (a literal match on the pipeline's number). -/
def pdats : (p : Fin 2) → (c : Dev nD) → Dat τ (Elt F) Unit ℕ (UR sig nD τ) ℕ (Pipeline.pin (pcfgs (F := F)) admN p) c
  | ⟨0, _⟩ => fun c => Compute.dat0 (C1 m ρ) c
  | ⟨1, _⟩ => fun c => Rescale.dat1 (C3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) admN (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Compute.body_obligation (C1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) admN (pdats m ρ) launch0.win launch0.arr_whole c
      ((pdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from Compute.Phi_last (C1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admN (Ix := Unit) (Name := ℕ) (U := UR sig nD τ) (Lvl := ℕ)
      launch0.win launch0.arr_whole c (pdats m ρ) ((pdats m ρ 0 c).share_full fun _ => rfl)
      (C1 m ρ c) (C2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admN (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Rescale.body_obligation (C3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit := Pipeline.arrays_of_unscopedBufs (p := 1) (pcfgs (F := F)) admN (pdats m ρ) launch1.win launch1.arr_whole c
      ((pdats m ρ 1 c).share_full fun _ => rfl) (C3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [show (pdats m ρ 1 c).Φ (Fin.last _) = Pipeline.ΦA spec1 c from rfl]
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admN (Ix := Unit) (Name := ℕ) (U := UR sig nD τ) (Lvl := ℕ)
      launch1.win launch1.arr_whole c (pdats m ρ) ((pdats m ρ 1 c).share_full fun _ => rfl)
      (C3 m ρ c) (C4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segL : List (Pipeline.Seg (pcfgs (F := F)) admN (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segL m ρ) := (main_chain c).trans (by chain_rfl)

set_option backward.isDefEq.respectTransparency.types false in
/-- Every weakly fair execution of the program from memory `m` with zero counters terminates, nothing faulting, and
    every final memory holds the result buffer at what the second region's write-backs leave and each argument array
    as launched. -/
theorem run : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admN (pdats m ρ) () cellOf_inj emb₁ defs₀ 𝒱₀ L lv m ρ main (segL m ρ)
    (fun c Q => by rw [main_run m ρ c])
    (by simp only [segL, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_keeps m ρ c main_arg0 (by decide) (by decide) (by decide) (by decide)),
       (h c _ (mem_uc main_arg1 (by decide))).trans (W4_keeps m ρ c main_arg1 (by decide) (by decide) (by decide) (by decide))⟩)

end Cert.KernelIdeal.Whole

end
-- ==== Proof.HostPrefix.lean ====
/-
  What the first region finds in the four arrays it stages, in terms of the two argument arrays q and k as launched:
  the bf16 copies of q and k (at the extended reals, q and k themselves); the query norms' column, whose entry (r, 0) is
  the zero word plus the sum over d of q(r,d)²; the key norms' row, the same column of k transposed.
-/
import proofs.«137461_j77884936945679_2_alg».proof.Proof.WholeRun
import Idealize.ShloMosaic.Lib.StableHlo.Run
set_option maxRecDepth 16384

noncomputable section

namespace Cert.KernelIdeal.HostSide

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Whole

variable (m : (ℓ : Loc nD τ sig) → Buf (Elt F) ℓ) (ρ : Dev nD → PrngReg)

theorem query_copy (c : Dev nD) : (C1 m ρ c main_v7 : S8192x512.Idx → Elt F .bf16)
    = truncf .bf16 (m ((c : Thread nD τ).loc main_arg0)) bitsLt_bf16_f32 := by
  show StableHlo.after hostOps0 (W0 m ρ c) (Proc.devRef .tc main_v7) = _
  after_results

theorem key_copy (c : Dev nD) : (C1 m ρ c main_v8 : S8192x512.Idx → Elt F .bf16)
    = truncf .bf16 (m ((c : Thread nD τ).loc main_arg1)) bitsLt_bf16_f32 := by
  show StableHlo.after hostOps0 (W0 m ρ c) (Proc.devRef .tc main_v8) = _
  after_results

theorem query_norm_column (c : Dev nD) : (C1 m ρ c main_v2 : S8192x1.Idx → Elt F .f32)
    = broadcastInDim S8192x1 ![0] bcast_S8192_S8192x1_0
        (Host.reduceAdd (mulf (m ((c : Thread nD τ).loc main_arg0)) (m ((c : Thread nD τ).loc main_arg0))) (constant (F := F) S_ .f32 0x00000000#32) reducesTo_S8192x512_S8192_d1 h_S_) := by
  show StableHlo.after hostOps0 (W0 m ρ c) (Proc.devRef .tc main_v2) = _
  after_results

theorem key_norm_row (c : Dev nD) : (C1 m ρ c main_v6 : S1x8192.Idx → Elt F .f32)
    = transpose S1x8192 [1, 0] (broadcastInDim S8192x1 ![0] bcast_S8192_S8192x1_0
        (Host.reduceAdd (mulf (m ((c : Thread nD τ).loc main_arg1)) (m ((c : Thread nD τ).loc main_arg1))) (constant (F := F) S_ .f32 0x00000000#32) reducesTo_S8192x512_S8192_d1 h_S_)) transposes_S8192x1_S1x8192_1_0 := by
  show StableHlo.after hostOps0 (W0 m ρ c) (Proc.devRef .tc main_v6) = _
  after_results

end Cert.KernelIdeal.HostSide

end
-- ==== Proof.KernelValue.lean ====
/-
  The result buffer in terms of the two argument arrays q and k. The arrays the first region stages are q and k
  themselves (their bf16 copies, read at the extended reals), the column of squared lengths of q's rows (each the zero
  word plus the sum of squares; the zero word is 0) and the row of squared lengths of k's rows; so the score computed
  from the staged arrays is the score of the specification in its (qq − qk) − (qk − kk) arrangement. The host copy
  between the regions writes only the result buffer, so the second region finds the first region's three arrays as left.
  Hence the result buffer ends at the block-by-block softmax weights of the specification.
-/
import proofs.«137461_j77884936945679_2_alg».proof.Proof.RegionValues
import proofs.«137461_j77884936945679_2_alg».proof.Proof.HostPrefix
import Idealize.ShloMosaic.PureOps.Ideal.Laws
set_option maxRecDepth 16384

noncomputable section

namespace Cert.KernelIdeal.Final

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Compute Cert.KernelIdeal.Blocks Cert.KernelIdeal.Entry
open Cert.Proof.Softmax Cert.KernelIdeal.Rows Cert.KernelIdeal.Arrays Cert.KernelIdeal.Whole Cert.KernelIdeal.HostSide

variable (m : (ℓ : Loc nD τ sig) → Buf (Elt Ideal) ℓ) (ρ : Dev nD → PrngReg)

/-- The query points and the key points as launched. -/
abbrev qOf (c : Dev nD) : Pts := (m ((c : Thread nD τ).loc main_arg0) : S8192x512.Idx → Elt Ideal .f32)
abbrev kOf (c : Dev nD) : Pts := (m ((c : Thread nD τ).loc main_arg1) : S8192x512.Idx → Elt Ideal .f32)

/-- The host's vector of squared row lengths at row r: the zero word plus the sum over the 512 coordinates. -/
theorem sqnorm_apply (x : FVec Ideal S8192x512 .f32) (r : Fin 8192) :
    Host.reduceAdd (F := Ideal) (mulf x x) (constant (F := Ideal) S_ .f32 0x00000000#32) reducesTo_S8192x512_S8192_d1 h_S_ (ix1 r)
      = ∑ d : Fin 512, x (ix2 r d) * x (ix2 r d) := by
  have hR : S8192x512.Reduces [1] S8192 := by decide
  simp only [Host.reduceAdd, Ideal.hostReduceAdd_def]
  rw [Ideal.hostReduceAdd_single reducesTo_S8192x512_S8192_d1 hR]
  show Ideal.ofBits .f32 0x00000000#32 + _ = _
  rw [Ideal.ofBits_zero_f32, zero_add]
  refine Finset.sum_congr rfl fun d _ => ?_
  have e : hR.lift (ix1 r) d = ix2 r d := funext fun a => Fin.ext (by match a with | ⟨0, _⟩ => rfl | ⟨1, _⟩ => rfl)
  rw [e]
  rfl

theorem query_norm_at (c : Dev nD) (r : Fin 8192) :
    nqAt (C1 m ρ) c r = qq (qOf m c) r := by
  unfold nqAt
  rw [query_norm_column]
  refine (broadcastInDim_apply _ bcast_S8192_S8192x1_0 _ (ix2 r 0) (ix1 r) (fun a => match a with
    | ⟨0, _⟩ => by show r.val = if (8192 : Nat) = 1 then 0 else r.val; rw [if_neg (by decide)])).trans ?_
  exact sqnorm_apply _ r

theorem key_norm_at (c : Dev nD) (s : Fin 8192) :
    nkAt (C1 m ρ) c s = kk (kOf m c) s := by
  unfold nkAt
  rw [key_norm_row]
  refine (transpose_apply [1, 0] _ transposes_S8192x1_S1x8192_1_0 (ix2 0 s) (ix2 s 0) (fun b => match b with
    | ⟨0, _⟩ => rfl
    | ⟨1, _⟩ => rfl)).trans ?_
  refine (broadcastInDim_apply _ bcast_S8192_S8192x1_0 _ (ix2 s 0) (ix1 s) (fun a => match a with
    | ⟨0, _⟩ => by show s.val = if (8192 : Nat) = 1 then 0 else s.val; rw [if_neg (by decide)])).trans ?_
  exact sqnorm_apply _ s

theorem dot_at (c : Dev nD) (r s : Fin 8192) : dotArr (C1 m ρ) c r s = qk (qOf m c) (kOf m c) r s := by
  unfold dotArr qk qAt kAt
  rw [query_copy m ρ c, key_copy m ρ c]
  rfl

/-- The score from the staged arrays is the specification's. -/
theorem scores_eq (c : Dev nD) (r : Fin 8192) : scArr (C1 m ρ) c r = scoreKer (qOf m c) (kOf m c) r := by
  funext s
  unfold scArr scoreKer dist2Ker
  rw [query_norm_at m ρ c r, key_norm_at m ρ c s, dot_at m ρ c r s]

/-- The host copy between the regions leaves the first region's three arrays as the region left them. -/
theorem dense_kept (c : Dev nD) : (C3 m ρ c main_v9_0 : S8192x8192.Idx → Elt Ideal .f32) = denseOf (C1 m ρ) c :=
  (StableHlo.after_of_writes_sub hostOps1 (W2 m ρ c) hostOps1_writes (r := main_v9_0) (by decide)).trans
    ((W2_arr m ρ c 4).trans (dense_final (C1 m ρ) c))
theorem history_kept (c : Dev nD) : (C3 m ρ c main_v9_1 : S16x8192x1.Idx → Elt Ideal .f32) = historyOf (C1 m ρ) c :=
  (StableHlo.after_of_writes_sub hostOps1 (W2 m ρ c) hostOps1_writes (r := main_v9_1) (by decide)).trans
    ((W2_arr m ρ c 5).trans (history_final (C1 m ρ) c))
theorem lse_kept (c : Dev nD) : (C3 m ρ c main_v9_2 : S8192x1.Idx → Elt Ideal .f32) = lseOf (C1 m ρ) c :=
  (StableHlo.after_of_writes_sub hostOps1 (W2 m ρ c) hostOps1_writes (r := main_v9_2) (by decide)).trans
    ((W2_arr m ρ c 6).trans (lse_final (C1 m ρ) c))

/-- The result buffer after the run: the block-by-block softmax weights of the specification. -/
theorem result_value (c : Dev nD) :
    (W4 m ρ c (Proc.devRef .tc main_v10) : S8192x8192.Idx → Elt Ideal .f32)
      = fun i => kernelForm (qOf m c) (kOf m c) (i 0) (i 1) := by
  refine (W4_arr m ρ c 3).trans ((result_final (C1 m ρ) (C3 m ρ) c (dense_kept m ρ c) (history_kept m ρ c) (lse_kept m ρ c)).trans ?_)
  funext i
  unfold weightsOf kernelForm
  rw [scores_eq m ρ c (i 0)]

end Cert.KernelIdeal.Final

end
-- ==== Proof.ReferenceValue.lean ====
/-
  The one-pass program's result, index by index, is the softmax of the row of scores.

  Each stage of the program is read at a literal index: the two squared lengths and the inner product as sums over
  the 512 coordinates (the leading +0 of a float sum is zero), the broadcasts of a row or column vector as that
  vector's entry, the clamped squared distance, the two projections and the score by their pointwise formulas, the
  row maximum as the fold of max from -∞, the weights as exp (score - maximum), and the quotient by zero plus their sum.
-/
import proofs.«137461_j77884936945679_2_alg».proof.Proof.Gen.ReferenceIdeal.Read
import proofs.«137461_j77884936945679_2_alg».proof.Proof.DistanceSpec
import proofs.«137461_j77884936945679_2_alg».proof.Proof.LibRowOps

noncomputable section

open scoped BigOperators

namespace Cert.Proof.Softmax

open Cert.ReferenceIdeal Cert.ReferenceIdeal.Gen Cert.ReferenceIdeal.Read Idealize.ShloMosaic Idealize.ShloMosaic.ValueIdx

/-- The type of an argument array of the one-pass program at the extended reals. -/
abbrev RefArg : Type := (⟨S8192x512, .f32⟩ : BufTy).Contents (Elt Ideal)

/-! ## The inner products -/

/-- The row sums of q * q: the squared length of each query point. -/
theorem read_qq (q : RefArg) (r : Fin 8192) : val_main_v1 (F := Ideal) q (ix1 r) = qq q r := by
  rw [val_main_v1_apply, val_main_cst_apply]
  simp only [val_main_v0_apply, Ideal.ofBits_def, Ideal.mulf_def, Ideal.ofBits_zero_f32, zero_add]
  unfold qq
  refine Finset.sum_congr rfl fun d _ => ?_
  have e : idx_main_v1 (ix1 r) d = ix2 r d :=
    funext fun a => Fin.ext (by match a with | ⟨0, _⟩ => rfl | ⟨1, _⟩ => rfl)
  rw [e]

/-- The row sums of k * k: the squared length of each key point. -/
theorem read_kk (k : RefArg) (s : Fin 8192) : val_main_v3 (F := Ideal) k (ix1 s) = kk k s := by
  rw [val_main_v3_apply, val_main_cst_0_apply]
  simp only [val_main_v2_apply, Ideal.ofBits_def, Ideal.mulf_def, Ideal.ofBits_zero_f32, zero_add]
  unfold kk
  refine Finset.sum_congr rfl fun d _ => ?_
  have e : idx_main_v3 (ix1 s) d = ix2 s d :=
    funext fun a => Fin.ext (by match a with | ⟨0, _⟩ => rfl | ⟨1, _⟩ => rfl)
  rw [e]

/-- The product of q with the transpose of k: the inner product of each query point with each key point. -/
theorem read_qk (q k : RefArg) (r s : Fin 8192) : val_main_v4 (F := Ideal) q k (ix2 r s) = qk q k r s := by
  rw [val_main_v4_apply]
  unfold qk
  refine Finset.sum_congr rfl fun d _ => ?_
  have el : lidx_main_v4 (ix2 r s) d = ix2 r d :=
    funext fun a => Fin.ext (by match a with | ⟨0, _⟩ => rfl | ⟨1, _⟩ => rfl)
  have er : ridx_main_v4 (ix2 r s) d = ix2 s d :=
    funext fun a => Fin.ext (by match a with | ⟨0, _⟩ => rfl | ⟨1, _⟩ => rfl)
  rw [el, er]

/-! ## The row and column vectors spread over the square -/

/-- The squared lengths of the queries spread along the rows (first use). -/
theorem read_qq_sq (q : RefArg) (r s : Fin 8192) : val_main_v7 (F := Ideal) q (ix2 r s) = qq q r := by
  rw [val_main_v7_apply, val_main_v5_apply]
  have e : idx_main_v5 (idx_main_v7 (ix2 r s)) = ix1 r :=
    funext fun a => Fin.ext (by match a with | ⟨0, _⟩ => rfl)
  rw [e, read_qq]

/-- The squared lengths of the keys spread along the columns (first use). -/
theorem read_kk_sq (k : RefArg) (r s : Fin 8192) : val_main_v8 (F := Ideal) k (ix2 r s) = kk k s := by
  rw [val_main_v8_apply, val_main_v6_apply]
  have e : idx_main_v6 (idx_main_v8 (ix2 r s)) = ix1 s :=
    funext fun a => Fin.ext (by match a with | ⟨0, _⟩ => rfl)
  rw [e, read_kk]

/-- The squared lengths of the queries spread along the rows (second use). -/
theorem read_qq_sq' (q : RefArg) (r s : Fin 8192) : val_main_v16 (F := Ideal) q (ix2 r s) = qq q r := by
  rw [val_main_v16_apply, val_main_v15_apply]
  have e : idx_main_v15 (idx_main_v16 (ix2 r s)) = ix1 r :=
    funext fun a => Fin.ext (by match a with | ⟨0, _⟩ => rfl)
  rw [e, read_qq]

/-- The squared lengths of the keys spread along the columns (second use). -/
theorem read_kk_sq' (k : RefArg) (r s : Fin 8192) : val_main_v19 (F := Ideal) k (ix2 r s) = kk k s := by
  rw [val_main_v19_apply, val_main_v18_apply]
  have e : idx_main_v18 (idx_main_v19 (ix2 r s)) = ix1 s :=
    funext fun a => Fin.ext (by match a with | ⟨0, _⟩ => rfl)
  rw [e, read_kk]

/-- A scalar spread over the square reads the scalar. -/
theorem read_two (i : S8192x8192.Idx) : val_main_v10 (F := Ideal) i = Ideal.ofBits .f32 0x40000000#32 := by
  rw [val_main_v10_apply, val_main_cst_1_apply]; rfl
theorem read_zero (i : S8192x8192.Idx) : val_main_v13 (F := Ideal) i = Ideal.ofBits .f32 0x00000000#32 := by
  rw [val_main_v13_apply, val_main_cst_2_apply]; rfl
theorem read_c (i : S8192x8192.Idx) : val_main_v21 (F := Ideal) i = Ideal.ofBits .f32 0x3C23D70A#32 := by
  rw [val_main_v21_apply, val_main_cst_3_apply]; rfl
theorem read_c' (i : S8192x8192.Idx) : val_main_v26 (F := Ideal) i = Ideal.ofBits .f32 0x3C23D70A#32 := by
  rw [val_main_v26_apply, val_main_cst_4_apply]; rfl
theorem read_w (i : S8192x8192.Idx) : val_main_v32 (F := Ideal) i = Ideal.ofBits .f32 0xBF000000#32 := by
  rw [val_main_v32_apply, val_main_cst_5_apply]; rfl

/-! ## The score -/

/-- The clamped squared distance. -/
theorem read_dist2 (q k : RefArg) (r s : Fin 8192) : val_main_v14 (F := Ideal) q k (ix2 r s) = dist2Ref q k r s := by
  rw [val_main_v14_apply, val_main_v12_apply, val_main_v9_apply, val_main_v11_apply, read_qq_sq, read_kk_sq, read_two,
    read_qk, read_zero]
  rfl

/-- The projection of the difference on the query point. -/
theorem read_qd (q k : RefArg) (r s : Fin 8192) :
    val_main_v17 (F := Ideal) q k (ix2 r s) = qq q r - qk q k r s := by
  rw [val_main_v17_apply, read_qq_sq', read_qk]; rfl

/-- The projection of the difference on the key point. -/
theorem read_kd (q k : RefArg) (r s : Fin 8192) :
    val_main_v20 (F := Ideal) q k (ix2 r s) = qk q k r s - kk k s := by
  rw [val_main_v20_apply, read_kk_sq', read_qk]; rfl

/-- The score of query r against key s. -/
theorem read_score (q k : RefArg) (r s : Fin 8192) :
    val_main_v33 (F := Ideal) q k (ix2 r s) = scoreRef q k r s := by
  rw [val_main_v33_apply, val_main_v31_apply, val_main_v25_apply, val_main_v30_apply, val_main_v24_apply,
    val_main_v29_apply, val_main_v23_apply, val_main_v28_apply, val_main_v22_apply, val_main_v27_apply,
    read_w, read_c, read_c', read_dist2, read_qd, read_kd]
  rfl

/-! ## The softmax of the row -/

/-- The row's maximum. -/
theorem read_rowMax (q k : RefArg) (r : Fin 8192) :
    val_main_v36 (F := Ideal) q k (ix1 r) = rowMaxRef (scoreRef q k r) := by
  rw [val_main_v36_apply, val_main_v35_apply, val_main_cst_7_apply]
  unfold val_main_v34
  rw [Gcn.Lib.hostRowMax_apply (val_main_v33 (F := Ideal) q k) (val_main_cst_6 (F := Ideal))
    reducesTo_S8192x8192_S8192_d1 (by decide) h_S_ r, val_main_cst_6_apply]
  have e : (fun s : Fin 8192 => val_main_v33 (F := Ideal) q k (ix2 r s)) = scoreRef q k r :=
    funext fun s => read_score q k r s
  rw [e]
  rfl

/-- The weight of key s in row r. -/
theorem read_weight (q k : RefArg) (r s : Fin 8192) :
    val_main_v40 (F := Ideal) q k (ix2 r s)
      = Ideal.exp (scoreRef q k r s - rowMaxRef (scoreRef q k r)) := by
  rw [val_main_v40_apply, val_main_v39_apply, val_main_v38_apply, val_main_v37_apply, read_score]
  have e : idx_main_v37 (idx_main_v38 (ix2 r s)) = ix1 r :=
    funext fun a => Fin.ext (by match a with | ⟨0, _⟩ => rfl)
  rw [e, read_rowMax]
  rfl

/-- Zero plus the sum of the row's weights. -/
theorem read_denom (q k : RefArg) (r : Fin 8192) :
    val_main_v41 (F := Ideal) q k (ix1 r)
      = Ideal.ofBits .f32 0x00000000#32
        + ∑ s' : Fin 8192, Ideal.exp (scoreRef q k r s' - rowMaxRef (scoreRef q k r)) := by
  rw [val_main_v41_apply, val_main_cst_8_apply]
  refine congrArg (Ideal.ofBits .f32 0x00000000#32 + ·) (Finset.sum_congr rfl fun s' _ => ?_)
  have e : idx_main_v41 (ix1 r) s' = ix2 r s' :=
    funext fun a => Fin.ext (by match a with | ⟨0, _⟩ => rfl | ⟨1, _⟩ => rfl)
  rw [e, read_weight]

/-- THE ONE-PASS PROGRAM'S RESULT: entry (r, s) is the softmax of row r of the scores at s. -/
theorem reference_eq (q k : RefArg) :
    val_main_v44 (F := Ideal) q k = fun i => softmaxRef q k (i 0) (i 1) := by
  funext i
  obtain ⟨r, s, rfl⟩ : ∃ (r : Fin 8192) (s : Fin 8192), i = ix2 r s := ⟨i 0, i 1, eq_ix2 i⟩
  rw [val_main_v44_apply, val_main_v43_apply, val_main_v42_apply, read_weight]
  have e : idx_main_v42 (idx_main_v43 (ix2 r s)) = ix1 r :=
    funext fun a => Fin.ext (by match a with | ⟨0, _⟩ => rfl)
  rw [e, read_denom]
  rfl

end Cert.Proof.Softmax

end
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.LibOnlineSoftmax.lean ====
/-
  The block-by-block (running-maximum) softmax accumulation on the extended reals.

  A row of real scores arrives in blocks of B columns; block j has scores S j k and, for each output coordinate e,
  real values V j k e. A running maximum m, a running weight sum l and a running weighted sum acc e are updated by

      m' = max m (max over the block) ,  a = exp (m - m') ,
      l' = a * l + ∑ k, exp (s k - m') * 1 ,   acc' e = a * acc e + ∑ k, exp (s k - m') * v k e ,

  starting from m = ⊥, l = 0, acc = 0. After n ≥ 1 blocks there is a REAL shift μ (the maximum so far) with
  m = μ, l = ∑ over the first n blocks of exp (S - μ) and acc e = ∑ of exp (S - μ) * V: the rescaling factor
  a = exp (μ - μ') turns every old weight exp (S - μ) into exp (S - μ'), and on the first block a = exp ⊥ = 0
  multiplies zeros. The quotient acc e / l does not depend on the shift (a common positive factor cancels), so it is
  the softmax-weighted mean of the values for ANY real shift, in particular for the row's true maximum.
  Every score and value being a real is what makes the rescaling and the cancellation valid.
-/
import proofs.«137461_j77884936945679_2_alg».proof.Proof.LibSoftmaxLaw

noncomputable section

namespace OnlineSoftmax

open Idealize.ShloMosaic

variable {B : ℕ} {ι : Type}

/-- The sum of the weights exp (S - μ) over the first n blocks. -/
def den (S : ℕ → Fin B → ℝ) (n : ℕ) (μ : ℝ) : ℝ :=
  ∑ j ∈ Finset.range n, ∑ k : Fin B, Real.exp (S j k - μ)

/-- The weighted sum of the values of coordinate e over the first n blocks. -/
def num (S : ℕ → Fin B → ℝ) (V : ℕ → Fin B → ι → ℝ) (n : ℕ) (μ : ℝ) (e : ι) : ℝ :=
  ∑ j ∈ Finset.range n, ∑ k : Fin B, Real.exp (S j k - μ) * V j k e

/-- Changing the shift from μ to μ' multiplies every weight by exp (μ - μ'). -/
theorem den_shift (S : ℕ → Fin B → ℝ) (n : ℕ) (μ μ' : ℝ) : Real.exp (μ - μ') * den S n μ = den S n μ' := by
  unfold den
  rw [Finset.mul_sum]
  refine Finset.sum_congr rfl fun j _ => ?_
  rw [Finset.mul_sum]
  refine Finset.sum_congr rfl fun k _ => ?_
  rw [← Real.exp_add]
  congr 1; ring

theorem num_shift (S : ℕ → Fin B → ℝ) (V : ℕ → Fin B → ι → ℝ) (n : ℕ) (μ μ' : ℝ) (e : ι) :
    Real.exp (μ - μ') * num S V n μ e = num S V n μ' e := by
  unfold num
  rw [Finset.mul_sum]
  refine Finset.sum_congr rfl fun j _ => ?_
  rw [Finset.mul_sum]
  refine Finset.sum_congr rfl fun k _ => ?_
  rw [← mul_assoc, ← Real.exp_add]
  congr 2; ring

theorem den_succ (S : ℕ → Fin B → ℝ) (n : ℕ) (μ : ℝ) :
    den S (n + 1) μ = den S n μ + ∑ k : Fin B, Real.exp (S n k - μ) := Finset.sum_range_succ _ _

theorem num_succ (S : ℕ → Fin B → ℝ) (V : ℕ → Fin B → ι → ℝ) (n : ℕ) (μ : ℝ) (e : ι) :
    num S V (n + 1) μ e = num S V n μ e + ∑ k : Fin B, Real.exp (S n k - μ) * V n k e := Finset.sum_range_succ _ _

/-- With at least one block of at least one column the weight sum is positive. -/
theorem den_pos (S : ℕ → Fin B → ℝ) (n : ℕ) (μ : ℝ) (hn : 0 < n) (hB : 0 < B) : 0 < den S n μ :=
  Finset.sum_pos (fun j _ => Finset.sum_pos (fun k _ => Real.exp_pos _) ⟨⟨0, hB⟩, Finset.mem_univ _⟩)
    ⟨0, Finset.mem_range.mpr hn⟩

/-- The state after n blocks: the maximum so far is a real μ, and l, acc are the weight sum and the weighted sums
    at the shift μ. -/
def Inv (S : ℕ → Fin B → ℝ) (V : ℕ → Fin B → ι → ℝ) (n : ℕ) (m l : EReal) (acc : ι → EReal) : Prop :=
  ∃ μ : ℝ, m = (μ : EReal) ∧ l = ((den S n μ : ℝ) : EReal) ∧ ∀ e, acc e = ((num S V n μ e : ℝ) : EReal)

/-- The first block, from m = ⊥, l = 0, acc = 0: the factor exp (⊥ - m') is 0. -/
theorem first_block (S : ℕ → Fin B → ℝ) (V : ℕ → Fin B → ι → ℝ) (hB : 0 < B)
    (s : Fin B → EReal) (hs : ∀ k, s k = (S 0 k : EReal))
    (one : Fin B → EReal) (hone : ∀ k, one k = 1)
    (w : Fin B → ι → EReal) (hw : ∀ k e, w k e = (V 0 k e : EReal))
    (mn : EReal) (hmn : mn = max ⊥ ((Finset.univ : Finset (Fin B)).fold max ⊥ s)) :
    Inv S V 1 mn (Ideal.exp (⊥ - mn) * 0 + ∑ k, Ideal.exp (s k - mn) * one k)
      (fun e => Ideal.exp (⊥ - mn) * 0 + ∑ k, Ideal.exp (s k - mn) * w k e) := by
  obtain ⟨Mb, hMb⟩ := Attn.rowMax_real (S 0) ⟨0, hB⟩
  have hs' : s = fun k => (S 0 k : EReal) := funext hs
  have hmn' : mn = (Mb : EReal) := by
    rw [hmn, hs']; unfold Attn.rowMax at hMb; rw [hMb]; exact max_eq_right bot_le
  refine ⟨Mb, hmn', ?_, fun e => ?_⟩
  · rw [hmn', EReal.bot_sub, Ideal.exp_bot, mul_zero, zero_add, den_succ]
    unfold den
    rw [Finset.range_zero, Finset.sum_empty, zero_add, Attn.coe_sum]
    refine Finset.sum_congr rfl fun k _ => ?_
    rw [hs k, hone k, mul_one, ← EReal.coe_sub, Ideal.exp_coe]
  · show Ideal.exp (⊥ - mn) * 0 + ∑ k, Ideal.exp (s k - mn) * w k e = _
    rw [hmn', EReal.bot_sub, Ideal.exp_bot, mul_zero, zero_add, num_succ]
    unfold num
    rw [Finset.range_zero, Finset.sum_empty, zero_add, Attn.coe_sum]
    refine Finset.sum_congr rfl fun k _ => ?_
    rw [hs k, hw k e, ← EReal.coe_sub, Ideal.exp_coe, ← EReal.coe_mul]

/-- A later block: the old weights are rescaled to the new maximum and the block's are added. -/
theorem next_block (S : ℕ → Fin B → ℝ) (V : ℕ → Fin B → ι → ℝ) (hB : 0 < B) (n : ℕ)
    (s : Fin B → EReal) (hs : ∀ k, s k = (S n k : EReal))
    (one : Fin B → EReal) (hone : ∀ k, one k = 1)
    (w : Fin B → ι → EReal) (hw : ∀ k e, w k e = (V n k e : EReal))
    (m l : EReal) (acc : ι → EReal) (hinv : Inv S V n m l acc)
    (mn : EReal) (hmn : mn = max m ((Finset.univ : Finset (Fin B)).fold max ⊥ s)) :
    Inv S V (n + 1) mn (Ideal.exp (m - mn) * l + ∑ k, Ideal.exp (s k - mn) * one k)
      (fun e => Ideal.exp (m - mn) * acc e + ∑ k, Ideal.exp (s k - mn) * w k e) := by
  obtain ⟨μ, hm, hl, hacc⟩ := hinv
  obtain ⟨Mb, hMb⟩ := Attn.rowMax_real (S n) ⟨0, hB⟩
  have hs' : s = fun k => (S n k : EReal) := funext hs
  have hmn' : mn = ((max μ Mb : ℝ) : EReal) := by
    rw [hmn, hs', hm]; unfold Attn.rowMax at hMb; rw [hMb]
    exact (EReal.coe_strictMono.monotone.map_max).symm
  refine ⟨max μ Mb, hmn', ?_, fun e => ?_⟩
  · rw [hm, hmn', hl, den_succ, ← den_shift S n μ (max μ Mb), EReal.coe_add, EReal.coe_mul, Attn.coe_sum,
      ← EReal.coe_sub, Ideal.exp_coe]
    congr 1
    refine Finset.sum_congr rfl fun k _ => ?_
    rw [hs k, hone k, mul_one, ← EReal.coe_sub, Ideal.exp_coe]
  · show Ideal.exp (m - mn) * acc e + ∑ k, Ideal.exp (s k - mn) * w k e = _
    rw [hm, hmn', hacc e, num_succ, ← num_shift S V n μ (max μ Mb) e, EReal.coe_add, EReal.coe_mul, Attn.coe_sum,
      ← EReal.coe_sub, Ideal.exp_coe]
    congr 1
    refine Finset.sum_congr rfl fun k _ => ?_
    rw [hs k, hw k e, ← EReal.coe_sub, Ideal.exp_coe, ← EReal.coe_mul]

/-- The final quotient is the weighted mean of the values at ANY real shift M. -/
theorem quotient (S : ℕ → Fin B → ℝ) (V : ℕ → Fin B → ι → ℝ) (hB : 0 < B) (n : ℕ) (hn : 0 < n)
    (m l : EReal) (acc : ι → EReal) (hinv : Inv S V n m l acc) (M : ℝ) (e : ι) :
    Ideal.div (acc e) l = ((num S V n M e / den S n M : ℝ) : EReal) := by
  obtain ⟨μ, _, hl, hacc⟩ := hinv
  have hpos := den_pos S n μ hn hB
  rw [hl, hacc e, Ideal.div_coe hpos.ne', ← EReal.coe_mul]
  congr 1
  rw [← den_shift S n μ M, ← num_shift S V n μ M e, mul_div_mul_left _ _ (Real.exp_pos _).ne']
  ring

end OnlineSoftmax

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibBlockedSoftmax.lean ====
/-
  A plain softmax-weighted mean over T = J * B columns, read block by block.

  One program computes, for a row of real scores Sc over T columns and real values Vc,

      ∑ c, (exp (s c - mx) / (0 + ∑ c', exp (s c' - mx))) * v c     with mx = max ⊥ (the largest score),

  dividing every weight by the weight sum before the weighted sum is taken. On the extended reals, for real data,
  this is the real number (∑ c, exp (Sc c - M) * Vc c) / (∑ c, exp (Sc c - M)) with M the real maximum; grouping the
  T columns into J blocks of B (column kk of block j is column j * B + kk) and cancelling the common factor
  exp (M - 0) of numerator and denominator, it is the quotient of the blocked sums at shift 0 — the form the
  block-by-block accumulation ends with (whose own shift cancels the same way).
-/
import proofs.«137461_j77884936945679_2_alg».proof.Proof.LibOnlineSoftmax
import proofs.«137461_j77884936945679_2_alg».proof.Proof.LibGroupedSum

noncomputable section

namespace BlockedSoftmax

open Idealize.ShloMosaic

variable {ι : Type}

/-- Column kk of block j among T columns (wrapped below T, which changes nothing while j * B + kk < T). -/
def col (B T : ℕ) (hT : 0 < T) (j : ℕ) (kk : Fin B) : Fin T := ⟨(j * B + kk.val) % T, Nat.mod_lt _ hT⟩

theorem col_of_lt {J B T : ℕ} (h : J * B = T) (hT : 0 < T) (j : Fin J) (kk : Fin B) :
    col B T hT j.val kk = ⟨j.val * B + kk.val, GroupedSum.group_lt h j kk⟩ :=
  Fin.ext (Nat.mod_eq_of_lt (GroupedSum.group_lt h j kk))

theorem col_val {B T : ℕ} (hT : 0 < T) (j : ℕ) (kk : Fin B) (hlt : j * B + kk.val < T) :
    (col B T hT j kk).val = j * B + kk.val := Nat.mod_eq_of_lt hlt

/-- A real sum over all T columns is the sum over the J blocks of the block sums. -/
theorem sum_cols {J B T : ℕ} (h : J * B = T) (hT : 0 < T) (f : Fin T → ℝ) :
    ∑ c : Fin T, f c = ∑ j ∈ Finset.range J, ∑ kk : Fin B, f (col B T hT j kk) := by
  rw [GroupedSum.sum_groups h f, ← Fin.sum_univ_eq_sum_range (fun j => ∑ kk : Fin B, f (col B T hT j kk)) J]
  refine Finset.sum_congr rfl fun j _ => Finset.sum_congr rfl fun kk _ => ?_
  rw [col_of_lt h hT j kk]

/-- The divide-early softmax-weighted mean of real data is the blocked quotient at shift 0. -/
theorem plain_eq_blocked {J B T : ℕ} (h : J * B = T) (hT : 0 < T)
    (Sc : Fin T → ℝ) (Vc : Fin T → ι → ℝ) (e : ι)
    (s : Fin T → EReal) (hs : ∀ c, s c = (Sc c : EReal))
    (v : Fin T → EReal) (hv : ∀ c, v c = (Vc c e : EReal))
    (mx : EReal) (hmx : mx = max ⊥ ((Finset.univ : Finset (Fin T)).fold max ⊥ s))
    (z : EReal) (hz : z = 0) :
    ∑ c, Ideal.div (Ideal.exp (s c - mx)) (z + ∑ c', Ideal.exp (s c' - mx)) * v c
      = ((OnlineSoftmax.num (fun j kk => Sc (col B T hT j kk)) (fun j kk e => Vc (col B T hT j kk) e) J 0 e
          / OnlineSoftmax.den (fun j kk => Sc (col B T hT j kk)) J 0 : ℝ) : EReal) := by
  obtain ⟨M, hM⟩ := Attn.rowMax_real Sc ⟨0, hT⟩
  have hs' : s = fun c => (Sc c : EReal) := funext hs
  have hmx' : mx = (M : EReal) := by
    rw [hmx, hs']; unfold Attn.rowMax at hM; rw [hM]; exact max_eq_right bot_le
  have hw : ∀ c, Ideal.exp (s c - mx) = ((Real.exp (Sc c - M) : ℝ) : EReal) := fun c => by
    rw [hs c, hmx', ← EReal.coe_sub, Ideal.exp_coe]
  obtain ⟨D, hD⟩ : ∃ D : ℝ, D = ∑ c, Real.exp (Sc c - M) := ⟨_, rfl⟩
  have hDpos : 0 < D := by
    rw [hD]; exact Finset.sum_pos (fun c _ => Real.exp_pos _) ⟨⟨0, hT⟩, Finset.mem_univ _⟩
  have hden : z + ∑ c', Ideal.exp (s c' - mx) = (D : EReal) := by
    rw [hz, zero_add, hD, Attn.coe_sum]; exact Finset.sum_congr rfl fun c _ => hw c
  rw [hden]
  have hterm : ∀ c, Ideal.div (Ideal.exp (s c - mx)) (D : EReal) * v c
      = ((Real.exp (Sc c - M) * (1 / D) * Vc c e : ℝ) : EReal) := fun c => by
    rw [Ideal.div_coe hDpos.ne', hw c, hv c, ← EReal.coe_mul, ← EReal.coe_mul]
  rw [Finset.sum_congr rfl fun c _ => hterm c, ← Attn.coe_sum]
  congr 1
  have hN : ∑ c, Real.exp (Sc c - M) * (1 / D) * Vc c e = (∑ c, Real.exp (Sc c - M) * Vc c e) / D := by
    rw [Finset.sum_div]; exact Finset.sum_congr rfl fun c _ => by ring
  rw [hN, hD, sum_cols h hT (fun c => Real.exp (Sc c - M) * Vc c e), sum_cols h hT (fun c => Real.exp (Sc c - M))]
  show OnlineSoftmax.num (fun j kk => Sc (col B T hT j kk)) (fun j kk e => Vc (col B T hT j kk) e) J M e
      / OnlineSoftmax.den (fun j kk => Sc (col B T hT j kk)) J M = _
  rw [← OnlineSoftmax.den_shift _ J M 0, ← OnlineSoftmax.num_shift _ _ J M 0 e,
    mul_div_mul_left _ _ (Real.exp_pos _).ne']

end BlockedSoftmax

end
-- ==== Proof.RowSoftmaxLaw.lean ====
/-
  The block-by-block softmax of a row of 8192 real scores is the one-pass softmax.

  The running maximum. Walking the row in 16 blocks of 512, the running maximum after the last block is the row's
  maximum: it is below the fold over the whole row because every block's maximum is, and above it because every
  score sits in some block and the running maximum only grows. This is order theory on the extended reals and needs
  no finiteness.

  The running sum. For real scores S, after block j the running maximum is a real μ and the running sum is
  ∑ over the keys seen so far of exp (S - μ): the factor exp (μ - μ') turns every old weight exp (S - μ) into
  exp (S - μ'), and at the start the factor exp (-∞ - μ) = 0 multiplies the initial zero.

  The last step. With M the row's maximum and L = ∑ exp (S - M) > 0 the sum of all weights,
      exp (S s - μ) * exp (μ - (M + log L)) = exp (S s - M - log L) = exp (S s - M) / L ,
  whatever the real μ is; and the one-pass form divides exp (S s - M) by 0 + L.
-/
import proofs.«137461_j77884936945679_2_alg».proof.Proof.DistanceSpec
import proofs.«137461_j77884936945679_2_alg».proof.Proof.LibBlockedSoftmax

noncomputable section

open scoped BigOperators

namespace Cert.Proof.Softmax

open Idealize.ShloMosaic

/-! ## The running maximum ends at the row's maximum -/

section RunningMax
variable (sc : Fin 8192 → EReal)

/-- Every score is below the fold of max over the whole row. -/
theorem le_rowFold (s : Fin 8192) : sc s ≤ (Finset.univ : Finset (Fin 8192)).fold max ⊥ sc :=
  (Finset.le_fold_max _).2 (Or.inr ⟨s, Finset.mem_univ _, le_rfl⟩)

/-- Every score of block j is below the block's maximum. -/
theorem le_blockMax (j : ℕ) (b : Fin 512) : sc (keyAt j b) ≤ blockMax sc j :=
  (Finset.le_fold_max _).2 (Or.inr ⟨b, Finset.mem_univ _, le_rfl⟩)

/-- A block's maximum is below the fold over the whole row. -/
theorem blockMax_le_rowFold (j : ℕ) : blockMax sc j ≤ (Finset.univ : Finset (Fin 8192)).fold max ⊥ sc :=
  (Finset.fold_max_le _).2 ⟨bot_le, fun b _ => le_rowFold sc (keyAt j b)⟩

/-- The running maximum is below the fold over the whole row. -/
theorem runMax_le_rowFold : ∀ j : ℕ, runMax sc j ≤ (Finset.univ : Finset (Fin 8192)).fold max ⊥ sc
  | 0 => by
    rw [runMax_zero, Attn.ofBits_neg_inf]
    exact max_le bot_le (blockMax_le_rowFold sc 0)
  | j + 1 => by
    rw [runMax_succ]
    exact max_le (runMax_le_rowFold j) (blockMax_le_rowFold sc (j + 1))

/-- A block's maximum is below the running maximum after it. -/
theorem blockMax_le_runMax (j : ℕ) : blockMax sc j ≤ runMax sc j := by
  cases j with
  | zero => rw [runMax_zero]; exact le_max_right _ _
  | succ j => rw [runMax_succ]; exact le_max_right _ _

/-- The running maximum only grows. -/
theorem runMax_mono {i j : ℕ} (h : i ≤ j) : runMax sc i ≤ runMax sc j := by
  induction h with
  | refl => exact le_rfl
  | step _ ih => exact ih.trans (by rw [runMax_succ]; exact le_max_left _ _)

/-- Every score is below the running maximum after the last block. -/
theorem le_runMax_last (s : Fin 8192) : sc s ≤ runMax sc 15 := by
  have hs := s.isLt
  have hj : s.val / 512 ≤ 15 := by omega
  calc sc s = sc (keyAt (s.val / 512) ⟨s.val % 512, Nat.mod_lt _ (by decide)⟩) := by rw [keyAt_div_mod]
    _ ≤ blockMax sc (s.val / 512) := le_blockMax sc _ _
    _ ≤ runMax sc (s.val / 512) := blockMax_le_runMax sc _
    _ ≤ runMax sc 15 := runMax_mono sc hj

/-- The running maximum after the last block is the row's maximum. -/
theorem runMax_last_eq : runMax sc 15 = rowMaxRef sc := by
  unfold rowMaxRef
  rw [Attn.ofBits_neg_inf, max_eq_right bot_le]
  exact le_antisymm (runMax_le_rowFold sc 15) ((Finset.fold_max_le _).2 ⟨bot_le, fun s _ => le_runMax_last sc s⟩)

end RunningMax

/-! ## Real scores: the running sum -/

/-- exp of a difference of two reals, inside the extended reals. -/
theorem exp_coe_sub (a b : ℝ) : Ideal.exp ((a : EReal) - (b : EReal)) = ((Real.exp (a - b) : ℝ) : EReal) := by
  rw [← EReal.coe_sub, Ideal.exp_coe]

/-- The real scores of block j. -/
abbrev blockScores (S : Fin 8192 → ℝ) (j : ℕ) (b : Fin 512) : ℝ := S (keyAt j b)

section RealScores
variable (sc : Fin 8192 → EReal) (S : Fin 8192 → ℝ) (hS : ∀ s, sc s = (S s : EReal))
include hS

/-- The maximum of a block of real scores is a real. -/
theorem blockMax_real (j : ℕ) : ∃ Mb : ℝ, blockMax sc j = (Mb : EReal) := by
  obtain ⟨Mb, hMb⟩ := Attn.rowMax_real (blockScores S j) ⟨0, by decide⟩
  refine ⟨Mb, ?_⟩
  unfold blockMax
  have e : (fun b => sc (keyAt j b)) = fun b => ((blockScores S j b : ℝ) : EReal) := funext fun b => hS _
  rw [e]
  exact hMb

/-- After block j the running maximum is a real μ and the running sum is the sum of exp (S - μ) over the keys of
    blocks 0 … j. -/
theorem run_inv (j : ℕ) : ∃ μ : ℝ, runMax sc j = (μ : EReal)
    ∧ runSum sc j = ((OnlineSoftmax.den (blockScores S) (j + 1) μ : ℝ) : EReal) := by
  induction j with
  | zero =>
    obtain ⟨Mb, hMb⟩ := blockMax_real sc S hS 0
    have hm : runMax sc 0 = (Mb : EReal) := by
      rw [runMax_zero, Attn.ofBits_neg_inf, hMb]
      exact max_eq_right bot_le
    refine ⟨Mb, hm, ?_⟩
    rw [runSum_zero, Attn.ofBits_zero, zero_mul, zero_add, OnlineSoftmax.den_succ]
    unfold OnlineSoftmax.den blockSum
    rw [Finset.range_zero, Finset.sum_empty, zero_add, Attn.coe_sum]
    refine Finset.sum_congr rfl fun b _ => ?_
    rw [hm, hS, exp_coe_sub]
  | succ j ih =>
    obtain ⟨μ, hm, hl⟩ := ih
    obtain ⟨Mb, hMb⟩ := blockMax_real sc S hS (j + 1)
    have hm' : runMax sc (j + 1) = ((max μ Mb : ℝ) : EReal) := by
      rw [runMax_succ, hm, hMb]
      exact (EReal.coe_strictMono.monotone.map_max).symm
    refine ⟨max μ Mb, hm', ?_⟩
    rw [runSum_succ, hl, hm, hm', exp_coe_sub, OnlineSoftmax.den_succ (blockScores S) (j + 1) (max μ Mb),
      ← OnlineSoftmax.den_shift (blockScores S) (j + 1) μ (max μ Mb), EReal.coe_add, EReal.coe_mul,
      mul_comm ((OnlineSoftmax.den (blockScores S) (j + 1) μ : ℝ) : EReal)]
    congr 1
    unfold blockSum
    rw [Attn.coe_sum]
    refine Finset.sum_congr rfl fun b _ => ?_
    rw [hm', hS, exp_coe_sub]

/-- THE LAW: for a row of real scores the block-by-block form of entry s is the one-pass softmax at s. -/
theorem kernelFormOf_eq_softmaxOf (s : Fin 8192) : kernelFormOf sc s = softmaxOf sc s := by
  obtain ⟨M, hM, hL15⟩ := run_inv sc S hS 15
  have hL : runSum sc 15 = ((OnlineSoftmax.den (blockScores S) 16 M : ℝ) : EReal) := hL15
  obtain ⟨μ, hμ, -⟩ := run_inv sc S hS (s.val / 512)
  have hpos : 0 < OnlineSoftmax.den (blockScores S) 16 M :=
    OnlineSoftmax.den_pos (blockScores S) 16 M (by decide) (by decide)
  have hsum : ∑ s' : Fin 8192, Real.exp (S s' - M) = OnlineSoftmax.den (blockScores S) 16 M := by
    rw [BlockedSoftmax.sum_cols (J := 16) (B := 512) (T := 8192) (by norm_num) (by decide)
      (fun c => Real.exp (S c - M))]
    rfl
  have hlse : lse sc = ((M + Real.log (OnlineSoftmax.den (blockScores S) 16 M) : ℝ) : EReal) := by
    unfold lse
    rw [hM, hL, Ideal.log_coe, if_neg (not_le.2 hpos), ← EReal.coe_add]
  have hrow : rowMaxRef sc = (M : EReal) := by rw [← runMax_last_eq, hM]
  have hden : ∑ s' : Fin 8192, Ideal.exp (sc s' - (M : EReal))
      = ((OnlineSoftmax.den (blockScores S) 16 M : ℝ) : EReal) := by
    rw [← hsum, Attn.coe_sum]
    exact Finset.sum_congr rfl fun s' _ => by rw [hS s', exp_coe_sub]
  unfold kernelFormOf softmaxOf
  rw [hμ, hlse, hrow, hden, hS s, exp_coe_sub, exp_coe_sub, exp_coe_sub, Attn.ofBits_zero, zero_add,
    Ideal.div_coe hpos.ne', ← EReal.coe_mul, ← EReal.coe_mul]
  congr 1
  rw [← Real.exp_add,
    show S s - μ + (μ - (M + Real.log (OnlineSoftmax.den (blockScores S) 16 M)))
      = (S s - M) - Real.log (OnlineSoftmax.den (blockScores S) 16 M) by ring,
    Real.exp_sub, Real.exp_log hpos]
  ring

end RealScores

end Cert.Proof.Softmax

end
-- ==== Proof.DistanceLaw.lean ====
/-
  The two programs compute the same attention weights when every coordinate of every point is a real number.

  (a) The scores agree. With Q = qq r, K = kk s, X = qk r s real numbers (finite sums of products of reals),
      (Q - X) - (X - K) = (Q + K) - 2 * X
  over the reals, so the two ways of writing the clamped squared distance give the same extended real, and the scores
  built from them are equal. The score is moreover a real: the clamped distance n is a real ≥ 0, the constant c is a
  real ≥ 0, so each of n + c * d * d is a real ≥ 0, its square root is a real, and so is w times the sum of the two.

  (b) The softmaxes agree: a row of real scores walked in 16 blocks of 512 with a running maximum and a rescaled
  running sum gives, entry by entry, the one-pass softmax of the row.
-/
import proofs.«137461_j77884936945679_2_alg».proof.Proof.DistanceSpec
import proofs.«137461_j77884936945679_2_alg».proof.Proof.RowSoftmaxLaw

noncomputable section

open scoped BigOperators

namespace Cert.Proof.Softmax

open Idealize.ShloMosaic Idealize.ShloMosaic.ValueIdx

/-! ## The float words the score uses -/

/-- The f32 pattern 0x40000000 denotes the real 2. -/
theorem ofBits_two_f32 : Ideal.ofBits .f32 0x40000000#32 = ((2 : ℝ) : EReal) := by
  simp [Ideal.ofBits, Ideal.ieee, -EReal.coe_mul]; norm_num

/-- The f32 pattern 0x3C23D70A (the float nearest 1/100) denotes a non-negative real; its value is never needed. -/
theorem ofBits_metric_scale_nonneg : ∃ c : ℝ, 0 ≤ c ∧ Ideal.ofBits .f32 0x3C23D70A#32 = (c : EReal) := by
  simp only [Ideal.ofBits, Ideal.ieee]
  simp (config := {decide := true}) [-EReal.coe_mul]

/-- Clamping a real at the pattern of +0 is clamping it at 0. -/
theorem max_coe_zero_word (t : ℝ) :
    max (t : EReal) (Ideal.ofBits .f32 0x00000000#32) = ((max t 0 : ℝ) : EReal) := by
  rw [Ideal.ofBits_zero_f32, ← EReal.coe_zero]
  exact (EReal.coe_strictMono.monotone.map_max).symm

/-! ## Real points -/

section RealPoints
variable (q k : Pts) (hq : ∀ i, ∃ a : ℝ, q i = (a : EReal)) (hk : ∀ i, ∃ a : ℝ, k i = (a : EReal))

include hq in
/-- The squared length of a real query point is a real. -/
theorem qq_real (r : Fin 8192) : ∃ a : ℝ, qq q r = (a : EReal) := by
  unfold qq
  exact Attn.sum_mul_real (fun d : Fin 512 => q (ix2 r d)) (fun d => q (ix2 r d)) (fun d => hq _) (fun d => hq _)

include hk in
/-- The squared length of a real key point is a real. -/
theorem kk_real (s : Fin 8192) : ∃ a : ℝ, kk k s = (a : EReal) := by
  unfold kk
  exact Attn.sum_mul_real (fun d : Fin 512 => k (ix2 s d)) (fun d => k (ix2 s d)) (fun d => hk _) (fun d => hk _)

include hq hk in
/-- The inner product of a real query point and a real key point is a real. -/
theorem qk_real (r s : Fin 8192) : ∃ a : ℝ, qk q k r s = (a : EReal) := by
  unfold qk
  exact Attn.sum_mul_real (fun d : Fin 512 => q (ix2 r d)) (fun d => k (ix2 s d)) (fun d => hq _) (fun d => hk _)

include hq hk in
/-- The two ways of writing the clamped squared distance agree: (Q - X) - (X - K) = (Q + K) - 2 * X. -/
theorem dist2Ker_eq_dist2Ref (r s : Fin 8192) : dist2Ker q k r s = dist2Ref q k r s := by
  obtain ⟨Q, hQ⟩ := qq_real q hq r
  obtain ⟨K, hK⟩ := kk_real k hk s
  obtain ⟨X, hX⟩ := qk_real q k hq hk r s
  unfold dist2Ker dist2Ref
  rw [hQ, hK, hX, ofBits_two_f32]
  have e1 : ((Q : EReal) - X) - ((X : EReal) - K) = (((Q - X) - (X - K) : ℝ) : EReal) := by norm_cast
  have e2 : ((Q : EReal) + K) - ((2 : ℝ) : EReal) * X = (((Q + K) - 2 * X : ℝ) : EReal) := by norm_cast
  rw [e1, e2]
  congr 2
  ring

include hq hk in
/-- (a), first half: the two scores agree. -/
theorem scoreKer_eq_scoreRef (r s : Fin 8192) : scoreKer q k r s = scoreRef q k r s := by
  unfold scoreKer scoreRef
  rw [dist2Ker_eq_dist2Ref q k hq hk r s]

/-- The score built from a real clamped distance n ≥ 0 and real projections is a real. -/
theorem scoreOf_real (n Qd Kd : ℝ) (hn : 0 ≤ n) :
    ∃ σ : ℝ, scoreOf (n : EReal) (Qd : EReal) (Kd : EReal) = (σ : EReal) := by
  obtain ⟨c, hc0, hc⟩ := ofBits_metric_scale_nonneg
  unfold scoreOf
  rw [hc, Attn.ofBits_neg_half]
  have h1 : (n : EReal) + (c : EReal) * Qd * Qd = ((n + c * Qd * Qd : ℝ) : EReal) := by norm_cast
  have h2 : (n : EReal) + (c : EReal) * Kd * Kd = ((n + c * Kd * Kd : ℝ) : EReal) := by norm_cast
  have p1 : 0 ≤ n + c * Qd * Qd := by
    have := mul_nonneg hc0 (mul_self_nonneg Qd)
    rw [mul_assoc]; linarith
  have p2 : 0 ≤ n + c * Kd * Kd := by
    have := mul_nonneg hc0 (mul_self_nonneg Kd)
    rw [mul_assoc]; linarith
  rw [h1, h2, Ideal.sqrt_coe, Ideal.sqrt_coe, if_neg (not_lt.2 p1), if_neg (not_lt.2 p2), ← EReal.coe_add,
    ← EReal.coe_mul]
  exact ⟨_, rfl⟩

include hq hk in
/-- (a), second half: the score of a real query point against a real key point is a real. -/
theorem scoreRef_real (r s : Fin 8192) : ∃ σ : ℝ, scoreRef q k r s = (σ : EReal) := by
  obtain ⟨Q, hQ⟩ := qq_real q hq r
  obtain ⟨K, hK⟩ := kk_real k hk s
  obtain ⟨X, hX⟩ := qk_real q k hq hk r s
  unfold scoreRef dist2Ref
  rw [hQ, hK, hX, ofBits_two_f32]
  have e2 : ((Q : EReal) + K) - ((2 : ℝ) : EReal) * X = (((Q + K) - 2 * X : ℝ) : EReal) := by norm_cast
  have e3 : (Q : EReal) - X = ((Q - X : ℝ) : EReal) := by norm_cast
  have e4 : (X : EReal) - K = ((X - K : ℝ) : EReal) := by norm_cast
  rw [e2, e3, e4, max_coe_zero_word]
  exact scoreOf_real _ _ _ (le_max_right _ _)

include hq hk in
/-- THE TWO PROGRAMS AGREE: the block-by-block form of entry (r, s) is the one-pass softmax of row r at s. -/
theorem kernelForm_eq_softmaxRef (r s : Fin 8192) : kernelForm q k r s = softmaxRef q k r s := by
  unfold kernelForm softmaxRef
  have e : scoreKer q k r = scoreRef q k r := funext fun s' => scoreKer_eq_scoreRef q k hq hk r s'
  rw [e]
  choose S hS using fun s' => scoreRef_real q k hq hk r s'
  exact kernelFormOf_eq_softmaxOf (scoreRef q k r) S hS s

end RealPoints

end Cert.Proof.Softmax

end
-- ==== Proof.FiniteInputs.lean ====
/-
  From the precondition to real entries.

  The precondition says of each of the two arrays that every entry's absolute value is below +∞, and takes the
  conjunction over all entries. On the extended reals |x| < +∞ excludes exactly x = +∞ and x = -∞ (|x| is
  max x (-x), which is +∞ at both), so every entry is the coercion of a real number.
-/
import proofs.«137461_j77884936945679_2_alg».proof.Pre_finite_inputs
import Idealize.ShloMosaic.Lib.ReduceAll
import Idealize.ShloMosaic.Lib.ValueIdx
import Idealize.ShloMosaic.PureOps.Ideal.Laws

noncomputable section

namespace Cert.Proof.Softmax

open Idealize.ShloMosaic

/-- The scalar shape has exactly one index. -/
instance subsingleton_scalar_idx : Subsingleton Cert.Pre_finite_inputs.S_.Idx :=
  ⟨fun a b => funext fun d => d.elim0⟩

/-- The f32 pattern 0x7F800000 denotes +∞. -/
theorem ofBits_pos_inf_f32 : Ideal.ofBits .f32 0x7F800000#32 = ⊤ := by simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ a : ℝ, x = (a : EReal) := by
  rw [ofBits_pos_inf_f32] at h
  induction x using EReal.rec with
  | bot => simp [Ideal.cmp] at h
  | coe a => exact ⟨a, rfl⟩
  | top => simp [Ideal.cmp] at h

/-- Under the precondition every entry of both arrays is a real number. -/
theorem real_of_pre [Cert.Pre_finite_inputs.Facts] (x y : FVec Ideal Cert.Pre_finite_inputs.S8192x512 .f32)
    (h : Cert.Pre_finite_inputs.fn (F := Ideal) x y = fun _ => 1#1) :
    (∀ i, ∃ a : ℝ, x i = (a : EReal)) ∧ (∀ i, ∃ a : ℝ, y i = (a : EReal)) := by
  have h0 := congrFun h ValueIdx.ix0
  dsimp only [Cert.Pre_finite_inputs.fn] at h0
  obtain ⟨hx, hy⟩ := IntOp.andi_eq_one.1 h0
  refine ⟨fun i => ?_, fun i => ?_⟩
  · exact real_of_abs_lt_inf (x i) (Host.reduce_andi_all _ _ _ _ _ hx i)
  · exact real_of_abs_lt_inf (y i) (Host.reduce_andi_all _ _ _ _ _ hy i)

end Cert.Proof.Softmax

end
-- ==== Proof.lean ====
/-
  Riemannian-metric attention weights: for 8192 query points q and 8192 key points k in 512 dimensions, the score of
  query r against key s is  −½·(√(n + c·a²) + √(n + c·b²))  with a = q_r·(q_r − k_s), b = k_s·(q_r − k_s), n the clamped
  squared distance max(‖q_r − k_s‖², 0) and c the f32 word nearest 0.01 (the same word in both programs), and the result
  is the softmax of each row of scores.

  The reference computes n as (‖q_r‖² + ‖k_s‖²) − 2·q_r·k_s and the softmax in one pass, exp(score − row maximum) over
  the row's sum. The kernel computes n as (‖q_r‖² − q_r·k_s) − (q_r·k_s − ‖k_s‖²), walks each row block over sixteen key
  blocks keeping a running maximum and a running weight sum, writes exp(score − running maximum so far) and records
  that maximum, and in a second pass multiplies each entry by exp(recorded maximum − (final maximum + log final sum)).
  For finite inputs every inner product is a real number, the two arrangements of n agree, every score is a real, and
  the block-by-block weights equal the one-pass softmax; that is the algebraic claim. The frames: both kernel regions
  run to the end on every point of their 8 × 16 grids, nothing faulting, and no host operation or window touches q or k.
  The idealization rewrote nothing, so there is nothing to preserve.
-/
import proofs.«137461_j77884936945679_2_alg».proof.Defs
import proofs.«137461_j77884936945679_2_alg».proof.Proof.Gen.Kernel
import proofs.«137461_j77884936945679_2_alg».proof.Proof.Gen.KernelIdeal
import proofs.«137461_j77884936945679_2_alg».proof.Proof.Gen.ReferenceIdeal
import proofs.«137461_j77884936945679_2_alg».proof.Proof.Gen.Pre_finite_inputs
import proofs.«137461_j77884936945679_2_alg».proof.Proof.WordWholeRun
import proofs.«137461_j77884936945679_2_alg».proof.Proof.KernelValue
import proofs.«137461_j77884936945679_2_alg».proof.Proof.ReferenceValue
import proofs.«137461_j77884936945679_2_alg».proof.Proof.DistanceLaw
import proofs.«137461_j77884936945679_2_alg».proof.Proof.FiniteInputs
import Idealize.ShloMosaic.Adequacy
import Idealize.ShloMosaic.Init

noncomputable section

namespace Cert.Proof

open Idealize.ShloMosaic Idealize.SL.Sem

/-- The program as printed runs to the end and leaves q and k as launched. -/
theorem frame_kernel : Cert.frame_Kernel := fun m ρ _ =>
  (θ_run Cert.Kernel.defs _ _).mono (fun _ h c => (h c).2) (Cert.Kernel.Whole.run (F := Bits) m ρ)

/-- So does its reading at the extended reals. -/
theorem frame_kernelIdeal : Cert.frame_KernelIdeal := fun m ρ _ =>
  (θ_run Cert.KernelIdeal.defs _ _).mono (fun _ h c => (h c).2) (Cert.KernelIdeal.Whole.run (F := Ideal) m ρ)

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From finite q and k the kernel's result buffer ends at the block-by-block softmax weights and the reference's at the
    one-pass softmax of the same scores: equal, entry by entry. -/
theorem algebraic : Cert.algebraic_KernelIdeal_ReferenceIdeal := by
  intro m ρ m' ρ' hpre hagree
  refine ⟨fun c => Cert.KernelIdeal.Whole.W4 m ρ c (Proc.devRef .tc Cert.KernelIdeal.main_v10),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hq, hk⟩ := Cert.Proof.Softmax.real_of_pre _ _ (hpre c)
  rw [Cert.ReferenceIdeal.Read.val_main_v44_eq, Cert.Proof.Softmax.reference_eq, (hagree c).1, (hagree c).2]
  refine Eq.trans ?_ (Cert.KernelIdeal.Final.result_value m ρ c).symm
  funext i
  exact (Cert.Proof.Softmax.kernelForm_eq_softmaxRef _ _ hq hk (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
